-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S2x4096x32 : Shape := ⟨3, ![2, 4096, 32]⟩
abbrev S100000x64 : Shape := ⟨2, ![100000, 64]⟩
abbrev S32x64 : Shape := ⟨2, ![32, 64]⟩
abbrev S128x64 : Shape := ⟨2, ![128, 64]⟩
abbrev S64x64 : Shape := ⟨2, ![64, 64]⟩
abbrev S64x1 : Shape := ⟨2, ![64, 1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg12 : FVec F S64x1 .f32) (main_arg13 : FVec F S128x64 .f32) (main_arg14 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x1 .f32 := Host.absf main_arg12
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S128x64 .f32 := Host.absf main_arg13
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64x64 .f32 := Host.absf main_arg14
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : IVec S4096 32) (main_arg1 : IVec S4096 32) (main_arg2 : IVec S2x4096x32 32) (main_arg3 : IVec S2x4096x32 32) (main_arg4 : IVec S2x4096x32 32) (main_arg5 : IVec S2x4096x32 32) (main_arg6 : IVec S2x4096x32 32) (main_arg7 : IVec S2x4096x32 32) (main_arg8 : FVec F S100000x64 .f32) (main_arg9 : FVec F S32x64 .f32) (main_arg10 : FVec F S128x64 .f32) (main_arg11 : FVec F S64x64 .f32) (main_arg12 : FVec F S64x1 .f32) (main_arg13 : FVec F S128x64 .f32) (main_arg14 : FVec F S64x64 .f32) : IVec S_ 1 :=
  let main_v0 : FVec F S100000x64 .f32 := Host.absf main_arg8
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S32x64 .f32 := Host.absf main_arg9
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S128x64 .f32 := Host.absf main_arg10
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x64 .f32 := Host.absf main_arg11
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg12 main_arg13 main_arg14 main_v13 main_v16
-- ==== Kernel.lean ====
abbrev S4096 : Shape := ⟨1, ![4096]⟩
abbrev S2x4096x32 : Shape := ⟨3, ![2, 4096, 32]⟩
abbrev S100000x64 : Shape := ⟨2, ![100000, 64]⟩
abbrev S32x64 : Shape := ⟨2, ![32, 64]⟩
abbrev S128x64 : Shape := ⟨2, ![128, 64]⟩
abbrev S64x64 : Shape := ⟨2, ![64, 64]⟩
abbrev S64x1 : Shape := ⟨2, ![64, 1]⟩
abbrev S128x128 : Shape := ⟨2, ![128, 128]⟩
abbrev S_ : Shape := ⟨0, ![]⟩
abbrev S64x128 : Shape := ⟨2, ![64, 128]⟩
abbrev S64 : Shape := ⟨1, ![64]⟩
abbrev S1x64 : Shape := ⟨2, ![1, 64]⟩
abbrev S2x4096x32x1 : Shape := ⟨4, ![2, 4096, 32, 1]⟩
abbrev S2x4096x32x64 : Shape := ⟨4, ![2, 4096, 32, 64]⟩
abbrev S1x4096x32 : Shape := ⟨3, ![1, 4096, 32]⟩
abbrev S4096x32 : Shape := ⟨2, ![4096, 32]⟩
abbrev S4096x32x1 : Shape := ⟨3, ![4096, 32, 1]⟩
abbrev S4096x32x64 : Shape := ⟨3, ![4096, 32, 64]⟩
abbrev S4096x64 : Shape := ⟨2, ![4096, 64]⟩
abbrev S2x4096x64 : Shape := ⟨3, ![2, 4096, 64]⟩
abbrev S2x128x32x64 : Shape := ⟨4, ![2, 128, 32, 64]⟩
abbrev S2x128x64 : Shape := ⟨3, ![2, 128, 64]⟩
abbrev S2x128x32x128 : Shape := ⟨4, ![2, 128, 32, 128]⟩
abbrev S8192x128 : Shape := ⟨2, ![8192, 128]⟩
abbrev S8192x64 : Shape := ⟨2, ![8192, 64]⟩
abbrev S8192 : Shape := ⟨1, ![8192]⟩
abbrev S2x128x32 : Shape := ⟨3, ![2, 128, 32]⟩
abbrev S2x128 : Shape := ⟨2, ![2, 128]⟩
abbrev S2x128x1 : Shape := ⟨3, ![2, 128, 1]⟩
abbrev S2x128x32x1 : Shape := ⟨4, ![2, 128, 32, 1]⟩
abbrev S1x4096x64 : Shape := ⟨3, ![1, 4096, 64]⟩
abbrev S4096x192 : Shape := ⟨2, ![4096, 192]⟩
abbrev S4096x1 : Shape := ⟨2, ![4096, 1]⟩

abbrev nBuf : Space → Nat
  | .hbm => 129
  | .vmem => 22
  | .smem => 0
  | _ => 0

abbrev hbmTy0_0 (i : Nat) : BufTy := match i % 128 with
  | 0 => ⟨S4096, .i32⟩
  | 1 => ⟨S4096, .i32⟩
  | 2 => ⟨S2x4096x32, .i32⟩
  | 3 => ⟨S2x4096x32, .i32⟩
  | 4 => ⟨S2x4096x32, .i32⟩
  | 5 => ⟨S2x4096x32, .i32⟩
  | 6 => ⟨S2x4096x32, .i32⟩
  | 7 => ⟨S2x4096x32, .i32⟩
  | 8 => ⟨S100000x64, .f32⟩
  | 9 => ⟨S32x64, .f32⟩
  | 10 => ⟨S128x64, .f32⟩
  | 11 => ⟨S64x64, .f32⟩
  | 12 => ⟨S64x1, .f32⟩
  | 13 => ⟨S128x64, .f32⟩
  | 14 => ⟨S64x64, .f32⟩
  | 15 => ⟨S100000x64, .bf16⟩
  | 16 => ⟨S32x64, .bf16⟩
  | 17 => ⟨S128x128, .f32⟩
  | 18 => ⟨S128x128, .bf16⟩
  | 19 => ⟨S_, .f32⟩
  | 20 => ⟨S64x64, .f32⟩
  | 21 => ⟨S64x128, .f32⟩
  | 22 => ⟨S64x128, .f32⟩
  | 23 => ⟨S128x128, .f32⟩
  | 24 => ⟨S128x128, .bf16⟩
  | 25 => ⟨S64, .f32⟩
  | 26 => ⟨S1x64, .f32⟩
  | 27 => ⟨S_, .i32⟩
  | 28 => ⟨S2x4096x32, .i32⟩
  | 29 => ⟨S2x4096x32, .i1⟩
  | 30 => ⟨S_, .i32⟩
  | 31 => ⟨S2x4096x32, .i32⟩
  | 32 => ⟨S2x4096x32, .i32⟩
  | 33 => ⟨S2x4096x32, .i32⟩
  | 34 => ⟨S2x4096x32x1, .i32⟩
  | 35 => ⟨S2x4096x32x64, .bf16⟩
  | 36 => ⟨S_, .i32⟩
  | 37 => ⟨S2x4096x32, .i32⟩
  | 38 => ⟨S2x4096x32, .i1⟩
  | 39 => ⟨S_, .i32⟩
  | 40 => ⟨S2x4096x32, .i32⟩
  | 41 => ⟨S2x4096x32, .i32⟩
  | 42 => ⟨S2x4096x32, .i32⟩
  | 43 => ⟨S2x4096x32x1, .i32⟩
  | 44 => ⟨S2x4096x32x64, .bf16⟩
  | 45 => ⟨S_, .i32⟩
  | 46 => ⟨S2x4096x32, .i32⟩
  | 47 => ⟨S2x4096x32, .i1⟩
  | 48 => ⟨S_, .i32⟩
  | 49 => ⟨S2x4096x32, .i32⟩
  | 50 => ⟨S2x4096x32, .i32⟩
  | 51 => ⟨S2x4096x32, .i32⟩
  | 52 => ⟨S2x4096x32x1, .i32⟩
  | 53 => ⟨S2x4096x32x64, .bf16⟩
  | 54 => ⟨S1x4096x32, .i32⟩
  | 55 => ⟨S4096x32, .i32⟩
  | 56 => ⟨S_, .i32⟩
  | 57 => ⟨S4096x32, .i32⟩
  | 58 => ⟨S4096x32, .i1⟩
  | 59 => ⟨S_, .i32⟩
  | 60 => ⟨S4096x32, .i32⟩
  | 61 => ⟨S4096x32, .i32⟩
  | 62 => ⟨S4096x32, .i32⟩
  | 63 => ⟨S4096x32x1, .i32⟩
  | 64 => ⟨S4096x32x64, .f32⟩
  | 65 => ⟨S_, .f32⟩
  | 66 => ⟨S4096x64, .f32⟩
  | 67 => ⟨S_, .f32⟩
  | 68 => ⟨S4096x64, .f32⟩
  | 69 => ⟨S4096x64, .f32⟩
  | 70 => ⟨S2x4096x64, .f32⟩
  | 71 => ⟨S1x4096x64, .f32⟩
  | 72 => ⟨S4096x64, .f32⟩
  | 73 => ⟨S1x4096x64, .f32⟩
  | 74 => ⟨S4096x64, .f32⟩
  | 75 => ⟨S4096x192, .f32⟩
  | 76 => ⟨S_, .i32⟩
  | 77 => ⟨S2x4096x32, .i32⟩
  | 78 => ⟨S2x4096x32, .i1⟩
  | 79 => ⟨S_, .i32⟩
  | 80 => ⟨S2x4096x32, .i32⟩
  | 81 => ⟨S2x4096x32, .i32⟩
  | 82 => ⟨S2x4096x32, .i32⟩
  | 83 => ⟨S2x4096x32x1, .i32⟩
  | 84 => ⟨S2x4096x32x64, .bf16⟩
  | 85 => ⟨S_, .i32⟩
  | 86 => ⟨S2x4096x32, .i32⟩
  | 87 => ⟨S2x4096x32, .i1⟩
  | 88 => ⟨S_, .i32⟩
  | 89 => ⟨S2x4096x32, .i32⟩
  | 90 => ⟨S2x4096x32, .i32⟩
  | 91 => ⟨S2x4096x32, .i32⟩
  | 92 => ⟨S2x4096x32x1, .i32⟩
  | 93 => ⟨S2x4096x32x64, .bf16⟩
  | 94 => ⟨S_, .i32⟩
  | 95 => ⟨S2x4096x32, .i32⟩
  | 96 => ⟨S2x4096x32, .i1⟩
  | 97 => ⟨S_, .i32⟩
  | 98 => ⟨S2x4096x32, .i32⟩
  | 99 => ⟨S2x4096x32, .i32⟩
  | 100 => ⟨S2x4096x32, .i32⟩
  | 101 => ⟨S2x4096x32x1, .i32⟩
  | 102 => ⟨S2x4096x32x64, .bf16⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S4096x1, .i32⟩
  | 111 => ⟨S4096x64, .f32⟩
  | 112 => ⟨S2x4096x64, .f32⟩
  | 113 => ⟨S1x4096x64, .f32⟩
  | 114 => ⟨S4096x64, .f32⟩
  | 115 => ⟨S1x4096x64, .f32⟩
  | 116 => ⟨S4096x64, .f32⟩
  | 117 => ⟨S4096x192, .f32⟩
  | 118 => ⟨S4096x192, .f32⟩
  | 119 => ⟨S_, .f32⟩
  | 120 => ⟨S4096, .f32⟩
  | 121 => ⟨S4096, .f32⟩
  | 122 => ⟨S4096, .f32⟩
  | 123 => ⟨S_, .f32⟩
  | 124 => ⟨S4096, .f32⟩
  | 125 => ⟨S4096, .f32⟩
  | 126 => ⟨S_, .f32⟩
  | 127 => ⟨S4096, .f32⟩
  | _ => ⟨S4096, .i32⟩

abbrev hbmTy0_1 (i : Nat) : BufTy := match i % 128 with
  | 0 => ⟨S4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | .local _ .vmem, ⟨0, _⟩ => ⟨S2x128x32x64, .bf16⟩
  | .local _ .vmem, ⟨1, _⟩ => ⟨S2x128x32x64, .bf16⟩
  | .local _ .vmem, ⟨2, _⟩ => ⟨S2x128x32x64, .bf16⟩
  | .local _ .vmem, ⟨3, _⟩ => ⟨S2x128x32x64, .bf16⟩
  | .local _ .vmem, ⟨4, _⟩ => ⟨S2x128x32x64, .bf16⟩
  | .local _ .vmem, ⟨5, _⟩ => ⟨S2x128x32x64, .bf16⟩
  | .local _ .vmem, ⟨6, _⟩ => ⟨S128x128, .bf16⟩
  | .local _ .vmem, ⟨7, _⟩ => ⟨S128x128, .bf16⟩
  | .local _ .vmem, ⟨8, _⟩ => ⟨S1x64, .f32⟩
  | .local _ .vmem, ⟨9, _⟩ => ⟨S2x128x64, .f32⟩
  | .local _ .vmem, ⟨10, _⟩ => ⟨S2x128x64, .f32⟩
  | .local _ .vmem, ⟨11, _⟩ => ⟨S2x128x32x64, .bf16⟩
  | .local _ .vmem, ⟨12, _⟩ => ⟨S2x128x32x64, .bf16⟩
  | .local _ .vmem, ⟨13, _⟩ => ⟨S2x128x32x64, .bf16⟩
  | .local _ .vmem, ⟨14, _⟩ => ⟨S2x128x32x64, .bf16⟩
  | .local _ .vmem, ⟨15, _⟩ => ⟨S2x128x32x64, .bf16⟩
  | .local _ .vmem, ⟨16, _⟩ => ⟨S2x128x32x64, .bf16⟩
  | .local _ .vmem, ⟨17, _⟩ => ⟨S128x128, .bf16⟩
  | .local _ .vmem, ⟨18, _⟩ => ⟨S128x128, .bf16⟩
  | .local _ .vmem, ⟨19, _⟩ => ⟨S1x64, .f32⟩
  | .local _ .vmem, ⟨20, _⟩ => ⟨S2x128x64, .f32⟩
  | .local _ .vmem, ⟨21, _⟩ => ⟨S2x128x64, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_1 : Ref sig .tc := ⟨.hbm, 36, rfl⟩
abbrev main_v18 : Ref sig .tc := ⟨.hbm, 37, rfl⟩
abbrev main_v19 : Ref sig .tc := ⟨.hbm, 38, rfl⟩
abbrev main_c_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_3 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_17 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_18 : Ref sig .tc := ⟨.hbm, 123, rfl⟩
abbrev main_v88 : Ref sig .tc := ⟨.hbm, 124, rfl⟩
abbrev main_v89 : Ref sig .tc := ⟨.hbm, 125, rfl⟩
abbrev main_cst_19 : Ref sig .tc := ⟨.hbm, 126, rfl⟩
abbrev main_v90 : Ref sig .tc := ⟨.hbm, 127, rfl⟩
abbrev main_v91 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x128x32x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x32x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x32x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2x128x32x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x128x32x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x128x32x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2x128x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  concatenates_S128x64_S128x64_S128x128_d1 : Shape.Concatenates [S128x64, S128x64] S128x128 1
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  shapeCasts_S64x1_S64 : S64x1.ShapeCasts S64
  shapeCasts_S64_S1x64 : S64.ShapeCasts S1x64
  bcast_S_S2x4096x32 : S_.BroadcastsInDim S2x4096x32 (![] : Fin 0 → Fin S2x4096x32.rank)
  bcast_S2x4096x32_S2x4096x32x1_0_1_2 : S2x4096x32.BroadcastsInDim S2x4096x32x1 (![0, 1, 2] : Fin 3 → Fin S2x4096x32x1.rank)
  slices_S2x4096x32_S1x4096x32_0_0_0 : S2x4096x32.Slices ![0, 0, 0] S1x4096x32
  shapeCasts_S1x4096x32_S4096x32 : S1x4096x32.ShapeCasts S4096x32
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  reducesTo_S4096x32x64_S4096x64_d1 : S4096x32x64.ReducesTo [1] S4096x64
  h_S_ : 0 < S_.numel
  bcast_S_S4096x64 : S_.BroadcastsInDim S4096x64 (![] : Fin 0 → Fin S4096x64.rank)
  inb_S2x128x32x64_S2x128x32x64_0_0_0_0 : ∀ a, (![0, 0, 0, 0] : Fin 4 → Nat) a + S2x128x32x64.size a ≤ S2x128x32x64.size a
  h_S2x128x32x64 : 0 < S2x128x32x64.numel
  shapeCasts_S2x128x32x64_S2x128x32x64 : S2x128x32x64.ShapeCasts S2x128x32x64
  concatenates_S2x128x32x64_S2x128x32x64_S2x128x32x128_d3 : Shape.Concatenates [S2x128x32x64, S2x128x32x64] S2x128x32x128 3
  shapeCasts_S2x128x32x128_S8192x128 : S2x128x32x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S8192x128_o0_0_S8192x64 : S8192x128.Slices ![0, 0] S8192x64
  slices_S8192x128_o0_64_S8192x64 : S8192x128.Slices ![0, 64] S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  reduces_S8192x64_S8192 : S8192x64.Reduces [1] S8192
  shapeCasts_S8192_S2x128x32 : S8192.ShapeCasts S2x128x32
  reduces_S2x128x32_S2x128 : S2x128x32.Reduces [2] S2x128
  shapeCasts_S2x128_S2x128x1 : S2x128.ShapeCasts S2x128x1
  broadcasts_S2x128x1_S2x128x32 : S2x128x1.Broadcasts S2x128x32
  shapeCasts_S8192x64_S2x128x32x64 : S8192x64.ShapeCasts S2x128x32x64
  shapeCasts_S2x128x32_S2x128x32x1 : S2x128x32.ShapeCasts S2x128x32x1
  broadcasts_S2x128x32x1_S2x128x32x64 : S2x128x32x1.Broadcasts S2x128x32x64
  reduces_S2x128x32x64_S2x128x64 : S2x128x32x64.Reduces [2] S2x128x64
  inb_S2x128x64_S2x128x64_0_0_0 : ∀ a, (![0, 0, 0] : Fin 3 → Nat) a + S2x128x64.size a ≤ S2x128x64.size a
  h_S2x128x64 : 0 < S2x128x64.numel
  slices_S2x4096x64_S1x4096x64_0_0_0 : S2x4096x64.Slices ![0, 0, 0] S1x4096x64
  shapeCasts_S1x4096x64_S4096x64 : S1x4096x64.ShapeCasts S4096x64
  slices_S2x4096x64_S1x4096x64_1_0_0 : S2x4096x64.Slices ![1, 0, 0] S1x4096x64
  concatenates_S4096x64_S4096x64_S4096x64_S4096x192_d1 : Shape.Concatenates [S4096x64, S4096x64, S4096x64] S4096x192 1
  bcast_S_S4096 : S_.BroadcastsInDim S4096 (![] : Fin 0 → Fin S4096.rank)
  bcast_S4096_S4096x1_0 : S4096.BroadcastsInDim S4096x1 (![0] : Fin 1 → Fin S4096x1.rank)
  reducesTo_S4096x192_S4096_d1 : S4096x192.ReducesTo [1] S4096
  gather_S100000x64_S2x4096x32x1_S2x4096x32x64_3_0_n_n_0_3_164_wf : GatherDims.WF S100000x64 S2x4096x32x1 S2x4096x32x64 [3] [0] [] [0] [] 3 ![1, 64]
  gather_S32x64_S2x4096x32x1_S2x4096x32x64_3_0_n_n_0_3_164_wf : GatherDims.WF S32x64 S2x4096x32x1 S2x4096x32x64 [3] [0] [] [0] [] 3 ![1, 64]
  gather_S100000x64_S4096x32x1_S4096x32x64_2_0_n_n_0_2_164_wf : GatherDims.WF S100000x64 S4096x32x1 S4096x32x64 [2] [0] [] [0] [] 2 ![1, 64]
  dot_S8192x128_S128x128_S8192x128_1_0_0_1_n_n_wf : DotDims.WF S8192x128 S128x128 S8192x128 [1] [0] [0] [1] [] []
  gather_S100000x64_S4096x1_S4096x64_1_0_n_n_0_1_164_wf : GatherDims.WF S100000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x32x64.size a ≤ S2x4096x32x64.size a
  hwx0_0 : ∀ i : grid0.Coords, EltTy.bits .bf16 = 32 ∨ (Rect.block (s := S2x4096x32x64) S2x128x32x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x128x32x64.size a ≤ S2x4096x32x64.size a
  hwx0_1 : ∀ i : grid0.Coords, EltTy.bits .bf16 = 32 ∨ (Rect.block (s := S2x4096x32x64) S2x128x32x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x128x32x64.size a ≤ S2x4096x32x64.size a
  hwx0_2 : ∀ i : grid0.Coords, EltTy.bits .bf16 = 32 ∨ (Rect.block (s := S2x4096x32x64) S2x128x32x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x128x64.size a ≤ S2x4096x64.size a
  hwx0_6 : ∀ i : grid0.Coords, EltTy.bits .f32 = 32 ∨ (Rect.block (s := S2x4096x64) S2x128x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x128x32x64.size a ≤ S2x4096x32x64.size a
  hwx1_0 : ∀ i : grid1.Coords, EltTy.bits .bf16 = 32 ∨ (Rect.block (s := S2x4096x32x64) S2x128x32x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x128x32x64.size a ≤ S2x4096x32x64.size a
  hwx1_1 : ∀ i : grid1.Coords, EltTy.bits .bf16 = 32 ∨ (Rect.block (s := S2x4096x32x64) S2x128x32x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x128x32x64.size a ≤ S2x4096x32x64.size a
  hwx1_2 : ∀ i : grid1.Coords, EltTy.bits .bf16 = 32 ∨ (Rect.block (s := S2x4096x32x64) S2x128x32x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2x128x64.size a ≤ S2x4096x64.size a
  hwx1_6 : ∀ i : grid1.Coords, EltTy.bits .f32 = 32 ∨ (Rect.block (s := S2x4096x64) S2x128x64.size (cc1_transform_6 i) (hinb1_6 i)).WholeWords (EltTy.packing .f32)

variable [Facts₀]

def gather_S100000x64_S2x4096x32x1_S2x4096x32x64_3_0_n_n_0_3_164 : GatherDims S100000x64 S2x4096x32x1 S2x4096x32x64 where
  offsetDims := [3]
  collapsedSliceDims := [0]
  operandBatchingDims := []
  startIndicesBatchingDims := []
  startIndexMap := [0]
  indexVectorDim := 3
  sliceSizes := ![1, 64]
  wf := gather_S100000x64_S2x4096x32x1_S2x4096x32x64_3_0_n_n_0_3_164_wf
def gather_S32x64_S2x4096x32x1_S2x4096x32x64_3_0_n_n_0_3_164 : GatherDims S32x64 S2x4096x32x1 S2x4096x32x64 where
  offsetDims := [3]
  collapsedSliceDims := [0]
  operandBatchingDims := []
  startIndicesBatchingDims := []
  startIndexMap := [0]
  indexVectorDim := 3
  sliceSizes := ![1, 64]
  wf := gather_S32x64_S2x4096x32x1_S2x4096x32x64_3_0_n_n_0_3_164_wf
def gather_S100000x64_S4096x32x1_S4096x32x64_2_0_n_n_0_2_164 : GatherDims S100000x64 S4096x32x1 S4096x32x64 where
  offsetDims := [2]
  collapsedSliceDims := [0]
  operandBatchingDims := []
  startIndicesBatchingDims := []
  startIndexMap := [0]
  indexVectorDim := 2
  sliceSizes := ![1, 64]
  wf := gather_S100000x64_S4096x32x1_S4096x32x64_2_0_n_n_0_2_164_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf

abbrev win0_0 : Pipeline.Window sig grid0 :=
  Pipeline.Window.ofSpec (Memref.whole main_v17) S2x128x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2x128x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2x128x32x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S2x128x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v56) S2x128x32x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S2x128x32x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v70) S2x128x32x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v78) S2x128x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096 : Shape := ⟨1, ![4096]⟩
abbrev S2x4096x32 : Shape := ⟨3, ![2, 4096, 32]⟩
abbrev S100000x64 : Shape := ⟨2, ![100000, 64]⟩
abbrev S32x64 : Shape := ⟨2, ![32, 64]⟩
abbrev S128x64 : Shape := ⟨2, ![128, 64]⟩
abbrev S64x64 : Shape := ⟨2, ![64, 64]⟩
abbrev S64x1 : Shape := ⟨2, ![64, 1]⟩
abbrev S_ : Shape := ⟨0, ![]⟩
abbrev S2x4096x32x1 : Shape := ⟨4, ![2, 4096, 32, 1]⟩
abbrev S2x4096x32x64 : Shape := ⟨4, ![2, 4096, 32, 64]⟩
abbrev S1x4096x32x64 : Shape := ⟨4, ![1, 4096, 32, 64]⟩
abbrev S4096x32x64 : Shape := ⟨3, ![4096, 32, 64]⟩
abbrev S4096x64 : Shape := ⟨2, ![4096, 64]⟩
abbrev S2x4096x32x128 : Shape := ⟨4, ![2, 4096, 32, 128]⟩
abbrev S2x4096 : Shape := ⟨2, ![2, 4096]⟩
abbrev S2x4096x1 : Shape := ⟨3, ![2, 4096, 1]⟩
abbrev S2x4096x64 : Shape := ⟨3, ![2, 4096, 64]⟩
abbrev S1x4096x64 : Shape := ⟨3, ![1, 4096, 64]⟩
abbrev S4096x192 : Shape := ⟨2, ![4096, 192]⟩
abbrev S4096x1 : Shape := ⟨2, ![4096, 1]⟩

abbrev nBuf : Space → Nat
  | .hbm => 216
  | .vmem => 0
  | .smem => 0
  | _ => 0

abbrev hbmTy0_0 (i : Nat) : BufTy := match i % 128 with
  | 0 => ⟨S4096, .i32⟩
  | 1 => ⟨S4096, .i32⟩
  | 2 => ⟨S2x4096x32, .i32⟩
  | 3 => ⟨S2x4096x32, .i32⟩
  | 4 => ⟨S2x4096x32, .i32⟩
  | 5 => ⟨S2x4096x32, .i32⟩
  | 6 => ⟨S2x4096x32, .i32⟩
  | 7 => ⟨S2x4096x32, .i32⟩
  | 8 => ⟨S100000x64, .f32⟩
  | 9 => ⟨S32x64, .f32⟩
  | 10 => ⟨S128x64, .f32⟩
  | 11 => ⟨S64x64, .f32⟩
  | 12 => ⟨S64x1, .f32⟩
  | 13 => ⟨S128x64, .f32⟩
  | 14 => ⟨S64x64, .f32⟩
  | 15 => ⟨S_, .i32⟩
  | 16 => ⟨S2x4096x32, .i32⟩
  | 17 => ⟨S2x4096x32, .i1⟩
  | 18 => ⟨S_, .i32⟩
  | 19 => ⟨S2x4096x32, .i32⟩
  | 20 => ⟨S2x4096x32, .i32⟩
  | 21 => ⟨S2x4096x32, .i32⟩
  | 22 => ⟨S2x4096x32x1, .i32⟩
  | 23 => ⟨S2x4096x32x64, .f32⟩
  | 24 => ⟨S_, .i32⟩
  | 25 => ⟨S2x4096x32, .i32⟩
  | 26 => ⟨S2x4096x32, .i1⟩
  | 27 => ⟨S_, .i32⟩
  | 28 => ⟨S2x4096x32, .i32⟩
  | 29 => ⟨S2x4096x32, .i32⟩
  | 30 => ⟨S2x4096x32, .i32⟩
  | 31 => ⟨S2x4096x32x1, .i32⟩
  | 32 => ⟨S2x4096x32x64, .f32⟩
  | 33 => ⟨S_, .i32⟩
  | 34 => ⟨S2x4096x32, .i32⟩
  | 35 => ⟨S2x4096x32, .i1⟩
  | 36 => ⟨S_, .i32⟩
  | 37 => ⟨S2x4096x32, .i32⟩
  | 38 => ⟨S2x4096x32, .i32⟩
  | 39 => ⟨S2x4096x32, .i32⟩
  | 40 => ⟨S2x4096x32x1, .i32⟩
  | 41 => ⟨S2x4096x32x64, .f32⟩
  | 42 => ⟨S1x4096x32x64, .f32⟩
  | 43 => ⟨S4096x32x64, .f32⟩
  | 44 => ⟨S_, .f32⟩
  | 45 => ⟨S4096x64, .f32⟩
  | 46 => ⟨S_, .f32⟩
  | 47 => ⟨S4096x64, .f32⟩
  | 48 => ⟨S4096x64, .f32⟩
  | 49 => ⟨S2x4096x32x128, .f32⟩
  | 50 => ⟨S2x4096x32x64, .f32⟩
  | 51 => ⟨S_, .f32⟩
  | 52 => ⟨S2x4096x32x64, .f32⟩
  | 53 => ⟨S2x4096x32x64, .f32⟩
  | 54 => ⟨S2x4096x32x64, .f32⟩
  | 55 => ⟨S_, .f32⟩
  | 56 => ⟨S2x4096x32x64, .f32⟩
  | 57 => ⟨S2x4096x32x64, .f32⟩
  | 58 => ⟨S2x4096x32x1, .f32⟩
  | 59 => ⟨S2x4096x32x1, .f32⟩
  | 60 => ⟨S2x4096x32x1, .f32⟩
  | 61 => ⟨S_, .f32⟩
  | 62 => ⟨S2x4096x32x1, .f32⟩
  | 63 => ⟨S2x4096x32x1, .f32⟩
  | 64 => ⟨S_, .f32⟩
  | 65 => ⟨S2x4096x32x1, .f32⟩
  | 66 => ⟨S2x4096x32x1, .f32⟩
  | 67 => ⟨S2x4096x32, .f32⟩
  | 68 => ⟨S_, .f32⟩
  | 69 => ⟨S2x4096, .f32⟩
  | 70 => ⟨S_, .f32⟩
  | 71 => ⟨S2x4096, .f32⟩
  | 72 => ⟨S2x4096, .f32⟩
  | 73 => ⟨S2x4096x1, .f32⟩
  | 74 => ⟨S2x4096x32, .f32⟩
  | 75 => ⟨S2x4096x32, .f32⟩
  | 76 => ⟨S2x4096x32, .f32⟩
  | 77 => ⟨S_, .f32⟩
  | 78 => ⟨S2x4096, .f32⟩
  | 79 => ⟨S2x4096x1, .f32⟩
  | 80 => ⟨S2x4096x32, .f32⟩
  | 81 => ⟨S2x4096x32, .f32⟩
  | 82 => ⟨S2x4096x32x64, .f32⟩
  | 83 => ⟨S_, .f32⟩
  | 84 => ⟨S2x4096x32x64, .f32⟩
  | 85 => ⟨S2x4096x32x64, .f32⟩
  | 86 => ⟨S2x4096x32x64, .f32⟩
  | 87 => ⟨S2x4096x32x64, .f32⟩
  | 88 => ⟨S2x4096x32x64, .f32⟩
  | 89 => ⟨S_, .f32⟩
  | 90 => ⟨S2x4096x32x64, .f32⟩
  | 91 => ⟨S2x4096x32x64, .f32⟩
  | 92 => ⟨S_, .f32⟩
  | 93 => ⟨S2x4096x32x64, .f32⟩
  | 94 => ⟨S2x4096x32x64, .f32⟩
  | 95 => ⟨S_, .f32⟩
  | 96 => ⟨S2x4096x32x64, .f32⟩
  | 97 => ⟨S2x4096x32x64, .f32⟩
  | 98 => ⟨S2x4096x32x1, .f32⟩
  | 99 => ⟨S2x4096x32x64, .f32⟩
  | 100 => ⟨S2x4096x32x64, .f32⟩
  | 101 => ⟨S2x4096x32x64, .f32⟩
  | 102 => ⟨S_, .f32⟩
  | 103 => ⟨S2x4096x64, .f32⟩
  | 104 => ⟨S1x4096x64, .f32⟩
  | 105 => ⟨S4096x64, .f32⟩
  | 106 => ⟨S1x4096x64, .f32⟩
  | 107 => ⟨S4096x64, .f32⟩
  | 108 => ⟨S4096x192, .f32⟩
  | 109 => ⟨S_, .i32⟩
  | 110 => ⟨S2x4096x32, .i32⟩
  | 111 => ⟨S2x4096x32, .i1⟩
  | 112 => ⟨S_, .i32⟩
  | 113 => ⟨S2x4096x32, .i32⟩
  | 114 => ⟨S2x4096x32, .i32⟩
  | 115 => ⟨S2x4096x32, .i32⟩
  | 116 => ⟨S2x4096x32x1, .i32⟩
  | 117 => ⟨S2x4096x32x64, .f32⟩
  | 118 => ⟨S_, .i32⟩
  | 119 => ⟨S2x4096x32, .i32⟩
  | 120 => ⟨S2x4096x32, .i1⟩
  | 121 => ⟨S_, .i32⟩
  | 122 => ⟨S2x4096x32, .i32⟩
  | 123 => ⟨S2x4096x32, .i32⟩
  | 124 => ⟨S2x4096x32, .i32⟩
  | 125 => ⟨S2x4096x32x1, .i32⟩
  | 126 => ⟨S2x4096x32x64, .f32⟩
  | 127 => ⟨S_, .i32⟩
  | _ => ⟨S4096, .i32⟩

abbrev hbmTy0_1 (i : Nat) : BufTy := match i % 128 with
  | 0 => ⟨S2x4096x32, .i32⟩
  | 1 => ⟨S2x4096x32, .i1⟩
  | 2 => ⟨S_, .i32⟩
  | 3 => ⟨S2x4096x32, .i32⟩
  | 4 => ⟨S2x4096x32, .i32⟩
  | 5 => ⟨S2x4096x32, .i32⟩
  | 6 => ⟨S2x4096x32x1, .i32⟩
  | 7 => ⟨S2x4096x32x64, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S4096x64, .f32⟩
  | 17 => ⟨S2x4096x32x128, .f32⟩
  | 18 => ⟨S2x4096x32x64, .f32⟩
  | 19 => ⟨S_, .f32⟩
  | 20 => ⟨S2x4096x32x64, .f32⟩
  | 21 => ⟨S2x4096x32x64, .f32⟩
  | 22 => ⟨S2x4096x32x64, .f32⟩
  | 23 => ⟨S_, .f32⟩
  | 24 => ⟨S2x4096x32x64, .f32⟩
  | 25 => ⟨S2x4096x32x64, .f32⟩
  | 26 => ⟨S2x4096x32x1, .f32⟩
  | 27 => ⟨S2x4096x32x1, .f32⟩
  | 28 => ⟨S2x4096x32x1, .f32⟩
  | 29 => ⟨S_, .f32⟩
  | 30 => ⟨S2x4096x32x1, .f32⟩
  | 31 => ⟨S2x4096x32x1, .f32⟩
  | 32 => ⟨S_, .f32⟩
  | 33 => ⟨S2x4096x32x1, .f32⟩
  | 34 => ⟨S2x4096x32x1, .f32⟩
  | 35 => ⟨S2x4096x32, .f32⟩
  | 36 => ⟨S_, .f32⟩
  | 37 => ⟨S2x4096, .f32⟩
  | 38 => ⟨S_, .f32⟩
  | 39 => ⟨S2x4096, .f32⟩
  | 40 => ⟨S2x4096, .f32⟩
  | 41 => ⟨S2x4096x1, .f32⟩
  | 42 => ⟨S2x4096x32, .f32⟩
  | 43 => ⟨S2x4096x32, .f32⟩
  | 44 => ⟨S2x4096x32, .f32⟩
  | 45 => ⟨S_, .f32⟩
  | 46 => ⟨S2x4096, .f32⟩
  | 47 => ⟨S2x4096x1, .f32⟩
  | 48 => ⟨S2x4096x32, .f32⟩
  | 49 => ⟨S2x4096x32, .f32⟩
  | 50 => ⟨S2x4096x32x64, .f32⟩
  | 51 => ⟨S_, .f32⟩
  | 52 => ⟨S2x4096x32x64, .f32⟩
  | 53 => ⟨S2x4096x32x64, .f32⟩
  | 54 => ⟨S2x4096x32x64, .f32⟩
  | 55 => ⟨S2x4096x32x64, .f32⟩
  | 56 => ⟨S2x4096x32x64, .f32⟩
  | 57 => ⟨S_, .f32⟩
  | 58 => ⟨S2x4096x32x64, .f32⟩
  | 59 => ⟨S2x4096x32x64, .f32⟩
  | 60 => ⟨S_, .f32⟩
  | 61 => ⟨S2x4096x32x64, .f32⟩
  | 62 => ⟨S2x4096x32x64, .f32⟩
  | 63 => ⟨S_, .f32⟩
  | 64 => ⟨S2x4096x32x64, .f32⟩
  | 65 => ⟨S2x4096x32x64, .f32⟩
  | 66 => ⟨S2x4096x32x1, .f32⟩
  | 67 => ⟨S2x4096x32x64, .f32⟩
  | 68 => ⟨S2x4096x32x64, .f32⟩
  | 69 => ⟨S2x4096x32x64, .f32⟩
  | 70 => ⟨S_, .f32⟩
  | 71 => ⟨S2x4096x64, .f32⟩
  | 72 => ⟨S1x4096x64, .f32⟩
  | 73 => ⟨S4096x64, .f32⟩
  | 74 => ⟨S1x4096x64, .f32⟩
  | 75 => ⟨S4096x64, .f32⟩
  | 76 => ⟨S4096x192, .f32⟩
  | 77 => ⟨S4096x192, .f32⟩
  | 78 => ⟨S_, .f32⟩
  | 79 => ⟨S4096, .f32⟩
  | 80 => ⟨S4096, .f32⟩
  | 81 => ⟨S4096, .f32⟩
  | 82 => ⟨S_, .f32⟩
  | 83 => ⟨S4096, .f32⟩
  | 84 => ⟨S4096, .f32⟩
  | 85 => ⟨S_, .f32⟩
  | 86 => ⟨S4096, .f32⟩
  | 87 => ⟨S4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call0_cst : Ref sig .tc := ⟨.hbm, 51, rfl⟩
abbrev main_call0_v0 : Ref sig .tc := ⟨.hbm, 52, rfl⟩
abbrev main_v28 : Ref sig .tc := ⟨.hbm, 53, rfl⟩
abbrev main_v29 : Ref sig .tc := ⟨.hbm, 54, rfl⟩
abbrev main_call1_cst : Ref sig .tc := ⟨.hbm, 55, rfl⟩
abbrev main_call1_v0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call2_cst : Ref sig .tc := ⟨.hbm, 83, rfl⟩
abbrev main_call2_v0 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_11 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_v58 : Ref sig .tc := ⟨.hbm, 94, rfl⟩
abbrev main_cst_13 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_15 : Ref sig .tc := ⟨.hbm, 109, rfl⟩
abbrev main_v71 : Ref sig .tc := ⟨.hbm, 110, rfl⟩
abbrev main_v72 : Ref sig .tc := ⟨.hbm, 111, rfl⟩
abbrev main_c_16 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_17 : Ref sig .tc := ⟨.hbm, 118, rfl⟩
abbrev main_v78 : Ref sig .tc := ⟨.hbm, 119, rfl⟩
abbrev main_v79 : Ref sig .tc := ⟨.hbm, 120, rfl⟩
abbrev main_c_18 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_c_19 : Ref sig .tc := ⟨.hbm, 127, rfl⟩
abbrev main_v85 : Ref sig .tc := ⟨.hbm, 128, rfl⟩
abbrev main_v86 : Ref sig .tc := ⟨.hbm, 129, rfl⟩
abbrev main_c_20 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_c_21 : Ref sig .tc := ⟨.hbm, 136, rfl⟩
abbrev main_v92 : Ref sig .tc := ⟨.hbm, 137, rfl⟩
abbrev main_v93 : Ref sig .tc := ⟨.hbm, 138, rfl⟩
abbrev main_c_22 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_call3_cst : Ref sig .tc := ⟨.hbm, 147, rfl⟩
abbrev main_call3_v0 : Ref sig .tc := ⟨.hbm, 148, rfl⟩
abbrev main_v101 : Ref sig .tc := ⟨.hbm, 149, rfl⟩
abbrev main_v102 : Ref sig .tc := ⟨.hbm, 150, rfl⟩
abbrev main_call4_cst : Ref sig .tc := ⟨.hbm, 151, rfl⟩
abbrev main_call4_v0 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_23 : Ref sig .tc := ⟨.hbm, 157, rfl⟩
abbrev main_v107 : Ref sig .tc := ⟨.hbm, 158, rfl⟩
abbrev main_v108 : Ref sig .tc := ⟨.hbm, 159, rfl⟩
abbrev main_cst_24 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_25 : Ref sig .tc := ⟨.hbm, 164, rfl⟩
abbrev main_v112 : Ref sig .tc := ⟨.hbm, 165, rfl⟩
abbrev main_cst_26 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_27 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_call5_cst : Ref sig .tc := ⟨.hbm, 179, rfl⟩
abbrev main_call5_v0 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_28 : Ref sig .tc := ⟨.hbm, 185, rfl⟩
abbrev main_v128 : Ref sig .tc := ⟨.hbm, 186, rfl⟩
abbrev main_v129 : Ref sig .tc := ⟨.hbm, 187, rfl⟩
abbrev main_cst_29 : Ref sig .tc := ⟨.hbm, 188, rfl⟩
abbrev main_v130 : Ref sig .tc := ⟨.hbm, 189, rfl⟩
abbrev main_v131 : Ref sig .tc := ⟨.hbm, 190, rfl⟩
abbrev main_cst_30 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_cst_31 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_cst_32 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_cst_33 : Ref sig .tc := ⟨.hbm, 210, rfl⟩
abbrev main_v148 : Ref sig .tc := ⟨.hbm, 211, rfl⟩
abbrev main_v149 : Ref sig .tc := ⟨.hbm, 212, rfl⟩
abbrev main_cst_34 : Ref sig .tc := ⟨.hbm, 213, rfl⟩
abbrev main_v150 : Ref sig .tc := ⟨.hbm, 214, rfl⟩
abbrev main_v151 : Ref sig .tc := ⟨.hbm, 215, rfl⟩

abbrev nD : Nat := 1
abbrev τ : Topo := Topo.v7x

variable {F : FTy → Type} [FloatOps F]

class Facts₀ : Prop where
  bcast_S_S2x4096x32 : S_.BroadcastsInDim S2x4096x32 (![] : Fin 0 → Fin S2x4096x32.rank)
  bcast_S2x4096x32_S2x4096x32x1_0_1_2 : S2x4096x32.BroadcastsInDim S2x4096x32x1 (![0, 1, 2] : Fin 3 → Fin S2x4096x32x1.rank)
  slices_S2x4096x32x64_S1x4096x32x64_0_0_0_0 : S2x4096x32x64.Slices ![0, 0, 0, 0] S1x4096x32x64
  shapeCasts_S1x4096x32x64_S4096x32x64 : S1x4096x32x64.ShapeCasts S4096x32x64
  reducesTo_S4096x32x64_S4096x64_d1 : S4096x32x64.ReducesTo [1] S4096x64
  h_S_ : 0 < S_.numel
  bcast_S_S4096x64 : S_.BroadcastsInDim S4096x64 (![] : Fin 0 → Fin S4096x64.rank)
  concatenates_S2x4096x32x64_S2x4096x32x64_S2x4096x32x128_d3 : Shape.Concatenates [S2x4096x32x64, S2x4096x32x64] S2x4096x32x128 3
  bcast_S_S2x4096x32x64 : S_.BroadcastsInDim S2x4096x32x64 (![] : Fin 0 → Fin S2x4096x32x64.rank)
  bcast_S_S2x4096x32x1 : S_.BroadcastsInDim S2x4096x32x1 (![] : Fin 0 → Fin S2x4096x32x1.rank)
  shapeCasts_S2x4096x32x1_S2x4096x32 : S2x4096x32x1.ShapeCasts S2x4096x32
  reducesTo_S2x4096x32_S2x4096_d2 : S2x4096x32.ReducesTo [2] S2x4096
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x32_0_1_2 : S2x4096x1.BroadcastsInDim S2x4096x32 (![0, 1, 2] : Fin 3 → Fin S2x4096x32.rank)
  bcast_S2x4096x32x1_S2x4096x32x64_0_1_2_3 : S2x4096x32x1.BroadcastsInDim S2x4096x32x64 (![0, 1, 2, 3] : Fin 4 → Fin S2x4096x32x64.rank)
  reducesTo_S2x4096x32x64_S2x4096x64_d2 : S2x4096x32x64.ReducesTo [2] S2x4096x64
  slices_S2x4096x64_S1x4096x64_0_0_0 : S2x4096x64.Slices ![0, 0, 0] S1x4096x64
  shapeCasts_S1x4096x64_S4096x64 : S1x4096x64.ShapeCasts S4096x64
  slices_S2x4096x64_S1x4096x64_1_0_0 : S2x4096x64.Slices ![1, 0, 0] S1x4096x64
  concatenates_S4096x64_S4096x64_S4096x64_S4096x192_d1 : Shape.Concatenates [S4096x64, S4096x64, S4096x64] S4096x192 1
  bcast_S_S4096 : S_.BroadcastsInDim S4096 (![] : Fin 0 → Fin S4096.rank)
  bcast_S4096_S4096x1_0 : S4096.BroadcastsInDim S4096x1 (![0] : Fin 1 → Fin S4096x1.rank)
  reducesTo_S4096x192_S4096_d1 : S4096x192.ReducesTo [1] S4096
  gather_S100000x64_S2x4096x32x1_S2x4096x32x64_3_0_n_n_0_3_164_wf : GatherDims.WF S100000x64 S2x4096x32x1 S2x4096x32x64 [3] [0] [] [0] [] 3 ![1, 64]
  gather_S32x64_S2x4096x32x1_S2x4096x32x64_3_0_n_n_0_3_164_wf : GatherDims.WF S32x64 S2x4096x32x1 S2x4096x32x64 [3] [0] [] [0] [] 3 ![1, 64]
  dot_S2x4096x32x128_S128x64_S2x4096x32x64_3_0_012_1_n_n_wf : DotDims.WF S2x4096x32x128 S128x64 S2x4096x32x64 [3] [0] [0, 1, 2] [1] [] []
  dot_S2x4096x32x64_S64x64_S2x4096x32x64_3_0_012_1_n_n_wf : DotDims.WF S2x4096x32x64 S64x64 S2x4096x32x64 [3] [0] [0, 1, 2] [1] [] []
  dot_S2x4096x32x64_S64x1_S2x4096x32x1_3_0_012_1_n_n_wf : DotDims.WF S2x4096x32x64 S64x1 S2x4096x32x1 [3] [0] [0, 1, 2] [1] [] []
  gather_S100000x64_S4096x1_S4096x64_1_0_n_n_0_1_164_wf : GatherDims.WF S100000x64 S4096x1 S4096x64 [1] [0] [] [0] [] 1 ![1, 64]

variable [Facts₀]

def gather_S100000x64_S2x4096x32x1_S2x4096x32x64_3_0_n_n_0_3_164 : GatherDims S100000x64 S2x4096x32x1 S2x4096x32x64 where
  offsetDims := [3]
  collapsedSliceDims := [0]
  operandBatchingDims := []
  startIndicesBatchingDims := []
  startIndexMap := [0]
  indexVectorDim := 3
  sliceSizes := ![1, 64]
  wf := gather_S100000x64_S2x4096x32x1_S2x4096x32x64_3_0_n_n_0_3_164_wf
def gather_S32x64_S2x4096x32x1_S2x4096x32x64_3_0_n_n_0_3_164 : GatherDims S32x64 S2x4096x32x1 S2x4096x32x64 where
  offsetDims := [3]
  collapsedSliceDims := [0]
  operandBatchingDims := []
  startIndicesBatchingDims := []
  startIndexMap := [0]
  indexVectorDim := 3
  sliceSizes := ![1, 64]
  wf := gather_S32x64_S2x4096x32x1_S2x4096x32x64_3_0_n_n_0_3_164_wf
def dot_S2x4096x32x128_S128x64_S2x4096x32x64_3_0_012_1_n_n : DotDims S2x4096x32x128 S128x64 S2x4096x32x64 where
  lhsContracting := [3]
  rhsContracting := [0]
  lhsNonContracting := [0, 1, 2]
  rhsNonContracting := [1]
  lhsBatch := []
  rhsBatch := []
  wf := dot_S2x4096x32x128_S128x64_S2x4096x32x64_3_0_012_1_n_n_wf
def dot_S2x4096x32x64_S64x64_S2x4096x32x64_3_0_012_1_n_n : DotDims S2x4096x32x64 S64x64 S2x4096x32x64 where
  lhsContracting := [3]
  rhsContracting := [0]
  lhsNonContracting := [0, 1, 2]
  rhsNonContracting := [1]
  lhsBatch := []
  rhsBatch := []
  wf := dot_S2x4096x32x64_S64x64_S2x4096x32x64_3_0_012_1_n_n_wf
def dot_S2x4096x32x64_S64x1_S2x4096x32x1_3_0_012_1_n_n : DotDims S2x4096x32x64 S64x1 S2x4096x32x1 where
  lhsContracting := [3]
  rhsContracting := [0]
  lhsNonContracting := [0, 1, 2]
  rhsNonContracting := [1]
  lhsBatch := []
  rhsBatch := []
  wf := dot_S2x4096x32x64_S64x1_S2x4096x32x1_3_0_012_1_n_n_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf

class Facts : Prop extends Facts₀ where

variable [Facts]
-- ==== Proof.KRunBits.lean ====
/-
  The run of the program with its two attention kernels, for any float instance: each kernel's body on its staged
  blocks (six whole loads, one whole store of the layer's output block), the data each pipeline carries from point to
  point, the two regions between the three stretches of host operations, and the whole run with EVERY buffer's final
  contents named: the launch memory folded through the host stretches, each region's output array at what its
  write-backs leave.
-/
import proofs.«172278_j10548439679188_2_alg».proof.Proof.Gen.Kernel.Launch
import proofs.«172278_j10548439679188_2_alg».proof.Proof.Gen.Kernel.Skeleton
import proofs.«172278_j10548439679188_2_alg».proof.Proof.Gen.Kernel.Points
import proofs.«172278_j10548439679188_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the store take a whole staging buffer -/

abbrev rIn : Rect S2x128x32x64 := Rect.unit (s := S2x128x32x64) ![0, 0, 0, 0] S2x128x32x64.size inb_S2x128x32x64_S2x128x32x64_0_0_0_0
abbrev rW : Rect S128x128 := Rect.unit (s := S128x128) ![0, 0] S128x128.size inb_S128x128_S128x128_0_0
abbrev rV : Rect S1x64 := Rect.unit (s := S1x64) ![0, 0] S1x64.size inb_S1x64_S1x64_0_0
abbrev rOut : Rect S2x128x64 := Rect.unit (s := S2x128x64) ![0, 0, 0] S2x128x64.size inb_S2x128x64_S2x128x64_0_0_0

/-- The one store tiles the output buffer, so it covers it. -/
theorem coverOut (p0 : Vec F S2x128x64 .f32) (y : S2x128x64.Idx) :
    ∃ pc ∈ ([⟨rOut, p0⟩] : List (View.Piece (Elt F) S2x128x64 .f32)), y ∈ pc.1.set :=
  View.cover_of_tiled [⟨rOut, p0⟩] S2x128x64.size (by rfl) y

/-! # Region 0: the user tower's kernel, at the contents `V` the region is entered with -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The output block after the body, from the six input blocks: the layer's output of the loaded blocks, stored whole. -/
def out0 (x0 x1 x2 : Vec F S2x128x32x64 .bf16) (x3 x4 : Vec F S128x128 .bf16) (x5 : Vec F S1x64 .f32) : Vec F S2x128x64 .f32 :=
  View.canon [⟨rOut, k0_pay1 (k0_pay2 (View.ld x2 rIn)) (k0_pay4 (View.ld x0 rIn) (View.ld x1 rIn) (View.ld x3 rW) (View.ld x4 rW))
    (k0_pay5 (View.ld x0 rIn) (View.ld x1 rIn) (View.ld x3 rW) (View.ld x4 rW) (View.ld x5 rV))
    (k0_pay6 (View.ld x0 rIn) (View.ld x1 rIn) (View.ld x3 rW) (View.ld x4 rW) (View.ld x5 rV)) (k0_pay7 (F := F))⟩]

set_option maxHeartbeats 4000000 in
/-- The body on whole staging buffers, the inputs' at `x0 … x5` and the output's at anything, runs to the continuation
    with the inputs as they were and the output's buffer at `out0` of them. -/
theorem sound_kernel0 (c : Dev nD) (E : Set ℕ) (i : grid0.Coords)
    (arg1 : Memref sig .tc .vmem S2x128x32x64 .bf16) (harg1 : arg1.IsWhole) (arg2 : Memref sig .tc .vmem S2x128x32x64 .bf16) (harg2 : arg2.IsWhole)
    (arg3 : Memref sig .tc .vmem S2x128x32x64 .bf16) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S1x64 .f32) (harg6 : arg6.IsWhole)
    (arg7 : Memref sig .tc .vmem S2x128x64 .f32) (harg7 : arg7.IsWhole)
    (x0 x1 x2 : Vec F S2x128x32x64 .bf16) (x3 x4 : Vec F S128x128 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0 x0 x1 x2 x3 x4 x5)) -∗ K ⟨⟩))
      ⊢ wp frame (wpE (defs₀ (F := F)) Variants.none c none) E (cc0__ka_kernel i arg1 harg1 arg2 harg2 arg3 harg3 arg4 harg4 arg5 harg5 arg6 harg6 arg7 harg7) K := by
  simp only [cc0__ka_kernel_eq_skeleton]; unfold cc0__ka_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

/-- The data pipeline 0 carries on core `c`: the arrays as the region finds them; after the body at point `t` each
    input's buffer at its block and the output's at `out0` of the six blocks; the generator register and the scoped
    rest untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0 (iblk0 V c 0 t) (iblk0 V c 1 t) (iblk0 V c 2 t) (iblk0 V c 3 t) (iblk0 V c 4 t) (iblk0 V c 5 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

/-! # Region 1: the item tower's kernel, at the contents `V` the region is entered with -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The output block after the body, from the six input blocks: the layer's output of the loaded blocks, stored whole. -/
def out1 (x0 x1 x2 : Vec F S2x128x32x64 .bf16) (x3 x4 : Vec F S128x128 .bf16) (x5 : Vec F S1x64 .f32) : Vec F S2x128x64 .f32 :=
  View.canon [⟨rOut, k1_pay1 (k1_pay2 (View.ld x2 rIn)) (k1_pay4 (View.ld x0 rIn) (View.ld x1 rIn) (View.ld x3 rW) (View.ld x4 rW))
    (k1_pay5 (View.ld x0 rIn) (View.ld x1 rIn) (View.ld x3 rW) (View.ld x4 rW) (View.ld x5 rV))
    (k1_pay6 (View.ld x0 rIn) (View.ld x1 rIn) (View.ld x3 rW) (View.ld x4 rW) (View.ld x5 rV)) (k1_pay7 (F := F))⟩]

set_option maxHeartbeats 4000000 in
/-- The body on whole staging buffers, the inputs' at `x0 … x5` and the output's at anything, runs to the continuation
    with the inputs as they were and the output's buffer at `out1` of them. -/
theorem sound_kernel1 (c : Dev nD) (E : Set ℕ) (i : grid1.Coords)
    (arg1 : Memref sig .tc .vmem S2x128x32x64 .bf16) (harg1 : arg1.IsWhole) (arg2 : Memref sig .tc .vmem S2x128x32x64 .bf16) (harg2 : arg2.IsWhole)
    (arg3 : Memref sig .tc .vmem S2x128x32x64 .bf16) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S1x64 .f32) (harg6 : arg6.IsWhole)
    (arg7 : Memref sig .tc .vmem S2x128x64 .f32) (harg7 : arg7.IsWhole)
    (x0 x1 x2 : Vec F S2x128x32x64 .bf16) (x3 x4 : Vec F S128x128 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1 x0 x1 x2 x3 x4 x5)) -∗ K ⟨⟩))
      ⊢ wp frame (wpE (defs₀ (F := F)) Variants.none c none) E (cc1__ka_kernel i arg1 harg1 arg2 harg2 arg3 harg3 arg4 harg4 arg5 harg5 arg6 harg6 arg7 harg7) K := by
  simp only [cc1__ka_kernel_eq_skeleton]; unfold cc1__ka_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

/-- The data pipeline 1 carries on core `c`: the arrays as the region finds them; after the body at point `t` each
    input's buffer at its block and the output's at `out1` of the six blocks; the generator register and the scoped
    rest untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

/-! # The run: @main's five items from the launch to the return

## Every buffer's contents at each boundary: a fold from the launch memory -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its output array at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: what the run ends with. -/
abbrev W5 : Dev nD → Valuation τ sig (Elt F) := fun c => StableHlo.after hostOps2 (W4 m ρ c)

/-! ### The arguments end as launched: no host operation writes one, and a region changes only its output array -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <| (W3_of m ρ c main_arg0 (by decide)).trans <|
    (W2_of_ne m ρ c main_arg0 (by decide)).trans <| (W1_of m ρ c main_arg0 (by decide)).trans rfl
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <| (W3_of m ρ c main_arg1 (by decide)).trans <|
    (W2_of_ne m ρ c main_arg1 (by decide)).trans <| (W1_of m ρ c main_arg1 (by decide)).trans rfl
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <|
    (W2_of_ne m ρ c main_arg2 (by decide)).trans <| (W1_of m ρ c main_arg2 (by decide)).trans rfl
theorem W5_main_arg3 (c : Dev nD) : W5 m ρ c (Proc.devRef .tc main_arg3) = m ((c : Thread nD τ).loc main_arg3) :=
  (W5_of m ρ c main_arg3 (by decide)).trans <| (W4_of_ne m ρ c main_arg3 (by decide)).trans <| (W3_of m ρ c main_arg3 (by decide)).trans <|
    (W2_of_ne m ρ c main_arg3 (by decide)).trans <| (W1_of m ρ c main_arg3 (by decide)).trans rfl
theorem W5_main_arg4 (c : Dev nD) : W5 m ρ c (Proc.devRef .tc main_arg4) = m ((c : Thread nD τ).loc main_arg4) :=
  (W5_of m ρ c main_arg4 (by decide)).trans <| (W4_of_ne m ρ c main_arg4 (by decide)).trans <| (W3_of m ρ c main_arg4 (by decide)).trans <|
    (W2_of_ne m ρ c main_arg4 (by decide)).trans <| (W1_of m ρ c main_arg4 (by decide)).trans rfl
theorem W5_main_arg5 (c : Dev nD) : W5 m ρ c (Proc.devRef .tc main_arg5) = m ((c : Thread nD τ).loc main_arg5) :=
  (W5_of m ρ c main_arg5 (by decide)).trans <| (W4_of_ne m ρ c main_arg5 (by decide)).trans <| (W3_of m ρ c main_arg5 (by decide)).trans <|
    (W2_of_ne m ρ c main_arg5 (by decide)).trans <| (W1_of m ρ c main_arg5 (by decide)).trans rfl
theorem W5_main_arg6 (c : Dev nD) : W5 m ρ c (Proc.devRef .tc main_arg6) = m ((c : Thread nD τ).loc main_arg6) :=
  (W5_of m ρ c main_arg6 (by decide)).trans <| (W4_of_ne m ρ c main_arg6 (by decide)).trans <| (W3_of m ρ c main_arg6 (by decide)).trans <|
    (W2_of_ne m ρ c main_arg6 (by decide)).trans <| (W1_of m ρ c main_arg6 (by decide)).trans rfl
theorem W5_main_arg7 (c : Dev nD) : W5 m ρ c (Proc.devRef .tc main_arg7) = m ((c : Thread nD τ).loc main_arg7) :=
  (W5_of m ρ c main_arg7 (by decide)).trans <| (W4_of_ne m ρ c main_arg7 (by decide)).trans <| (W3_of m ρ c main_arg7 (by decide)).trans <|
    (W2_of_ne m ρ c main_arg7 (by decide)).trans <| (W1_of m ρ c main_arg7 (by decide)).trans rfl
theorem W5_main_arg8 (c : Dev nD) : W5 m ρ c (Proc.devRef .tc main_arg8) = m ((c : Thread nD τ).loc main_arg8) :=
  (W5_of m ρ c main_arg8 (by decide)).trans <| (W4_of_ne m ρ c main_arg8 (by decide)).trans <| (W3_of m ρ c main_arg8 (by decide)).trans <|
    (W2_of_ne m ρ c main_arg8 (by decide)).trans <| (W1_of m ρ c main_arg8 (by decide)).trans rfl
theorem W5_main_arg9 (c : Dev nD) : W5 m ρ c (Proc.devRef .tc main_arg9) = m ((c : Thread nD τ).loc main_arg9) :=
  (W5_of m ρ c main_arg9 (by decide)).trans <| (W4_of_ne m ρ c main_arg9 (by decide)).trans <| (W3_of m ρ c main_arg9 (by decide)).trans <|
    (W2_of_ne m ρ c main_arg9 (by decide)).trans <| (W1_of m ρ c main_arg9 (by decide)).trans rfl
theorem W5_main_arg10 (c : Dev nD) : W5 m ρ c (Proc.devRef .tc main_arg10) = m ((c : Thread nD τ).loc main_arg10) :=
  (W5_of m ρ c main_arg10 (by decide)).trans <| (W4_of_ne m ρ c main_arg10 (by decide)).trans <| (W3_of m ρ c main_arg10 (by decide)).trans <|
    (W2_of_ne m ρ c main_arg10 (by decide)).trans <| (W1_of m ρ c main_arg10 (by decide)).trans rfl
theorem W5_main_arg11 (c : Dev nD) : W5 m ρ c (Proc.devRef .tc main_arg11) = m ((c : Thread nD τ).loc main_arg11) :=
  (W5_of m ρ c main_arg11 (by decide)).trans <| (W4_of_ne m ρ c main_arg11 (by decide)).trans <| (W3_of m ρ c main_arg11 (by decide)).trans <|
    (W2_of_ne m ρ c main_arg11 (by decide)).trans <| (W1_of m ρ c main_arg11 (by decide)).trans rfl
theorem W5_main_arg12 (c : Dev nD) : W5 m ρ c (Proc.devRef .tc main_arg12) = m ((c : Thread nD τ).loc main_arg12) :=
  (W5_of m ρ c main_arg12 (by decide)).trans <| (W4_of_ne m ρ c main_arg12 (by decide)).trans <| (W3_of m ρ c main_arg12 (by decide)).trans <|
    (W2_of_ne m ρ c main_arg12 (by decide)).trans <| (W1_of m ρ c main_arg12 (by decide)).trans rfl
theorem W5_main_arg13 (c : Dev nD) : W5 m ρ c (Proc.devRef .tc main_arg13) = m ((c : Thread nD τ).loc main_arg13) :=
  (W5_of m ρ c main_arg13 (by decide)).trans <| (W4_of_ne m ρ c main_arg13 (by decide)).trans <| (W3_of m ρ c main_arg13 (by decide)).trans <|
    (W2_of_ne m ρ c main_arg13 (by decide)).trans <| (W1_of m ρ c main_arg13 (by decide)).trans rfl
theorem W5_main_arg14 (c : Dev nD) : W5 m ρ c (Proc.devRef .tc main_arg14) = m ((c : Thread nD τ).loc main_arg14) :=
  (W5_of m ρ c main_arg14 (by decide)).trans <| (W4_of_ne m ρ c main_arg14 (by decide)).trans <| (W3_of m ρ c main_arg14 (by decide)).trans <|
    (W2_of_ne m ρ c main_arg14 (by decide)).trans <| (W1_of m ρ c main_arg14 (by decide)).trans rfl

/-! ## The data family and the thread state -/

abbrev adm : (p : Fin 2) → (pcfgs (F := F) p).Adm := fun p => (cfgs p).toPCfg_adm
/-- Each pipeline's data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

set_option backward.isDefEq.respectTransparency.types false in
/-- THE RUN. From any memory with zero counters, every weakly fair execution of @main terminates, nothing faulting, and
    every unscoped buffer ends at the fold's last contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c),
    (h c _ (mem_uc main_arg13 (by decide))).trans (W5_main_arg13 m ρ c),
    (h c _ (mem_uc main_arg14 (by decide))).trans (W5_main_arg14 m ρ c)⟩) (run_all m ρ)

end Cert.Kernel.Hand

end
-- ==== Proof.KRunIdeal.lean ====
/-
  The run of the program with its two attention kernels, for any float instance: each kernel's body on its staged
  blocks (six whole loads, one whole store of the layer's output block), the data each pipeline carries from point to
  point, the two regions between the three stretches of host operations, and the whole run with EVERY buffer's final
  contents named: the launch memory folded through the host stretches, each region's output array at what its
  write-backs leave.
-/
import proofs.«172278_j10548439679188_2_alg».proof.Proof.Gen.KernelIdeal.Launch
import proofs.«172278_j10548439679188_2_alg».proof.Proof.Gen.KernelIdeal.Skeleton
import proofs.«172278_j10548439679188_2_alg».proof.Proof.Gen.KernelIdeal.Points
import proofs.«172278_j10548439679188_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the store take a whole staging buffer -/

abbrev rIn : Rect S2x128x32x64 := Rect.unit (s := S2x128x32x64) ![0, 0, 0, 0] S2x128x32x64.size inb_S2x128x32x64_S2x128x32x64_0_0_0_0
abbrev rW : Rect S128x128 := Rect.unit (s := S128x128) ![0, 0] S128x128.size inb_S128x128_S128x128_0_0
abbrev rV : Rect S1x64 := Rect.unit (s := S1x64) ![0, 0] S1x64.size inb_S1x64_S1x64_0_0
abbrev rOut : Rect S2x128x64 := Rect.unit (s := S2x128x64) ![0, 0, 0] S2x128x64.size inb_S2x128x64_S2x128x64_0_0_0

/-- The one store tiles the output buffer, so it covers it. -/
theorem coverOut (p0 : Vec F S2x128x64 .f32) (y : S2x128x64.Idx) :
    ∃ pc ∈ ([⟨rOut, p0⟩] : List (View.Piece (Elt F) S2x128x64 .f32)), y ∈ pc.1.set :=
  View.cover_of_tiled [⟨rOut, p0⟩] S2x128x64.size (by rfl) y

/-! # Region 0: the user tower's kernel, at the contents `V` the region is entered with -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The output block after the body, from the six input blocks: the layer's output of the loaded blocks, stored whole. -/
def out0 (x0 x1 x2 : Vec F S2x128x32x64 .bf16) (x3 x4 : Vec F S128x128 .bf16) (x5 : Vec F S1x64 .f32) : Vec F S2x128x64 .f32 :=
  View.canon [⟨rOut, k0_pay1 (k0_pay2 (View.ld x2 rIn)) (k0_pay4 (View.ld x0 rIn) (View.ld x1 rIn) (View.ld x3 rW) (View.ld x4 rW))
    (k0_pay5 (View.ld x0 rIn) (View.ld x1 rIn) (View.ld x3 rW) (View.ld x4 rW) (View.ld x5 rV))
    (k0_pay6 (View.ld x0 rIn) (View.ld x1 rIn) (View.ld x3 rW) (View.ld x4 rW) (View.ld x5 rV)) (k0_pay7 (F := F))⟩]

set_option maxHeartbeats 4000000 in
/-- The body on whole staging buffers, the inputs' at `x0 … x5` and the output's at anything, runs to the continuation
    with the inputs as they were and the output's buffer at `out0` of them. -/
theorem sound_kernel0 (c : Dev nD) (E : Set ℕ) (i : grid0.Coords)
    (arg1 : Memref sig .tc .vmem S2x128x32x64 .bf16) (harg1 : arg1.IsWhole) (arg2 : Memref sig .tc .vmem S2x128x32x64 .bf16) (harg2 : arg2.IsWhole)
    (arg3 : Memref sig .tc .vmem S2x128x32x64 .bf16) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S1x64 .f32) (harg6 : arg6.IsWhole)
    (arg7 : Memref sig .tc .vmem S2x128x64 .f32) (harg7 : arg7.IsWhole)
    (x0 x1 x2 : Vec F S2x128x32x64 .bf16) (x3 x4 : Vec F S128x128 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0 x0 x1 x2 x3 x4 x5)) -∗ K ⟨⟩))
      ⊢ wp frame (wpE (defs₀ (F := F)) Variants.none c none) E (cc0__ka_kernel i arg1 harg1 arg2 harg2 arg3 harg3 arg4 harg4 arg5 harg5 arg6 harg6 arg7 harg7) K := by
  simp only [cc0__ka_kernel_eq_skeleton]; unfold cc0__ka_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

/-- The data pipeline 0 carries on core `c`: the arrays as the region finds them; after the body at point `t` each
    input's buffer at its block and the output's at `out0` of the six blocks; the generator register and the scoped
    rest untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0 (iblk0 V c 0 t) (iblk0 V c 1 t) (iblk0 V c 2 t) (iblk0 V c 3 t) (iblk0 V c 4 t) (iblk0 V c 5 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

/-! # Region 1: the item tower's kernel, at the contents `V` the region is entered with -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The output block after the body, from the six input blocks: the layer's output of the loaded blocks, stored whole. -/
def out1 (x0 x1 x2 : Vec F S2x128x32x64 .bf16) (x3 x4 : Vec F S128x128 .bf16) (x5 : Vec F S1x64 .f32) : Vec F S2x128x64 .f32 :=
  View.canon [⟨rOut, k1_pay1 (k1_pay2 (View.ld x2 rIn)) (k1_pay4 (View.ld x0 rIn) (View.ld x1 rIn) (View.ld x3 rW) (View.ld x4 rW))
    (k1_pay5 (View.ld x0 rIn) (View.ld x1 rIn) (View.ld x3 rW) (View.ld x4 rW) (View.ld x5 rV))
    (k1_pay6 (View.ld x0 rIn) (View.ld x1 rIn) (View.ld x3 rW) (View.ld x4 rW) (View.ld x5 rV)) (k1_pay7 (F := F))⟩]

set_option maxHeartbeats 4000000 in
/-- The body on whole staging buffers, the inputs' at `x0 … x5` and the output's at anything, runs to the continuation
    with the inputs as they were and the output's buffer at `out1` of them. -/
theorem sound_kernel1 (c : Dev nD) (E : Set ℕ) (i : grid1.Coords)
    (arg1 : Memref sig .tc .vmem S2x128x32x64 .bf16) (harg1 : arg1.IsWhole) (arg2 : Memref sig .tc .vmem S2x128x32x64 .bf16) (harg2 : arg2.IsWhole)
    (arg3 : Memref sig .tc .vmem S2x128x32x64 .bf16) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S1x64 .f32) (harg6 : arg6.IsWhole)
    (arg7 : Memref sig .tc .vmem S2x128x64 .f32) (harg7 : arg7.IsWhole)
    (x0 x1 x2 : Vec F S2x128x32x64 .bf16) (x3 x4 : Vec F S128x128 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1 x0 x1 x2 x3 x4 x5)) -∗ K ⟨⟩))
      ⊢ wp frame (wpE (defs₀ (F := F)) Variants.none c none) E (cc1__ka_kernel i arg1 harg1 arg2 harg2 arg3 harg3 arg4 harg4 arg5 harg5 arg6 harg6 arg7 harg7) K := by
  simp only [cc1__ka_kernel_eq_skeleton]; unfold cc1__ka_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

/-- The data pipeline 1 carries on core `c`: the arrays as the region finds them; after the body at point `t` each
    input's buffer at its block and the output's at `out1` of the six blocks; the generator register and the scoped
    rest untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

/-! # The run: @main's five items from the launch to the return

## Every buffer's contents at each boundary: a fold from the launch memory -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its output array at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: what the run ends with. -/
abbrev W5 : Dev nD → Valuation τ sig (Elt F) := fun c => StableHlo.after hostOps2 (W4 m ρ c)

/-! ### The arguments end as launched: no host operation writes one, and a region changes only its output array -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <| (W3_of m ρ c main_arg0 (by decide)).trans <|
    (W2_of_ne m ρ c main_arg0 (by decide)).trans <| (W1_of m ρ c main_arg0 (by decide)).trans rfl
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <| (W3_of m ρ c main_arg1 (by decide)).trans <|
    (W2_of_ne m ρ c main_arg1 (by decide)).trans <| (W1_of m ρ c main_arg1 (by decide)).trans rfl
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <|
    (W2_of_ne m ρ c main_arg2 (by decide)).trans <| (W1_of m ρ c main_arg2 (by decide)).trans rfl
theorem W5_main_arg3 (c : Dev nD) : W5 m ρ c (Proc.devRef .tc main_arg3) = m ((c : Thread nD τ).loc main_arg3) :=
  (W5_of m ρ c main_arg3 (by decide)).trans <| (W4_of_ne m ρ c main_arg3 (by decide)).trans <| (W3_of m ρ c main_arg3 (by decide)).trans <|
    (W2_of_ne m ρ c main_arg3 (by decide)).trans <| (W1_of m ρ c main_arg3 (by decide)).trans rfl
theorem W5_main_arg4 (c : Dev nD) : W5 m ρ c (Proc.devRef .tc main_arg4) = m ((c : Thread nD τ).loc main_arg4) :=
  (W5_of m ρ c main_arg4 (by decide)).trans <| (W4_of_ne m ρ c main_arg4 (by decide)).trans <| (W3_of m ρ c main_arg4 (by decide)).trans <|
    (W2_of_ne m ρ c main_arg4 (by decide)).trans <| (W1_of m ρ c main_arg4 (by decide)).trans rfl
theorem W5_main_arg5 (c : Dev nD) : W5 m ρ c (Proc.devRef .tc main_arg5) = m ((c : Thread nD τ).loc main_arg5) :=
  (W5_of m ρ c main_arg5 (by decide)).trans <| (W4_of_ne m ρ c main_arg5 (by decide)).trans <| (W3_of m ρ c main_arg5 (by decide)).trans <|
    (W2_of_ne m ρ c main_arg5 (by decide)).trans <| (W1_of m ρ c main_arg5 (by decide)).trans rfl
theorem W5_main_arg6 (c : Dev nD) : W5 m ρ c (Proc.devRef .tc main_arg6) = m ((c : Thread nD τ).loc main_arg6) :=
  (W5_of m ρ c main_arg6 (by decide)).trans <| (W4_of_ne m ρ c main_arg6 (by decide)).trans <| (W3_of m ρ c main_arg6 (by decide)).trans <|
    (W2_of_ne m ρ c main_arg6 (by decide)).trans <| (W1_of m ρ c main_arg6 (by decide)).trans rfl
theorem W5_main_arg7 (c : Dev nD) : W5 m ρ c (Proc.devRef .tc main_arg7) = m ((c : Thread nD τ).loc main_arg7) :=
  (W5_of m ρ c main_arg7 (by decide)).trans <| (W4_of_ne m ρ c main_arg7 (by decide)).trans <| (W3_of m ρ c main_arg7 (by decide)).trans <|
    (W2_of_ne m ρ c main_arg7 (by decide)).trans <| (W1_of m ρ c main_arg7 (by decide)).trans rfl
theorem W5_main_arg8 (c : Dev nD) : W5 m ρ c (Proc.devRef .tc main_arg8) = m ((c : Thread nD τ).loc main_arg8) :=
  (W5_of m ρ c main_arg8 (by decide)).trans <| (W4_of_ne m ρ c main_arg8 (by decide)).trans <| (W3_of m ρ c main_arg8 (by decide)).trans <|
    (W2_of_ne m ρ c main_arg8 (by decide)).trans <| (W1_of m ρ c main_arg8 (by decide)).trans rfl
theorem W5_main_arg9 (c : Dev nD) : W5 m ρ c (Proc.devRef .tc main_arg9) = m ((c : Thread nD τ).loc main_arg9) :=
  (W5_of m ρ c main_arg9 (by decide)).trans <| (W4_of_ne m ρ c main_arg9 (by decide)).trans <| (W3_of m ρ c main_arg9 (by decide)).trans <|
    (W2_of_ne m ρ c main_arg9 (by decide)).trans <| (W1_of m ρ c main_arg9 (by decide)).trans rfl
theorem W5_main_arg10 (c : Dev nD) : W5 m ρ c (Proc.devRef .tc main_arg10) = m ((c : Thread nD τ).loc main_arg10) :=
  (W5_of m ρ c main_arg10 (by decide)).trans <| (W4_of_ne m ρ c main_arg10 (by decide)).trans <| (W3_of m ρ c main_arg10 (by decide)).trans <|
    (W2_of_ne m ρ c main_arg10 (by decide)).trans <| (W1_of m ρ c main_arg10 (by decide)).trans rfl
theorem W5_main_arg11 (c : Dev nD) : W5 m ρ c (Proc.devRef .tc main_arg11) = m ((c : Thread nD τ).loc main_arg11) :=
  (W5_of m ρ c main_arg11 (by decide)).trans <| (W4_of_ne m ρ c main_arg11 (by decide)).trans <| (W3_of m ρ c main_arg11 (by decide)).trans <|
    (W2_of_ne m ρ c main_arg11 (by decide)).trans <| (W1_of m ρ c main_arg11 (by decide)).trans rfl
theorem W5_main_arg12 (c : Dev nD) : W5 m ρ c (Proc.devRef .tc main_arg12) = m ((c : Thread nD τ).loc main_arg12) :=
  (W5_of m ρ c main_arg12 (by decide)).trans <| (W4_of_ne m ρ c main_arg12 (by decide)).trans <| (W3_of m ρ c main_arg12 (by decide)).trans <|
    (W2_of_ne m ρ c main_arg12 (by decide)).trans <| (W1_of m ρ c main_arg12 (by decide)).trans rfl
theorem W5_main_arg13 (c : Dev nD) : W5 m ρ c (Proc.devRef .tc main_arg13) = m ((c : Thread nD τ).loc main_arg13) :=
  (W5_of m ρ c main_arg13 (by decide)).trans <| (W4_of_ne m ρ c main_arg13 (by decide)).trans <| (W3_of m ρ c main_arg13 (by decide)).trans <|
    (W2_of_ne m ρ c main_arg13 (by decide)).trans <| (W1_of m ρ c main_arg13 (by decide)).trans rfl
theorem W5_main_arg14 (c : Dev nD) : W5 m ρ c (Proc.devRef .tc main_arg14) = m ((c : Thread nD τ).loc main_arg14) :=
  (W5_of m ρ c main_arg14 (by decide)).trans <| (W4_of_ne m ρ c main_arg14 (by decide)).trans <| (W3_of m ρ c main_arg14 (by decide)).trans <|
    (W2_of_ne m ρ c main_arg14 (by decide)).trans <| (W1_of m ρ c main_arg14 (by decide)).trans rfl

/-! ## The data family and the thread state -/

abbrev adm : (p : Fin 2) → (pcfgs (F := F) p).Adm := fun p => (cfgs p).toPCfg_adm
/-- Each pipeline's data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

set_option backward.isDefEq.respectTransparency.types false in
/-- THE RUN. From any memory with zero counters, every weakly fair execution of @main terminates, nothing faulting, and
    every unscoped buffer ends at the fold's last contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c),
    (h c _ (mem_uc main_arg13 (by decide))).trans (W5_main_arg13 m ρ c),
    (h c _ (mem_uc main_arg14 (by decide))).trans (W5_main_arg14 m ρ c)⟩) (run_all m ρ)

end Cert.KernelIdeal.Hand

end
-- ==== Proof.KASpec.lean ====
/-
  The knowledge-attention layer on extended reals, for one (layer, batch) row: 32 neighbours, each with a head
  embedding h, a relation embedding r and a tail embedding t in 64 coordinates.  Two spellings of the same function:
  the FUSED one (one 128-wide first layer for both branches, one 128-wide block-diagonal second layer) and the
  PLAIN one (attention branch and gate branch each with its own two layers).  `kOut_eq_rOut` (in Proof/KAAlgebra.lean)
  says they agree when the fused weights are the plain ones laid side by side / on the diagonal.
-/
import Idealize.ShloMosaic.PureOps.Ideal

noncomputable section

namespace Cert.KA

open Idealize.ShloMosaic

/-- The f32 words 2.0 and −∞ as extended reals (kept as words: the same word stands on both sides). -/
abbrev two : EReal := Ideal.ofBits .f32 0x40000000#32
abbrev ninf : EReal := Ideal.ofBits .f32 0xFF800000#32

/-- A neighbour's feature row: h followed by r. -/
def xcat (h r : Fin 64 → EReal) (j : Fin 128) : EReal :=
  if hj : j.val < 64 then h ⟨j.val, hj⟩ else r ⟨j.val - 64, by omega⟩

/-- Softmax weights of 32 scores, the row maximum taken from −∞ and once more against −∞. -/
def smax (s : Fin 32 → EReal) (n : Fin 32) : EReal :=
  Ideal.div (Ideal.exp (s n - max ninf ((Finset.univ : Finset (Fin 32)).fold max ninf s)))
    (∑ n' : Fin 32, Ideal.exp (s n' - max ninf ((Finset.univ : Finset (Fin 32)).fold max ninf s)))

/-! ## The fused spelling -/

/-- First fused layer: relu of the row against the 128×128 weight. -/
def kHid (h r : Fin 64 → EReal) (w12 : Fin 128 → Fin 128 → EReal) (k : Fin 128) : EReal :=
  max (∑ j : Fin 128, xcat h r j * w12 j k) 0

/-- Second fused layer (no activation yet). -/
def kPre (h r : Fin 64 → EReal) (w12 w2g2 : Fin 128 → Fin 128 → EReal) (e : Fin 128) : EReal :=
  ∑ k : Fin 128, kHid h r w12 k * w2g2 k e

/-- The attention score of one neighbour: logistic of the relu'd first 64 outputs against w3. -/
def kScore (h r : Fin 64 → EReal) (w12 w2g2 : Fin 128 → Fin 128 → EReal) (w3 : Fin 64 → EReal) : EReal :=
  Ideal.logistic (∑ d : Fin 64, max (kPre h r w12 w2g2 ⟨d.val, by omega⟩) 0 * w3 d)

/-- The gate of one neighbour: twice the logistic of the last 64 outputs. -/
def kGate (h r : Fin 64 → EReal) (w12 w2g2 : Fin 128 → Fin 128 → EReal) (d : Fin 64) : EReal :=
  two * Ideal.logistic (kPre h r w12 w2g2 ⟨64 + d.val, by omega⟩)

/-- The row's output: the attention-weighted, gated sum of the tails. -/
def kOut (H R T : Fin 32 → Fin 64 → EReal) (w12 w2g2 : Fin 128 → Fin 128 → EReal) (w3 : Fin 64 → EReal) (d : Fin 64) : EReal :=
  ∑ n : Fin 32, smax (fun n' => kScore (H n') (R n') w12 w2g2 w3) n * kGate (H n) (R n) w12 w2g2 d * T n d

/-! ## The plain spelling -/

/-- A first layer: relu of the row against a 128×64 weight. -/
def rHid (h r : Fin 64 → EReal) (w1 : Fin 128 → Fin 64 → EReal) (d : Fin 64) : EReal :=
  max (∑ j : Fin 128, xcat h r j * w1 j d) 0

def rScore (h r : Fin 64 → EReal) (aw1 : Fin 128 → Fin 64 → EReal) (aw2 : Fin 64 → Fin 64 → EReal) (aw3 : Fin 64 → EReal) : EReal :=
  Ideal.logistic (∑ e : Fin 64, max (∑ d : Fin 64, rHid h r aw1 d * aw2 d e) 0 * aw3 e)

def rGate (h r : Fin 64 → EReal) (gw1 : Fin 128 → Fin 64 → EReal) (gw2 : Fin 64 → Fin 64 → EReal) (e : Fin 64) : EReal :=
  two * Ideal.logistic (∑ d : Fin 64, rHid h r gw1 d * gw2 d e)

def rOut (H R T : Fin 32 → Fin 64 → EReal) (aw1 : Fin 128 → Fin 64 → EReal) (aw2 : Fin 64 → Fin 64 → EReal) (aw3 : Fin 64 → EReal)
    (gw1 : Fin 128 → Fin 64 → EReal) (gw2 : Fin 64 → Fin 64 → EReal) (d : Fin 64) : EReal :=
  ∑ n : Fin 32, smax (fun n' => rScore (H n') (R n') aw1 aw2 aw3) n * rGate (H n) (R n) gw1 gw2 d * T n d

/-! ## The fused weights from the plain ones -/

/-- Two 128×64 weights side by side. -/
def w12of (aw1 gw1 : Fin 128 → Fin 64 → EReal) (j k : Fin 128) : EReal :=
  if hk : k.val < 64 then aw1 j ⟨k.val, hk⟩ else gw1 j ⟨k.val - 64, by omega⟩

/-- Two 64×64 weights on the diagonal of a 128×128 matrix, zero elsewhere. -/
def w2g2of (aw2 gw2 : Fin 64 → Fin 64 → EReal) (k e : Fin 128) : EReal :=
  if hk : k.val < 64 then (if he : e.val < 64 then aw2 ⟨k.val, hk⟩ ⟨e.val, he⟩ else 0)
  else (if he : e.val < 64 then 0 else gw2 ⟨k.val - 64, by omega⟩ ⟨e.val - 64, by omega⟩)

end Cert.KA

end
-- ==== Proof.KWeights.lean ====
/-
  The fused weights as the host builds them, read at an index on extended reals.

  The first-layer weight is two 128×64 matrices laid side by side along the columns; the second-layer weight is
  [A | 0] on top of [0 | G] for two 64×64 matrices A, G and a 64×64 block of the zero word; the last weight is a
  64×1 column re-read as a 1×64 row.  The narrowing format change is the identity on extended reals, and the zero
  word is the number 0.
-/
import proofs.«172278_j10548439679188_2_alg».proof.Proof.Gen.KernelIdeal
import proofs.«172278_j10548439679188_2_alg».proof.Proof.KASpec
import Idealize.ShloMosaic.Lib.Pipeline.Value
import Idealize.ShloMosaic.Lib.ValueIdx
import Idealize.ShloMosaic.PureOps.Ideal.Laws

noncomputable section

namespace Cert.KernelIdeal.Weights

open Idealize.ShloMosaic Idealize.ShloMosaic.ValueIdx
open Cert.KernelIdeal.Facts₀

/-! ## Two pieces laid side by side, or one on top of the other, read at coordinates -/

section TwoPieces

variable {α : Type}

/-- Column `c = j` of two matrices laid side by side is column `j` of the first. -/
theorem cols2_left {n m₁ m₂ M : ℕ} (A : (⟨2, ![n, m₁]⟩ : Shape).Idx → α) (B : (⟨2, ![n, m₂]⟩ : Shape).Idx → α)
    (h : Shape.Concatenates [(⟨2, ![n, m₁]⟩ : Shape), ⟨2, ![n, m₂]⟩] ⟨2, ![n, M]⟩ 1)
    (r : Fin n) (j : Fin m₁) (c : Fin M) (hc : c.val = j.val) :
    concatenate ⟨2, ![n, M]⟩ 1 [⟨⟨2, ![n, m₁]⟩, A⟩, ⟨⟨2, ![n, m₂]⟩, B⟩] h (ix2 r c) = A (ix2 r j) :=
  concatenate_pair_apply_left (t := ⟨2, ![n, M]⟩) (1 : Fin 2) A B h (ix2 r c) rfl (ix2 r j)
    (fun b => match b with | ⟨0, _⟩ => rfl | ⟨1, _⟩ => hc.symm)

/-- Column `c = m₁ + j` of two matrices laid side by side is column `j` of the second. -/
theorem cols2_right {n m₁ m₂ M : ℕ} (A : (⟨2, ![n, m₁]⟩ : Shape).Idx → α) (B : (⟨2, ![n, m₂]⟩ : Shape).Idx → α)
    (h : Shape.Concatenates [(⟨2, ![n, m₁]⟩ : Shape), ⟨2, ![n, m₂]⟩] ⟨2, ![n, M]⟩ 1)
    (r : Fin n) (j : Fin m₂) (c : Fin M) (hc : c.val = m₁ + j.val) :
    concatenate ⟨2, ![n, M]⟩ 1 [⟨⟨2, ![n, m₁]⟩, A⟩, ⟨⟨2, ![n, m₂]⟩, B⟩] h (ix2 r c) = B (ix2 r j) :=
  concatenate_pair_apply_right (t := ⟨2, ![n, M]⟩) (1 : Fin 2) A B h (ix2 r c) rfl rfl (ix2 r j)
    (fun b hb => match b, hb with | ⟨0, _⟩, _ => rfl | ⟨1, _⟩, hb => absurd rfl hb)
    (by show j.val + m₁ = c.val; omega)

/-- Row `r = i` of two matrices, one on top of the other, is row `i` of the first. -/
theorem rows2_top {n₁ n₂ N m : ℕ} (A : (⟨2, ![n₁, m]⟩ : Shape).Idx → α) (B : (⟨2, ![n₂, m]⟩ : Shape).Idx → α)
    (h : Shape.Concatenates [(⟨2, ![n₁, m]⟩ : Shape), ⟨2, ![n₂, m]⟩] ⟨2, ![N, m]⟩ 0)
    (r : Fin N) (i : Fin n₁) (c : Fin m) (hr : r.val = i.val) :
    concatenate ⟨2, ![N, m]⟩ 0 [⟨⟨2, ![n₁, m]⟩, A⟩, ⟨⟨2, ![n₂, m]⟩, B⟩] h (ix2 r c) = A (ix2 i c) :=
  concatenate_pair_apply_left (t := ⟨2, ![N, m]⟩) (0 : Fin 2) A B h (ix2 r c) rfl (ix2 i c)
    (fun b => match b with | ⟨0, _⟩ => hr.symm | ⟨1, _⟩ => rfl)

/-- Row `r = n₁ + i` of two matrices, one on top of the other, is row `i` of the second. -/
theorem rows2_bottom {n₁ n₂ N m : ℕ} (A : (⟨2, ![n₁, m]⟩ : Shape).Idx → α) (B : (⟨2, ![n₂, m]⟩ : Shape).Idx → α)
    (h : Shape.Concatenates [(⟨2, ![n₁, m]⟩ : Shape), ⟨2, ![n₂, m]⟩] ⟨2, ![N, m]⟩ 0)
    (r : Fin N) (i : Fin n₂) (c : Fin m) (hr : r.val = n₁ + i.val) :
    concatenate ⟨2, ![N, m]⟩ 0 [⟨⟨2, ![n₁, m]⟩, A⟩, ⟨⟨2, ![n₂, m]⟩, B⟩] h (ix2 r c) = B (ix2 i c) :=
  concatenate_pair_apply_right (t := ⟨2, ![N, m]⟩) (0 : Fin 2) A B h (ix2 r c) rfl rfl (ix2 i c)
    (fun b hb => match b, hb with | ⟨0, _⟩, hb => absurd rfl hb | ⟨1, _⟩, _ => rfl)
    (by show i.val + n₁ = r.val; omega)

end TwoPieces

/-! ## The first-layer weight -/

/-- The two 128×64 weights side by side, narrowed. -/
def w12T (a10 a13 : FVec Ideal S128x64 .f32) : FVec Ideal S128x128 .bf16 :=
  truncf .bf16 (concatenate S128x128 1 [⟨S128x64, a10⟩, ⟨S128x64, a13⟩] concatenates_S128x64_S128x64_S128x128_d1)
    bitsLt_bf16_f32

theorem w12T_apply (a10 a13 : FVec Ideal S128x64 .f32) (j k : Fin 128) :
    w12T a10 a13 (ix2 j k)
      = Cert.KA.w12of (fun j d => a10 (ix2 j d)) (fun j d => a13 (ix2 j d)) j k := by
  unfold w12T Cert.KA.w12of
  rw [truncf_apply]
  by_cases hk : k.val < 64
  · rw [dif_pos hk]
    exact cols2_left a10 a13 _ j ⟨k.val, hk⟩ k rfl
  · rw [dif_neg hk]
    exact cols2_right a10 a13 _ j ⟨k.val - 64, by omega⟩ k (by show k.val = 64 + (k.val - 64); omega)

/-! ## The second-layer weight -/

/-- A 64×64 block of the zero word. -/
abbrev zeroT : FVec Ideal S64x64 .f32 :=
  broadcastInDim S64x64 ![] bcast_S_S64x64 (constant (F := Ideal) S_ .f32 0x00000000#32)

theorem zeroT_apply (i : S64x64.Idx) : zeroT i = 0 := Ideal.ofBits_zero_f32

/-- [A | 0] on top of [0 | G], narrowed. -/
def w2g2T (a11 a14 : FVec Ideal S64x64 .f32) : FVec Ideal S128x128 .bf16 :=
  truncf .bf16
    (concatenate S128x128 0
      [⟨S64x128, concatenate S64x128 1 [⟨S64x64, a11⟩, ⟨S64x64, zeroT⟩] concatenates_S64x64_S64x64_S64x128_d1⟩,
       ⟨S64x128, concatenate S64x128 1 [⟨S64x64, zeroT⟩, ⟨S64x64, a14⟩] concatenates_S64x64_S64x64_S64x128_d1⟩]
      concatenates_S64x128_S64x128_S128x128_d0)
    bitsLt_bf16_f32

theorem w2g2T_apply (a11 a14 : FVec Ideal S64x64 .f32) (k e : Fin 128) :
    w2g2T a11 a14 (ix2 k e)
      = Cert.KA.w2g2of (fun d e => a11 (ix2 d e)) (fun d e => a14 (ix2 d e)) k e := by
  unfold w2g2T Cert.KA.w2g2of
  rw [truncf_apply]
  by_cases hk : k.val < 64
  · rw [dif_pos hk]
    refine (rows2_top _ _ _ k ⟨k.val, hk⟩ e rfl).trans ?_
    by_cases he : e.val < 64
    · rw [dif_pos he]
      exact cols2_left a11 zeroT _ ⟨k.val, hk⟩ ⟨e.val, he⟩ e rfl
    · rw [dif_neg he]
      refine (cols2_right a11 zeroT _ ⟨k.val, hk⟩ ⟨e.val - 64, by omega⟩ e
        (by show e.val = 64 + (e.val - 64); omega)).trans ?_
      exact zeroT_apply _
  · rw [dif_neg hk]
    refine (rows2_bottom _ _ _ k ⟨k.val - 64, by omega⟩ e (by show k.val = 64 + (k.val - 64); omega)).trans ?_
    by_cases he : e.val < 64
    · rw [dif_pos he]
      refine (cols2_left zeroT a14 _ ⟨k.val - 64, by omega⟩ ⟨e.val, he⟩ e rfl).trans ?_
      exact zeroT_apply _
    · rw [dif_neg he]
      exact cols2_right zeroT a14 _ ⟨k.val - 64, by omega⟩ ⟨e.val - 64, by omega⟩ e
        (by show e.val = 64 + (e.val - 64); omega)

/-! ## The last weight -/

/-- The 64×1 column re-read as 64 entries, then as a 1×64 row. -/
def w3T (a12 : FVec Ideal S64x1 .f32) : FVec Ideal S1x64 .f32 :=
  shapeCast S1x64 (shapeCast S64 a12 shapeCasts_S64x1_S64) shapeCasts_S64_S1x64

theorem w3T_apply (a12 : FVec Ideal S64x1 .f32) (e : Fin 64) :
    w3T a12 (ix2 (0 : Fin 1) e) = a12 (ix2 e (0 : Fin 1)) := by
  unfold w3T
  refine (shapeCast_apply _ _ (ix2 (0 : Fin 1) e) (ix1 e) ?_).trans ?_
  · rw [Shape.rowMajor_val_one, Shape.rowMajor_val_two]
    show e.val = 0 * 64 + e.val
    omega
  · refine shapeCast_apply _ _ (ix1 e) (ix2 e (0 : Fin 1)) ?_
    rw [Shape.rowMajor_val_one, Shape.rowMajor_val_two]
    show e.val * 1 + 0 = e.val
    omega

end Cert.KernelIdeal.Weights

end
-- ==== Proof.LibFoldConcat.lean ====
/-
  Folding a straight line of host operations through concatenations.

  The contents a buffer holds after a line of host operations are a fold of the operations' results over the launch
  contents, and the library's result lemmas rewrite that fold one operation at a time. Two kinds of concatenation stop
  the rewriting, and the two facts here let it go on:

  * an operation on a LITERAL family of three references (three arrays laid end to end): the library states such an
    operation's result with the operands read under a binder, `fun k => V ↑(![x, a, b] k)`, where no result lemma
    applies; `nary3_result'` states it with each operand's contents at its own reference (the three-operand analogue of
    the library's lemma for four);
  * a two-piece concatenation `concatenate t a [⟨s1, x1⟩, ⟨s2, x2⟩] hc`: its side condition `hc` is stated over the list
    of pieces, so a rewriting pass cannot enter the pieces; `cat2` is the same value with each piece an argument of its
    own, and `cat2_fold` turns the one into the other (by definition), after which the pieces are rewritten like any
    other argument.

  Use: add `nary3_result'` and `cat2_fold` to the `simp (disch := decide) only [after_cons, after_nil, …_result', …_result_ne']`
  pass that computes `StableHlo.after ops V ↑b`, and close against the composed term by `rfl` (`cat2` unfolds).
-/
import Idealize.ShloMosaic.Lib.StableHlo.Run

noncomputable section

namespace Cert.Lib.FoldConcat

open Idealize.ShloMosaic Idealize.ShloMosaic.TcCoe Idealize.ShloMosaic.StableHlo

variable {τ : Topo} {sig : RefSig} {Val : EltTy → Type}

/-- An operation on a literal family of three references: its result with each operand's contents at its own reference. -/
theorem nary3_result' {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- Two pieces laid side by side along an axis, each piece an argument of its own. -/
def cat2 {α : Type} (t : Shape) (a : Fin t.rank) (s1 s2 : Shape) (x1 : s1.Idx → α) (x2 : s2.Idx → α)
    (hc : Shape.Concatenates [s1, s2] t a) : t.Idx → α :=
  concatenate t a [⟨s1, x1⟩, ⟨s2, x2⟩] hc

/-- The library's two-piece concatenation is `cat2` of its pieces. -/
theorem cat2_fold {α : Type} (t : Shape) (a : Fin t.rank) (s1 s2 : Shape) (x1 : s1.Idx → α) (x2 : s2.Idx → α)
    (hc : Shape.Concatenates [s1, s2] t a) : concatenate t a [⟨s1, x1⟩, ⟨s2, x2⟩] hc = cat2 t a s1 s2 x1 x2 hc := rfl

end Cert.Lib.FoldConcat

end
-- ==== Proof.KFold.lean ====
/-
  The kernel program's host side, read off the fold of the launch memory through its three stretches of host operations,
  at the exact values: what each kernel's six operand arrays hold when its region is entered (the gathered embeddings and
  the fused weights, functions of the arguments alone), and the result as one function `kTail` of the two origins and the
  two kernels' output arrays.
-/
import proofs.«172278_j10548439679188_2_alg».proof.Proof.KRunIdeal
import proofs.«172278_j10548439679188_2_alg».proof.Proof.KWeights
import proofs.«172278_j10548439679188_2_alg».proof.Proof.LibFoldConcat
import Idealize.ShloMosaic.Lib.StableHlo.Run

set_option maxRecDepth 16384

noncomputable section

namespace Cert.KernelIdeal.Fold

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg)

/-- The contents a buffer holds after a stretch of host operations, computed in one rewriting pass, a three-operand
    operation read with each operand at its own reference. -/
macro "fold_results" : tactic =>
  `(tactic| (simp (disch := decide) only [after_cons, after_nil,
      nullary_result', unary_result', binary_result', ternary_result', quaternary_result', reshape_result', nary4_result',
      Cert.Lib.FoldConcat.nary3_result', unaryIndexed_result', binaryIndexed_result',
      nullary_result_ne', unary_result_ne', binary_result_ne', ternary_result_ne', quaternary_result_ne', reshape_result_ne',
      nary_result_ne', unaryIndexed_result_ne', binaryIndexed_result_ne']))

/-! ## The fused weights when region 0 is entered, and unchanged when region 1 is -/

theorem V1_w12 (c : Dev nD) : V1 m ρ c main_v3 = Weights.w12T (m ((c : Thread nD τ).loc main_arg10)) (m ((c : Thread nD τ).loc main_arg13)) := by
  show StableHlo.after hostOps0 (fun b => m (c, b)) (Proc.devRef .tc main_v3) = _
  after_results
  rfl
theorem V1_w2g2 (c : Dev nD) : V1 m ρ c main_v8 = Weights.w2g2T (m ((c : Thread nD τ).loc main_arg11)) (m ((c : Thread nD τ).loc main_arg14)) := by
  show StableHlo.after hostOps0 (fun b => m (c, b)) (Proc.devRef .tc main_v8) = _
  after_results
  rfl
theorem V1_w3 (c : Dev nD) : V1 m ρ c main_v10 = Weights.w3T (m ((c : Thread nD τ).loc main_arg12)) := by
  show StableHlo.after hostOps0 (fun b => m (c, b)) (Proc.devRef .tc main_v10) = _
  after_results
  rfl

/-- A buffer region 0 does not stage keeps its contents through the region. -/
theorem W2_of_V1 (c : Dev nD) (r : Ref sig .tc) (h2 : ∀ w, Pipeline.arrRef spec0 w ≠ r) : W2 m ρ c (Proc.devRef .tc r) = V1 m ρ c r :=
  W2_of_ne m ρ c r h2
/-- An array region 0 only reads (an input window's) keeps its contents through the region. -/
theorem W2_in (c : Dev nD) (w : Fin cfg0.W) (hw : (cfg0.win w).isOut = false) :
    W2 m ρ c (Proc.devRef .tc (Pipeline.arrRef spec0 w)) = V1 m ρ c (Pipeline.arrRef spec0 w) :=
  (W2_arr m ρ c w).trans (((dat0 (V1 m ρ) c).arrAt_in w hw _).trans (A_eq0 (V1 m ρ) c w))

theorem V3_w12 (c : Dev nD) : V3 m ρ c main_v3 = Weights.w12T (m ((c : Thread nD τ).loc main_arg10)) (m ((c : Thread nD τ).loc main_arg13)) :=
  (W3_of m ρ c main_v3 (by decide)).trans ((W2_in m ρ c 3 rfl).trans (V1_w12 m ρ c))
theorem V3_w2g2 (c : Dev nD) : V3 m ρ c main_v8 = Weights.w2g2T (m ((c : Thread nD τ).loc main_arg11)) (m ((c : Thread nD τ).loc main_arg14)) :=
  (W3_of m ρ c main_v8 (by decide)).trans ((W2_in m ρ c 4 rfl).trans (V1_w2g2 m ρ c))
theorem V3_w3 (c : Dev nD) : V3 m ρ c main_v10 = Weights.w3T (m ((c : Thread nD τ).loc main_arg12)) :=
  (W3_of m ρ c main_v10 (by decide)).trans ((W2_in m ρ c 5 rfl).trans (V1_w3 m ρ c))

/-! ## The result: the shared tail over the two origins and the two output arrays -/

/-- Three [4096,64] arrays laid side by side along the feature axis. -/
def cat3 (a b d : (⟨S4096x64, .f32⟩ : BufTy).Contents (Elt Ideal)) : (⟨S4096x192, .f32⟩ : BufTy).Contents (Elt Ideal) :=
  concatenate S4096x192 1 [⟨S4096x64, a⟩, ⟨S4096x64, b⟩, ⟨S4096x64, d⟩] concatenates_S4096x64_S4096x64_S4096x64_S4096x192_d1
/-- Layer 0 / layer 1 of an output array [2,4096,64] as a [4096,64] array. -/
def layer0 (k : (⟨S2x4096x64, .f32⟩ : BufTy).Contents (Elt Ideal)) : (⟨S4096x64, .f32⟩ : BufTy).Contents (Elt Ideal) :=
  shapeCast S4096x64 (extractStridedSlice S1x4096x64 ![0, 0, 0] k slices_S2x4096x64_S1x4096x64_0_0_0) shapeCasts_S1x4096x64_S4096x64
def layer1 (k : (⟨S2x4096x64, .f32⟩ : BufTy).Contents (Elt Ideal)) : (⟨S4096x64, .f32⟩ : BufTy).Contents (Elt Ideal) :=
  shapeCast S4096x64 (extractStridedSlice S1x4096x64 ![1, 0, 0] k slices_S2x4096x64_S1x4096x64_1_0_0) shapeCasts_S1x4096x64_S4096x64
/-- A tower's features: its origin beside the two layers of its output array. -/
def towerCat (o : (⟨S4096x64, .f32⟩ : BufTy).Contents (Elt Ideal)) (k : (⟨S2x4096x64, .f32⟩ : BufTy).Contents (Elt Ideal)) : (⟨S4096x192, .f32⟩ : BufTy).Contents (Elt Ideal) := cat3 o (layer0 k) (layer1 k)
/-- The score of two towers' features: the logistic (spelt 1 / (1 + e^(-x))) of the row sums of their product. -/
def scoreOf (eu ev : (⟨S4096x192, .f32⟩ : BufTy).Contents (Elt Ideal)) : (⟨S4096, .f32⟩ : BufTy).Contents (Elt Ideal) :=
  Host.divf (broadcastInDim S4096 ![] bcast_S_S4096 (constant (F := Ideal) S_ .f32 0x3F800000#32))
    (addf (broadcastInDim S4096 ![] bcast_S_S4096 (constant (F := Ideal) S_ .f32 0x3F800000#32))
      (Host.exp (Host.negf (Host.reduceAdd (mulf eu ev) (constant (F := Ideal) S_ .f32 0x00000000#32) reducesTo_S4096x192_S4096_d1 h_S_))))
/-- The result as one function of the two origins and the two kernels' output arrays. -/
def kTail (uo : (⟨S4096x64, .f32⟩ : BufTy).Contents (Elt Ideal)) (ku : (⟨S2x4096x64, .f32⟩ : BufTy).Contents (Elt Ideal)) (io : (⟨S4096x64, .f32⟩ : BufTy).Contents (Elt Ideal)) (ki : (⟨S2x4096x64, .f32⟩ : BufTy).Contents (Elt Ideal)) : (⟨S4096, .f32⟩ : BufTy).Contents (Elt Ideal) :=
  scoreOf (towerCat uo ku) (towerCat io ki)

/-! ### The user tower's features (second stretch, its first five operations) -/

theorem mid1_43 (c : Dev nD) : StableHlo.after (hostOps1.take 4) (W2 m ρ c) (Proc.devRef .tc main_v43) = V1 m ρ c main_v43 := by
  simp only [hostOps1, List.take_succ_cons, List.take_zero]
  fold_results
  exact W2_of_ne m ρ c main_v43 (by decide)
theorem mid1_46 (c : Dev nD) : StableHlo.after (hostOps1.take 4) (W2 m ρ c) (Proc.devRef .tc main_v46) = layer0 ((dat0 (V1 m ρ) c).arrAt 6 cfg0.N) := by
  simp only [hostOps1, List.take_succ_cons, List.take_zero]
  fold_results
  rw [show W2 m ρ c (Proc.devRef .tc main_v44) = (dat0 (V1 m ρ) c).arrAt 6 cfg0.N from W2_arr m ρ c 6]
  rfl
theorem mid1_48 (c : Dev nD) : StableHlo.after (hostOps1.take 4) (W2 m ρ c) (Proc.devRef .tc main_v48) = layer1 ((dat0 (V1 m ρ) c).arrAt 6 cfg0.N) := by
  simp only [hostOps1, List.take_succ_cons, List.take_zero]
  fold_results
  rw [show W2 m ρ c (Proc.devRef .tc main_v44) = (dat0 (V1 m ρ) c).arrAt 6 cfg0.N from W2_arr m ρ c 6]
  rfl

/-- The user tower's features when region 1 is entered. -/
theorem W3_main_v49 (c : Dev nD) : W3 m ρ c (Proc.devRef .tc main_v49)
    = towerCat (V1 m ρ c main_v43) ((dat0 (V1 m ρ) c).arrAt 6 cfg0.N) := by
  show StableHlo.after hostOps1 (W2 m ρ c) (Proc.devRef .tc main_v49) = _
  fold_results
  show cat3 (StableHlo.after (hostOps1.take 4) (W2 m ρ c) (Proc.devRef .tc main_v43))
      (StableHlo.after (hostOps1.take 4) (W2 m ρ c) (Proc.devRef .tc main_v46))
      (StableHlo.after (hostOps1.take 4) (W2 m ρ c) (Proc.devRef .tc main_v48)) = _
  rw [mid1_43, mid1_46, mid1_48]
  rfl

/-! ### The item tower's features and the score (last stretch) -/

theorem mid2_77 (c : Dev nD) : StableHlo.after (hostOps2.take 4) (W4 m ρ c) (Proc.devRef .tc main_v77) = V3 m ρ c main_v77 := by
  simp only [hostOps2, List.take_succ_cons, List.take_zero]
  fold_results
  exact W4_of_ne m ρ c main_v77 (by decide)
theorem mid2_80 (c : Dev nD) : StableHlo.after (hostOps2.take 4) (W4 m ρ c) (Proc.devRef .tc main_v80) = layer0 ((dat1 (V3 m ρ) c).arrAt 6 cfg1.N) := by
  simp only [hostOps2, List.take_succ_cons, List.take_zero]
  fold_results
  rw [show W4 m ρ c (Proc.devRef .tc main_v78) = (dat1 (V3 m ρ) c).arrAt 6 cfg1.N from W4_arr m ρ c 6]
  rfl
theorem mid2_82 (c : Dev nD) : StableHlo.after (hostOps2.take 4) (W4 m ρ c) (Proc.devRef .tc main_v82) = layer1 ((dat1 (V3 m ρ) c).arrAt 6 cfg1.N) := by
  simp only [hostOps2, List.take_succ_cons, List.take_zero]
  fold_results
  rw [show W4 m ρ c (Proc.devRef .tc main_v78) = (dat1 (V3 m ρ) c).arrAt 6 cfg1.N from W4_arr m ρ c 6]
  rfl

/-- THE RESULT the run ends with. -/
theorem W5_result (c : Dev nD) : W5 m ρ c (Proc.devRef .tc main_v91)
    = kTail (V1 m ρ c main_v43) ((dat0 (V1 m ρ) c).arrAt 6 cfg0.N) (V3 m ρ c main_v77) ((dat1 (V3 m ρ) c).arrAt 6 cfg1.N) := by
  show StableHlo.after hostOps2 (W4 m ρ c) (Proc.devRef .tc main_v91) = _
  fold_results
  show scoreOf (W4 m ρ c (Proc.devRef .tc main_v49))
      (cat3 (StableHlo.after (hostOps2.take 4) (W4 m ρ c) (Proc.devRef .tc main_v77))
        (StableHlo.after (hostOps2.take 4) (W4 m ρ c) (Proc.devRef .tc main_v80))
        (StableHlo.after (hostOps2.take 4) (W4 m ρ c) (Proc.devRef .tc main_v82))) = _
  rw [mid2_77, mid2_80, mid2_82,
    show W4 m ρ c (Proc.devRef .tc main_v49) = W3 m ρ c (Proc.devRef .tc main_v49) from W4_of_ne m ρ c main_v49 (by decide),
    W3_main_v49]
  rfl

end Cert.KernelIdeal.Fold

end
-- ==== Proof.KHostGlue.lean ====
import proofs.«172278_j10548439679188_2_alg».proof.Proof.Gen.KernelIdeal
import proofs.«172278_j10548439679188_2_alg».proof.Proof.RefReadP
import Idealize.ShloMosaic.Lib.ValueIdx
import Idealize.ShloMosaic.Lib.Pipeline.Value

/-!
  The arrays the kernel program's host code computes from the argument arrays before and between its two
  kernel launches — the gathered head, relation and tail embeddings of both towers, and the two "origin"
  embeddings — are, as whole arrays over the extended reals, the arrays the reference program computes.

  Six of the eight are gathers of table rows at wrapped row numbers; the kernel program first changes the
  table's format, which over the extended reals is the identity, so each is literally the reference's gather.
  The item origin is the same gather on both sides. The user origin is the one with content: the kernel program
  slices the row NUMBERS to the first layer and gathers [4096,32] rows, the reference gathers [2,4096,32] rows
  and slices the RESULT to the first layer; element (p, n, c) of either is column c of the table's row
  number `x2[0,p,n]` (wrapped, clamped), so the two [4096,32,64] arrays agree index by index and so do their
  means over the 32 neighbours.
-/

noncomputable section

namespace Cert.KernelIdeal.HostGlue

open Cert.KernelIdeal Cert.KernelIdeal.Gen Idealize.ShloMosaic Idealize.ShloMosaic.TcCoe Idealize.SL.Sem Idealize.ShloMosaic.StableHlo
open Idealize.ShloMosaic.ValueIdx

/-! ## A change of float format is the identity over the extended reals -/

theorem truncf_bf16_self {s : Shape} (x : FVec Ideal s .f32) (h : FTy.bits .bf16 < FTy.bits .f32) :
    (truncf .bf16 x h : FVec Ideal s .bf16) = x := rfl

/-! ## The eight host values, as the program composes them -/

/-- The user tower's head embeddings: rows of the entity table at the wrapped head numbers. -/
def kUH (x2 : (⟨S2x4096x32, .i32⟩ : BufTy).Contents (Elt Ideal)) (x8 : (⟨S100000x64, .f32⟩ : BufTy).Contents (Elt Ideal)) :
    (⟨S2x4096x32x64, .bf16⟩ : BufTy).Contents (Elt Ideal) :=
  Host.gather gather_S100000x64_S2x4096x32x1_S2x4096x32x64_3_0_n_n_0_3_164
    (truncf (F := Ideal) (s := S100000x64) (φ := .f32) .bf16 x8 bitsLt_bf16_f32)
    (broadcastInDim S2x4096x32x1 ![0, 1, 2] bcast_S2x4096x32_S2x4096x32x1_0_1_2
      (select (cmpi .slt x2 (broadcastInDim S2x4096x32 ![] bcast_S_S2x4096x32 (constantI S_ 32 0#32)))
        (addi x2 (broadcastInDim S2x4096x32 ![] bcast_S_S2x4096x32 (constantI S_ 32 100000#32)))
        x2))

/-- The user tower's relation embeddings: rows of the relation table at the wrapped relation numbers. -/
def kUR (x3 : (⟨S2x4096x32, .i32⟩ : BufTy).Contents (Elt Ideal)) (x9 : (⟨S32x64, .f32⟩ : BufTy).Contents (Elt Ideal)) :
    (⟨S2x4096x32x64, .bf16⟩ : BufTy).Contents (Elt Ideal) :=
  Host.gather gather_S32x64_S2x4096x32x1_S2x4096x32x64_3_0_n_n_0_3_164
    (truncf (F := Ideal) (s := S32x64) (φ := .f32) .bf16 x9 bitsLt_bf16_f32)
    (broadcastInDim S2x4096x32x1 ![0, 1, 2] bcast_S2x4096x32_S2x4096x32x1_0_1_2
      (select (cmpi .slt x3 (broadcastInDim S2x4096x32 ![] bcast_S_S2x4096x32 (constantI S_ 32 0#32)))
        (addi x3 (broadcastInDim S2x4096x32 ![] bcast_S_S2x4096x32 (constantI S_ 32 32#32)))
        x3))

/-- The user tower's tail embeddings. -/
def kUT (x4 : (⟨S2x4096x32, .i32⟩ : BufTy).Contents (Elt Ideal)) (x8 : (⟨S100000x64, .f32⟩ : BufTy).Contents (Elt Ideal)) :
    (⟨S2x4096x32x64, .bf16⟩ : BufTy).Contents (Elt Ideal) :=
  Host.gather gather_S100000x64_S2x4096x32x1_S2x4096x32x64_3_0_n_n_0_3_164
    (truncf (F := Ideal) (s := S100000x64) (φ := .f32) .bf16 x8 bitsLt_bf16_f32)
    (broadcastInDim S2x4096x32x1 ![0, 1, 2] bcast_S2x4096x32_S2x4096x32x1_0_1_2
      (select (cmpi .slt x4 (broadcastInDim S2x4096x32 ![] bcast_S_S2x4096x32 (constantI S_ 32 0#32)))
        (addi x4 (broadcastInDim S2x4096x32 ![] bcast_S_S2x4096x32 (constantI S_ 32 100000#32)))
        x4))

/-- The item tower's head embeddings. -/
def kIH (x5 : (⟨S2x4096x32, .i32⟩ : BufTy).Contents (Elt Ideal)) (x8 : (⟨S100000x64, .f32⟩ : BufTy).Contents (Elt Ideal)) :
    (⟨S2x4096x32x64, .bf16⟩ : BufTy).Contents (Elt Ideal) :=
  Host.gather gather_S100000x64_S2x4096x32x1_S2x4096x32x64_3_0_n_n_0_3_164
    (truncf (F := Ideal) (s := S100000x64) (φ := .f32) .bf16 x8 bitsLt_bf16_f32)
    (broadcastInDim S2x4096x32x1 ![0, 1, 2] bcast_S2x4096x32_S2x4096x32x1_0_1_2
      (select (cmpi .slt x5 (broadcastInDim S2x4096x32 ![] bcast_S_S2x4096x32 (constantI S_ 32 0#32)))
        (addi x5 (broadcastInDim S2x4096x32 ![] bcast_S_S2x4096x32 (constantI S_ 32 100000#32)))
        x5))

/-- The item tower's relation embeddings. -/
def kIR (x6 : (⟨S2x4096x32, .i32⟩ : BufTy).Contents (Elt Ideal)) (x9 : (⟨S32x64, .f32⟩ : BufTy).Contents (Elt Ideal)) :
    (⟨S2x4096x32x64, .bf16⟩ : BufTy).Contents (Elt Ideal) :=
  Host.gather gather_S32x64_S2x4096x32x1_S2x4096x32x64_3_0_n_n_0_3_164
    (truncf (F := Ideal) (s := S32x64) (φ := .f32) .bf16 x9 bitsLt_bf16_f32)
    (broadcastInDim S2x4096x32x1 ![0, 1, 2] bcast_S2x4096x32_S2x4096x32x1_0_1_2
      (select (cmpi .slt x6 (broadcastInDim S2x4096x32 ![] bcast_S_S2x4096x32 (constantI S_ 32 0#32)))
        (addi x6 (broadcastInDim S2x4096x32 ![] bcast_S_S2x4096x32 (constantI S_ 32 32#32)))
        x6))

/-- The item tower's tail embeddings. -/
def kIT (x7 : (⟨S2x4096x32, .i32⟩ : BufTy).Contents (Elt Ideal)) (x8 : (⟨S100000x64, .f32⟩ : BufTy).Contents (Elt Ideal)) :
    (⟨S2x4096x32x64, .bf16⟩ : BufTy).Contents (Elt Ideal) :=
  Host.gather gather_S100000x64_S2x4096x32x1_S2x4096x32x64_3_0_n_n_0_3_164
    (truncf (F := Ideal) (s := S100000x64) (φ := .f32) .bf16 x8 bitsLt_bf16_f32)
    (broadcastInDim S2x4096x32x1 ![0, 1, 2] bcast_S2x4096x32_S2x4096x32x1_0_1_2
      (select (cmpi .slt x7 (broadcastInDim S2x4096x32 ![] bcast_S_S2x4096x32 (constantI S_ 32 0#32)))
        (addi x7 (broadcastInDim S2x4096x32 ![] bcast_S_S2x4096x32 (constantI S_ 32 100000#32)))
        x7))

/-- The item origin: one row of the entity table per batch row. -/
def kIO (x1 : (⟨S4096, .i32⟩ : BufTy).Contents (Elt Ideal)) (x8 : (⟨S100000x64, .f32⟩ : BufTy).Contents (Elt Ideal)) :
    (⟨S4096x64, .f32⟩ : BufTy).Contents (Elt Ideal) :=
  Host.gather gather_S100000x64_S4096x1_S4096x64_1_0_n_n_0_1_164 x8
    (broadcastInDim S4096x1 ![0] bcast_S4096_S4096x1_0
      (select (cmpi .slt x1 (broadcastInDim S4096 ![] bcast_S_S4096 (constantI S_ 32 0#32)))
        (addi x1 (broadcastInDim S4096 ![] bcast_S_S4096 (constantI S_ 32 100000#32)))
        x1))

/-- The first layer's head numbers, as a [4096,32] array. -/
def kL0 (x2 : (⟨S2x4096x32, .i32⟩ : BufTy).Contents (Elt Ideal)) : (⟨S4096x32, .i32⟩ : BufTy).Contents (Elt Ideal) :=
  shapeCast S4096x32 (extractStridedSlice S1x4096x32 ![0, 0, 0] x2 slices_S2x4096x32_S1x4096x32_0_0_0) shapeCasts_S1x4096x32_S4096x32

/-- The first layer's head numbers, wrapped, as a [4096,32,1] array of row numbers. -/
def kN3 (x2 : (⟨S2x4096x32, .i32⟩ : BufTy).Contents (Elt Ideal)) : (⟨S4096x32x1, .i32⟩ : BufTy).Contents (Elt Ideal) :=
  broadcastInDim S4096x32x1 ![0, 1] bcast_S4096x32_S4096x32x1_0_1
    (select (cmpi .slt (kL0 x2) (broadcastInDim S4096x32 ![] bcast_S_S4096x32 (constantI S_ 32 0#32)))
      (addi (kL0 x2) (broadcastInDim S4096x32 ![] bcast_S_S4096x32 (constantI S_ 32 100000#32)))
      (kL0 x2))

/-- The mean over the 32 neighbours of a [4096,32,64] array: the sum over axis 1 from zero, divided by 32. -/
def meanNbr (g : (⟨S4096x32x64, .f32⟩ : BufTy).Contents (Elt Ideal)) : (⟨S4096x64, .f32⟩ : BufTy).Contents (Elt Ideal) :=
  Host.divf (F := Ideal)
    (Host.reduceAdd (F := Ideal) g (constant (F := Ideal) S_ .f32 0x00000000#32) reducesTo_S4096x32x64_S4096x64_d1 h_S_)
    (broadcastInDim S4096x64 ![] bcast_S_S4096x64 (constant (F := Ideal) S_ .f32 0x42000000#32))

/-- The user origin: the mean over the neighbours of the entity-table rows at the first layer's wrapped head numbers. -/
def kUO (x2 : (⟨S2x4096x32, .i32⟩ : BufTy).Contents (Elt Ideal)) (x8 : (⟨S100000x64, .f32⟩ : BufTy).Contents (Elt Ideal)) :
    (⟨S4096x64, .f32⟩ : BufTy).Contents (Elt Ideal) :=
  Host.divf (F := Ideal)
    (Host.reduceAdd (F := Ideal)
      (Host.gather gather_S100000x64_S4096x32x1_S4096x32x64_2_0_n_n_0_2_164 x8
        (broadcastInDim S4096x32x1 ![0, 1] bcast_S4096x32_S4096x32x1_0_1
          (select
            (cmpi .slt
              (shapeCast S4096x32 (extractStridedSlice S1x4096x32 ![0, 0, 0] x2 slices_S2x4096x32_S1x4096x32_0_0_0) shapeCasts_S1x4096x32_S4096x32)
              (broadcastInDim S4096x32 ![] bcast_S_S4096x32 (constantI S_ 32 0#32)))
            (addi
              (shapeCast S4096x32 (extractStridedSlice S1x4096x32 ![0, 0, 0] x2 slices_S2x4096x32_S1x4096x32_0_0_0) shapeCasts_S1x4096x32_S4096x32)
              (broadcastInDim S4096x32 ![] bcast_S_S4096x32 (constantI S_ 32 100000#32)))
            (shapeCast S4096x32 (extractStridedSlice S1x4096x32 ![0, 0, 0] x2 slices_S2x4096x32_S1x4096x32_0_0_0) shapeCasts_S1x4096x32_S4096x32))))
      (constant (F := Ideal) S_ .f32 0x00000000#32) reducesTo_S4096x32x64_S4096x64_d1 h_S_)
    (broadcastInDim S4096x64 ![] bcast_S_S4096x64 (constant (F := Ideal) S_ .f32 0x42000000#32))

/-! ## The seven that are the reference's operations verbatim -/

theorem kUH_eq (x2 : (⟨S2x4096x32, .i32⟩ : BufTy).Contents (Elt Ideal)) (x8 : (⟨S100000x64, .f32⟩ : BufTy).Contents (Elt Ideal)) :
    kUH x2 x8 = Cert.ReferenceIdeal.Read.val_main_v6 (F := Ideal) x2 x8 := by
  unfold kUH
  rw [truncf_bf16_self]
  rfl

theorem kUR_eq (x3 : (⟨S2x4096x32, .i32⟩ : BufTy).Contents (Elt Ideal)) (x9 : (⟨S32x64, .f32⟩ : BufTy).Contents (Elt Ideal)) :
    kUR x3 x9 = Cert.ReferenceIdeal.Read.val_main_v13 (F := Ideal) x3 x9 := by
  unfold kUR
  rw [truncf_bf16_self]
  rfl

theorem kUT_eq (x4 : (⟨S2x4096x32, .i32⟩ : BufTy).Contents (Elt Ideal)) (x8 : (⟨S100000x64, .f32⟩ : BufTy).Contents (Elt Ideal)) :
    kUT x4 x8 = Cert.ReferenceIdeal.Read.val_main_v20 (F := Ideal) x4 x8 := by
  unfold kUT
  rw [truncf_bf16_self]
  rfl

theorem kIH_eq (x5 : (⟨S2x4096x32, .i32⟩ : BufTy).Contents (Elt Ideal)) (x8 : (⟨S100000x64, .f32⟩ : BufTy).Contents (Elt Ideal)) :
    kIH x5 x8 = Cert.ReferenceIdeal.Read.val_main_v77 (F := Ideal) x5 x8 := by
  unfold kIH
  rw [truncf_bf16_self]
  rfl

theorem kIR_eq (x6 : (⟨S2x4096x32, .i32⟩ : BufTy).Contents (Elt Ideal)) (x9 : (⟨S32x64, .f32⟩ : BufTy).Contents (Elt Ideal)) :
    kIR x6 x9 = Cert.ReferenceIdeal.Read.val_main_v84 (F := Ideal) x6 x9 := by
  unfold kIR
  rw [truncf_bf16_self]
  rfl

theorem kIT_eq (x7 : (⟨S2x4096x32, .i32⟩ : BufTy).Contents (Elt Ideal)) (x8 : (⟨S100000x64, .f32⟩ : BufTy).Contents (Elt Ideal)) :
    kIT x7 x8 = Cert.ReferenceIdeal.Read.val_main_v91 (F := Ideal) x7 x8 := by
  unfold kIT
  rw [truncf_bf16_self]
  rfl

theorem kIO_eq (x1 : (⟨S4096, .i32⟩ : BufTy).Contents (Elt Ideal)) (x8 : (⟨S100000x64, .f32⟩ : BufTy).Contents (Elt Ideal)) :
    kIO x1 x8 = Cert.ReferenceIdeal.Read.val_main_v98 (F := Ideal) x1 x8 := rfl

/-! ## The user origin -/

/-- Row `w` (read signed, clamped into the table) and column `c` of the 100000 x 64 table. -/
abbrev rowAt (w : BitVec 32) (c : Fin 64) : (⟨2, ![100000, 64]⟩ : Shape).Idx :=
  ix2 (⟨min w.toInt.toNat (100000 - 1), by omega⟩ : Fin 100000) c

/-- A row number as the host reads it: a negative one counts from the end of the 100000-row table. -/
abbrev wrapW (w : BitVec 32) : BitVec 32 := Scalar.select (IntOp.cmpi .slt w 0#32) (IntOp.addi w 100000#32) w

/-- The gather of table rows at a [4096,32,1] array of row numbers, read at (p, n, c): column c of the row
    whose number sits at (p, n, 0). -/
theorem gather3_apply {α : Type} (x : S100000x64.Idx → α) (idx : IVec S4096x32x1 32) (p : Fin 4096) (n : Fin 32) (c : Fin 64) :
    Host.gather gather_S100000x64_S4096x32x1_S4096x32x64_2_0_n_n_0_2_164 x idx (ix3 p n c)
      = x (rowAt (idx (ix3 p n (0 : Fin 1))) c) := by
  unfold Host.gather
  congr 1
  funext a
  refine Fin.ext ?_
  match a with
  | ⟨0, _⟩ =>
    show GatherDims.start _ (ix3 p n c) idx 0 + GatherDims.batchCoord _ (ix3 p n c) 0 + GatherDims.offCoord _ (ix3 p n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S4096x32x1_S4096x32x64_2_0_n_n_0_2_164.startIndexMap from List.mem_singleton.mpr rfl)]
    have hsi : gather_S100000x64_S4096x32x1_S4096x32x64_2_0_n_n_0_2_164.siIdx (ix3 p n c)
        ⟨List.idxOf (0 : Fin 2) gather_S100000x64_S4096x32x1_S4096x32x64_2_0_n_n_0_2_164.startIndexMap,
          List.idxOf_lt_length_iff.2 (List.mem_singleton.mpr rfl)⟩ = ix3 p n (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start _ (ix3 p n c) idx 1 + GatherDims.batchCoord _ (ix3 p n c) 1 + GatherDims.offCoord _ (ix3 p n c) 1 = c.val
    rw [GatherDims.batchCoord_eq_zero _ _ _ List.not_mem_nil]
    have hs : GatherDims.start gather_S100000x64_S4096x32x1_S4096x32x64_2_0_n_n_0_2_164 (ix3 p n c) idx 1 = 0 := by
      unfold GatherDims.start
      rw [dif_neg (show ¬ ((1 : Fin 2) ∈ gather_S100000x64_S4096x32x1_S4096x32x64_2_0_n_n_0_2_164.startIndexMap) from by decide)]
    rw [hs]
    simp only [Nat.add_zero, Nat.zero_add]
    unfold GatherDims.offCoord
    rw [dif_pos (show (1 : Fin 2) ∈ gather_S100000x64_S4096x32x1_S4096x32x64_2_0_n_n_0_2_164.sKept from by decide)]
    rfl

/-- The gather of table rows at a [2,4096,32,1] array of row numbers (the reference program's), read at
    (l, p, n, c): column c of the row whose number sits at (l, p, n, 0). -/
theorem gather4R_apply {α : Type} (x : Cert.ReferenceIdeal.S100000x64.Idx → α) (idx : IVec Cert.ReferenceIdeal.S2x4096x32x1 32)
    (l : Fin 2) (p : Fin 4096) (n : Fin 32) (c : Fin 64) :
    Host.gather Cert.ReferenceIdeal.gather_S100000x64_S2x4096x32x1_S2x4096x32x64_3_0_n_n_0_3_164 x idx (ix4 l p n c)
      = x (rowAt (idx (ix4 l p n (0 : Fin 1))) c) := by
  unfold Host.gather
  congr 1
  funext a
  refine Fin.ext ?_
  match a with
  | ⟨0, _⟩ =>
    show GatherDims.start _ (ix4 l p n c) idx 0 + GatherDims.batchCoord _ (ix4 l p n c) 0 + GatherDims.offCoord _ (ix4 l p n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S100000x64_S2x4096x32x1_S2x4096x32x64_3_0_n_n_0_3_164.startIndexMap from List.mem_singleton.mpr rfl)]
    have hsi : Cert.ReferenceIdeal.gather_S100000x64_S2x4096x32x1_S2x4096x32x64_3_0_n_n_0_3_164.siIdx (ix4 l p n c)
        ⟨List.idxOf (0 : Fin 2) Cert.ReferenceIdeal.gather_S100000x64_S2x4096x32x1_S2x4096x32x64_3_0_n_n_0_3_164.startIndexMap,
          List.idxOf_lt_length_iff.2 (List.mem_singleton.mpr rfl)⟩ = ix4 l p n (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show GatherDims.start _ (ix4 l p n c) idx 1 + GatherDims.batchCoord _ (ix4 l p n c) 1 + GatherDims.offCoord _ (ix4 l p n c) 1 = c.val
    rw [GatherDims.batchCoord_eq_zero _ _ _ List.not_mem_nil]
    have hs : GatherDims.start Cert.ReferenceIdeal.gather_S100000x64_S2x4096x32x1_S2x4096x32x64_3_0_n_n_0_3_164 (ix4 l p n c) idx 1 = 0 := by
      unfold GatherDims.start
      rw [dif_neg (show ¬ ((1 : Fin 2) ∈ Cert.ReferenceIdeal.gather_S100000x64_S2x4096x32x1_S2x4096x32x64_3_0_n_n_0_3_164.startIndexMap) from by decide)]
    rw [hs]
    simp only [Nat.add_zero, Nat.zero_add]
    unfold GatherDims.offCoord
    rw [dif_pos (show (1 : Fin 2) ∈ Cert.ReferenceIdeal.gather_S100000x64_S2x4096x32x1_S2x4096x32x64_3_0_n_n_0_3_164.sKept from by decide)]
    rfl

/-- The first layer's head numbers at (p, n) are the head numbers at (0, p, n). -/
theorem kL0_apply (x2 : (⟨S2x4096x32, .i32⟩ : BufTy).Contents (Elt Ideal)) (p : Fin 4096) (n : Fin 32) :
    kL0 x2 (ix2 p n) = x2 (ix3 (0 : Fin 2) p n) := by
  unfold kL0
  generalize hy : extractStridedSlice S1x4096x32 ![0, 0, 0] x2 slices_S2x4096x32_S1x4096x32_0_0_0 = y
  refine (shapeCast_apply y shapeCasts_S1x4096x32_S4096x32 (ix2 p n) (ix3 (0 : Fin 1) p n) ?_).trans ?_
  · rw [Shape.rowMajor_val_three, Shape.rowMajor_val_two]
    show ((0 : Nat) * 4096 + p.val) * 32 + n.val = p.val * 32 + n.val
    omega
  · subst hy
    exact extractStridedSlice_apply ![0, 0, 0] x2 slices_S2x4096x32_S1x4096x32_0_0_0 (ix3 (0 : Fin 1) p n) (ix3 (0 : Fin 2) p n)
      (fun a => match a with
        | ⟨0, _⟩ => by show (0 : Nat) = 0 + 0; rfl
        | ⟨1, _⟩ => by show p.val = 0 + p.val; omega
        | ⟨2, _⟩ => by show n.val = 0 + n.val; omega)

/-- The kernel program's row numbers at (p, n, 0): the wrapped head number at (0, p, n). -/
theorem kN3_apply (x2 : (⟨S2x4096x32, .i32⟩ : BufTy).Contents (Elt Ideal)) (p : Fin 4096) (n : Fin 32) :
    kN3 x2 (ix3 p n (0 : Fin 1)) = wrapW (x2 (ix3 (0 : Fin 2) p n)) := by
  unfold kN3
  generalize hr : kL0 x2 = r
  refine (broadcastInDim_apply _ bcast_S4096x32_S4096x32x1_0_1 _ (ix3 p n (0 : Fin 1)) (ix2 p n) (fun a => match a with
    | ⟨0, _⟩ => by show p.val = if (4096 : Nat) = 1 then 0 else p.val; rw [if_neg (by decide)]
    | ⟨1, _⟩ => by show n.val = if (32 : Nat) = 1 then 0 else n.val; rw [if_neg (by decide)])).trans ?_
  show Scalar.select (IntOp.cmpi .slt (r (ix2 p n)) 0#32) (IntOp.addi (r (ix2 p n)) 100000#32) (r (ix2 p n)) = _
  rw [← hr, kL0_apply]

/-- The reference's first-layer slice of its gathered head embeddings at (p, n, c): column c of the table's
    row at the wrapped head number at (0, p, n). -/
theorem ref_firstLayer_apply (x2 : (⟨S2x4096x32, .i32⟩ : BufTy).Contents (Elt Ideal)) (x8 : (⟨S100000x64, .f32⟩ : BufTy).Contents (Elt Ideal))
    (p : Fin 4096) (n : Fin 32) (c : Fin 64) :
    Cert.ReferenceIdeal.Read.val_main_v22 (F := Ideal) x2 x8 (ix3 p n c) = x8 (rowAt (wrapW (x2 (ix3 (0 : Fin 2) p n))) c) := by
  have hJ : Cert.ReferenceIdeal.Read.idx_main_v21 (Cert.ReferenceIdeal.Read.idx_main_v22 (ix3 p n c)) = ix4 (0 : Fin 2) p n c := by
    funext a; refine Fin.ext ?_
    have hp := p.isLt; have hn := n.isLt; have hc := c.isLt
    match a with
    | ⟨0, _⟩ => rfl
    | ⟨1, _⟩ => show ((p.val * 32 + n.val) * 64 + c.val) / 2048 % 4096 = p.val; omega
    | ⟨2, _⟩ => show ((p.val * 32 + n.val) * 64 + c.val) / 64 % 32 = n.val; omega
    | ⟨3, _⟩ => show ((p.val * 32 + n.val) * 64 + c.val) % 64 = c.val; omega
  have hK : Cert.ReferenceIdeal.Read.idx_main_v5 (ix4 (0 : Fin 2) p n (0 : Fin 1)) = ix3 (0 : Fin 2) p n := by
    funext a; refine Fin.ext ?_
    match a with
    | ⟨0, _⟩ => rfl
    | ⟨1, _⟩ => rfl
    | ⟨2, _⟩ => rfl
  rw [Cert.ReferenceIdeal.Read.val_main_v22_apply, Cert.ReferenceIdeal.Read.val_main_v21_apply, hJ]
  unfold Cert.ReferenceIdeal.Read.val_main_v6
  rw [gather4R_apply, Cert.ReferenceIdeal.Read.val_main_v5_apply, hK]
  rfl

/-- The two [4096,32,64] arrays of first-layer head embeddings are one array. -/
theorem firstLayer_eq (x2 : (⟨S2x4096x32, .i32⟩ : BufTy).Contents (Elt Ideal)) (x8 : (⟨S100000x64, .f32⟩ : BufTy).Contents (Elt Ideal)) :
    Host.gather gather_S100000x64_S4096x32x1_S4096x32x64_2_0_n_n_0_2_164 x8 (kN3 x2) = Cert.ReferenceIdeal.Read.val_main_v22 (F := Ideal) x2 x8 := by
  funext j
  obtain ⟨p, n, c, rfl⟩ : ∃ (p : Fin 4096) (n : Fin 32) (c : Fin 64), j = ix3 p n c := ⟨j 0, j 1, j 2, eq_ix3 j⟩
  rw [gather3_apply, kN3_apply, ref_firstLayer_apply]

theorem kUO_eq_mean (x2 : (⟨S2x4096x32, .i32⟩ : BufTy).Contents (Elt Ideal)) (x8 : (⟨S100000x64, .f32⟩ : BufTy).Contents (Elt Ideal)) :
    kUO x2 x8 = meanNbr (Host.gather gather_S100000x64_S4096x32x1_S4096x32x64_2_0_n_n_0_2_164 x8 (kN3 x2)) := rfl

theorem ref_origin_eq_mean (x2 : (⟨S2x4096x32, .i32⟩ : BufTy).Contents (Elt Ideal)) (x8 : (⟨S100000x64, .f32⟩ : BufTy).Contents (Elt Ideal)) :
    Cert.ReferenceIdeal.Read.val_main_v25 (F := Ideal) x2 x8 = meanNbr (Cert.ReferenceIdeal.Read.val_main_v22 (F := Ideal) x2 x8) := rfl

theorem kUO_eq (x2 : (⟨S2x4096x32, .i32⟩ : BufTy).Contents (Elt Ideal)) (x8 : (⟨S100000x64, .f32⟩ : BufTy).Contents (Elt Ideal)) :
    kUO x2 x8 = Cert.ReferenceIdeal.Read.val_main_v25 (F := Ideal) x2 x8 := by
  rw [kUO_eq_mean, ref_origin_eq_mean, firstLayer_eq]

end Cert.KernelIdeal.HostGlue

end
-- ==== Proof.KFoldGather.lean ====
/-
  The gathered embeddings and the two origins the kernel program's host side computes, read off the fold: each is its
  function of the argument arrays alone — the entity and relation tables (cast to the narrower float type, which is no
  change at the exact values) gathered through the wrapped indices — whatever the first region has done in between.
-/
import proofs.«172278_j10548439679188_2_alg».proof.Proof.KFold
import proofs.«172278_j10548439679188_2_alg».proof.Proof.KHostGlue

set_option maxRecDepth 16384

noncomputable section

namespace Cert.KernelIdeal.Fold

open Cert.KernelIdeal Cert.KernelIdeal.Gen Cert.KernelIdeal.Hand Cert.KernelIdeal.HostGlue
open Idealize.ShloMosaic Idealize.ShloMosaic.TcCoe Idealize.SL.Sem Idealize.ShloMosaic.StableHlo

variable (m : (ℓ : Loc nD τ sig) → Buf (Elt Ideal) ℓ) (ρ : Dev nD → PrngReg)

/-! ## When region 0 is entered -/

theorem V1_uh (c : Dev nD) : V1 m ρ c main_v17 = kUH (m ((c : Thread nD τ).loc main_arg2)) (m ((c : Thread nD τ).loc main_arg8)) := by
  show StableHlo.after hostOps0 (fun b => m (c, b)) (Proc.devRef .tc main_v17) = _
  fold_results
  rfl
theorem V1_ur (c : Dev nD) : V1 m ρ c main_v24 = kUR (m ((c : Thread nD τ).loc main_arg3)) (m ((c : Thread nD τ).loc main_arg9)) := by
  show StableHlo.after hostOps0 (fun b => m (c, b)) (Proc.devRef .tc main_v24) = _
  fold_results
  rfl
theorem V1_ut (c : Dev nD) : V1 m ρ c main_v31 = kUT (m ((c : Thread nD τ).loc main_arg4)) (m ((c : Thread nD τ).loc main_arg8)) := by
  show StableHlo.after hostOps0 (fun b => m (c, b)) (Proc.devRef .tc main_v31) = _
  fold_results
  rfl
theorem V1_uo (c : Dev nD) : V1 m ρ c main_v43 = kUO (m ((c : Thread nD τ).loc main_arg2)) (m ((c : Thread nD τ).loc main_arg8)) := by
  show StableHlo.after hostOps0 (fun b => m (c, b)) (Proc.devRef .tc main_v43) = _
  fold_results
  rfl

/-! ## When region 1 is entered: the second stretch reads the arguments and the two cast tables, which region 0 left alone -/

theorem W2_ent (c : Dev nD) : W2 m ρ c (Proc.devRef .tc main_v0)
    = truncf (F := Ideal) (s := S100000x64) (φ := .f32) .bf16 (m ((c : Thread nD τ).loc main_arg8)) bitsLt_bf16_f32 :=
  (W2_of_ne m ρ c main_v0 (by decide)).trans (by
    show StableHlo.after hostOps0 (fun b => m (c, b)) (Proc.devRef .tc main_v0) = _
    fold_results)
theorem W2_rel (c : Dev nD) : W2 m ρ c (Proc.devRef .tc main_v1)
    = truncf (F := Ideal) (s := S32x64) (φ := .f32) .bf16 (m ((c : Thread nD τ).loc main_arg9)) bitsLt_bf16_f32 :=
  (W2_of_ne m ρ c main_v1 (by decide)).trans (by
    show StableHlo.after hostOps0 (fun b => m (c, b)) (Proc.devRef .tc main_v1) = _
    fold_results)
theorem W2_arg1 (c : Dev nD) : W2 m ρ c (Proc.devRef .tc main_arg1) = (m ((c : Thread nD τ).loc main_arg1)) :=
  (W2_of_ne m ρ c main_arg1 (by decide)).trans ((W1_of m ρ c main_arg1 (by decide)).trans rfl)
theorem W2_arg5 (c : Dev nD) : W2 m ρ c (Proc.devRef .tc main_arg5) = (m ((c : Thread nD τ).loc main_arg5)) :=
  (W2_of_ne m ρ c main_arg5 (by decide)).trans ((W1_of m ρ c main_arg5 (by decide)).trans rfl)
theorem W2_arg6 (c : Dev nD) : W2 m ρ c (Proc.devRef .tc main_arg6) = (m ((c : Thread nD τ).loc main_arg6)) :=
  (W2_of_ne m ρ c main_arg6 (by decide)).trans ((W1_of m ρ c main_arg6 (by decide)).trans rfl)
theorem W2_arg7 (c : Dev nD) : W2 m ρ c (Proc.devRef .tc main_arg7) = (m ((c : Thread nD τ).loc main_arg7)) :=
  (W2_of_ne m ρ c main_arg7 (by decide)).trans ((W1_of m ρ c main_arg7 (by decide)).trans rfl)
theorem W2_arg8 (c : Dev nD) : W2 m ρ c (Proc.devRef .tc main_arg8) = (m ((c : Thread nD τ).loc main_arg8)) :=
  (W2_of_ne m ρ c main_arg8 (by decide)).trans ((W1_of m ρ c main_arg8 (by decide)).trans rfl)

theorem V3_ih (c : Dev nD) : V3 m ρ c main_v56 = kIH (m ((c : Thread nD τ).loc main_arg5)) (m ((c : Thread nD τ).loc main_arg8)) := by
  show StableHlo.after hostOps1 (W2 m ρ c) (Proc.devRef .tc main_v56) = _
  fold_results
  rw [W2_ent, W2_arg5]
  rfl
theorem V3_ir (c : Dev nD) : V3 m ρ c main_v63 = kIR (m ((c : Thread nD τ).loc main_arg6)) (m ((c : Thread nD τ).loc main_arg9)) := by
  show StableHlo.after hostOps1 (W2 m ρ c) (Proc.devRef .tc main_v63) = _
  fold_results
  rw [W2_rel, W2_arg6]
  rfl
theorem V3_it (c : Dev nD) : V3 m ρ c main_v70 = kIT (m ((c : Thread nD τ).loc main_arg7)) (m ((c : Thread nD τ).loc main_arg8)) := by
  show StableHlo.after hostOps1 (W2 m ρ c) (Proc.devRef .tc main_v70) = _
  fold_results
  rw [W2_ent, W2_arg7]
  rfl
theorem V3_io (c : Dev nD) : V3 m ρ c main_v77 = kIO (m ((c : Thread nD τ).loc main_arg1)) (m ((c : Thread nD τ).loc main_arg8)) := by
  show StableHlo.after hostOps1 (W2 m ρ c) (Proc.devRef .tc main_v77) = _
  fold_results
  rw [W2_arg8, W2_arg1]
  rfl

end Cert.KernelIdeal.Fold

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibBlockLayout.lean ====
/-
  Layout operations and row reductions read at an index given by coordinates, in the forms a kernel that works on one
  block of a larger array meets:
    [1, 1, a, b, c] cast to [a, b, c]        reads (i, j, k) at (0, 0, i, j, k);
    [a, b, c]       cast to [1, 1, a, b, c]  reads (u, v, i, j, k) at (i, j, k);
    [a, b]          cast to [1, 1, a, b]     reads (u, v, i, j) at (i, j);
  (each pair of indices has the same row-major position, the unit coordinates contributing nothing), and, at the exact
  values, the maximum of [a, b, c] over its trailing axis at (p, q) as the fold of max over k of the source at (p, q, k);
  the sum and the maximum of [a, b] over its trailing axis at p as the sum, or the fold of max, over k of the source at
  (p, k).
-/
import Idealize.ShloMosaic.Lib.ValueLayout
import Idealize.ShloMosaic.PureOps.Reduce
import Idealize.ShloMosaic.PureOps.Ideal.Laws

namespace Cert.BlockLayout

open Idealize.ShloMosaic Idealize.ShloMosaic.ValueIdx

variable {α : Type}

/-- A `[1, 1, a, b, c]` array cast to `[a, b, c]` reads, at `(i, j, k)`, the operand at `(0, 0, i, j, k)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_three, Shape.rowMajor_val_five]
    show (((0 * 1 + 0) * a + i.val) * b + j.val) * c + k.val = (i.val * b + j.val) * c + k.val
    simp)

/-- An `[a, b, c]` array cast to `[1, 1, a, b, c]` reads, at `(u, v, i, j, k)`, the operand at `(i, j, k)`, whatever
    the two unit coordinates. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (i : Fin a) (j : Fin b) (k : Fin c) :
    shapeCast ⟨5, ![1, 1, a, b, c]⟩ x h (ix5 u v i j k) = x (ix3 i j k) :=
  shapeCast_apply x h _ _ (by
    have hu : u.val = 0 := by omega
    have hv : v.val = 0 := by omega
    rw [Shape.rowMajor_val_three, Shape.rowMajor_val_five]
    show (i.val * b + j.val) * c + k.val = (((u.val * 1 + v.val) * a + i.val) * b + j.val) * c + k.val
    rw [hu, hv]; simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp)

/-- Reducing `[a, b, c]` over its trailing axis: the source index over `(p, q)` with `k` inserted is `(p, q, k)`. -/
theorem lift_trailing3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, the maximum of `[a, b, c]` over its trailing axis reads, at `(p, q)`, the fold of `max` from
    the accumulator's value over `k` of the source at `(p, q, k)`. -/
theorem multiReduction_max_trailing3 {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (Ideal.ofBits φ acc) (fun k => src (ix3 p q k)) := by
  refine (Ideal.multiReduction_maximumf_single src acc h hφ hacc (ix2 p q)).trans ?_
  exact congrArg (Finset.fold max _ · Finset.univ) (funext fun k => congrArg src (lift_trailing3 h p q k))

/-- Reducing `[a, b]` over its trailing axis: the source index over `p` with `k` inserted is `(p, k)`. -/
theorem lift_trailing2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- At the exact values, a float sum of `[a, b]` over its trailing axis reads, at `p`, the sum over `k` of the source at
    `(p, k)`. -/
theorem multiReduction_add_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_trailing2 h p k)

/-- At the exact values, the maximum of `[a, b]` over its trailing axis reads, at `p`, the fold of `max` from the
    accumulator's value over `k` of the source at `(p, k)`. -/
theorem multiReduction_max_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (Finset.fold max _ · Finset.univ) (funext fun k => congrArg src (lift_trailing2 h p k))

end Cert.BlockLayout
-- ==== Proof.LibBroadcast3.lean ====
/-
  Layout operations of rank three read at an index given by coordinates: the forms a broadcast sum over two leading axes
  and a reduction over the trailing axis with kept dimensions produce.
    [a, b]    cast to      [a, 1, b]   reads (p, u, k) at (p, k);
    [a, b]    cast to      [a, b, 1]   reads (p, q, u) at (p, q);
    [a, 1, b] broadcast to [a, c, b]   reads (p, q, k) at (p, 0, k)   (a row block repeated along the middle axis);
    [1, c, b] broadcast to [a, c, b]   reads (p, q, k) at (0, q, k)   (one matrix repeated along the leading axis);
    [a, b, 1] broadcast to [a, b, c]   reads (p, q, k) at (p, q, 0)   (a column of scalars repeated along the trailing axis);
  and the source index that a reduction of [a, b, c] over its trailing axis inserts coordinate k into, over the result
  index (p, q), is (p, q, k), so that a float sum over that axis reads, at (p, q), the sum over k of the source at (p, q, k).
-/
import Idealize.ShloMosaic.Lib.ValueLayout
import Idealize.ShloMosaic.PureOps.Reduce
import Idealize.ShloMosaic.PureOps.Ideal.Laws

namespace Cert.Broadcast3

open Idealize.ShloMosaic Idealize.ShloMosaic.ValueIdx

variable {α : Type}

/-- An `[a, b]` array cast to `[a, 1, b]` reads, at `(p, u, k)`, the operand at `(p, k)`, whatever the unit coordinate:
    the row-major position of `(p, u, k)` in `[a, 1, b]` is `(p · 1 + 0) · b + k`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (k : Fin b) :
    shapeCast ⟨3, ![a, 1, b]⟩ x h (ix3 p u k) = x (ix2 p k) :=
  shapeCast_apply x h _ _ (by
    have hu : u.val = 0 := by omega
    rw [Shape.rowMajor_val_three, Shape.rowMajor_val_two]
    show p.val * b + k.val = (p.val * 1 + u.val) * b + k.val
    rw [hu, Nat.mul_one, Nat.add_zero])

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, 1, b]` array broadcast to `[a, c, b]` reads, at `(p, q, k)`, the operand at `(p, 0, k)`. -/
theorem broadcastTo_a1b_acb_apply {a c b : ℕ} (v : (⟨3, ![a, 1, b]⟩ : Shape).Idx → α)
    (h : (⟨3, ![a, 1, b]⟩ : Shape).Broadcasts ⟨3, ![a, c, b]⟩) (p : Fin a) (q : Fin c) (k : Fin b) :
    broadcastTo ⟨3, ![a, c, b]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if b = 1 then 0 else k.val
    split
    · have := k.isLt; omega
    · rfl

/-- A `[1, c, b]` array broadcast to `[a, c, b]` reads, at `(p, q, k)`, the operand at `(0, q, k)`. -/
theorem broadcastTo_1cb_acb_apply {a c b : ℕ} (v : (⟨3, ![1, c, b]⟩ : Shape).Idx → α)
    (h : (⟨3, ![1, c, b]⟩ : Shape).Broadcasts ⟨3, ![a, c, b]⟩) (p : Fin a) (q : Fin c) (k : Fin b) :
    broadcastTo ⟨3, ![a, c, b]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if c = 1 then 0 else q.val
    split
    · have := q.isLt; omega
    · rfl
  | ⟨2, _⟩ =>
    show k.val = if b = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- Reducing `[a, b, c]` over its trailing axis: the source index over the result index `(p, q)` with coordinate `k` on
    the dropped axis is `(p, q, k)`. -/
theorem lift_trailing {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, a float sum of `[a, b, c]` over its trailing axis reads, at `(p, q)`, the sum over `k` of the
    source at `(p, q, k)`. -/
theorem multiReduction_add_trailing {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (p : Fin a) (q : Fin b) :
    multiReduction .add [(2 : Fin 3)] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_trailing h p q k)

end Cert.Broadcast3
-- ==== Proof.BodyValue.lean ====
/-
  The kernel body's value at one output coordinate, at the exact (extended-real) values.

  The body works on one block: two layers l, 128 batch rows b, 32 neighbours n per row, embeddings of 64 coordinates.
  It merges (l, b, n) into the row (l·128 + b)·32 + n of an [8192, ·] matrix, lays the head and relation embeddings
  side by side (128 columns), multiplies by the fused first-layer weight, applies max(·, 0), multiplies by the fused
  second-layer weight; the first 64 output columns give the attention score (max(·, 0), times w3, summed, logistic),
  the last 64 the gate (twice the logistic).  The scores, back in the layout [2, 128, 32], are turned into softmax
  weights over the neighbours (the row maximum taken from −∞ and once more against −∞), and the output at (l, b, d)
  is the sum over the neighbours of weight · gate · tail.

  Each step is read at an index given by coordinates: a layout operation (shape cast, concatenation, slice,
  broadcast) reads its operand at one index, a matrix product into the zero accumulator is a finite sum, a reduction
  over one axis is a finite sum or a fold of max.  Composed, the body's stored value at (l, b, d) is the fused
  spelling `KA.kOut` of the layer on the 32 neighbour rows of (l, b).
-/
import proofs.«172278_j10548439679188_2_alg».proof.Proof.Gen.KernelIdeal.Skeleton
import proofs.«172278_j10548439679188_2_alg».proof.Proof.KASpec
import proofs.«172278_j10548439679188_2_alg».proof.Proof.LibContractPlain
import proofs.«172278_j10548439679188_2_alg».proof.Proof.LibBlockLayout
import proofs.«172278_j10548439679188_2_alg».proof.Proof.LibBroadcast3
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-! ## The merged row, and the feature matrix read at it -/

/-- The row of the merged matrices that holds neighbour n of batch row b of layer l. -/
def rowOf (l : Fin 2) (b : Fin 128) (n : Fin 32) : Fin 8192 :=
  ⟨(l.val * 128 + b.val) * 32 + n.val, by omega⟩

/-- The head and relation embeddings laid side by side along the last axis read, at (l, b, n, j), the feature row
    of neighbour n at column j. -/
theorem concat_apply (h r : FVec Ideal S2x128x32x64 .bf16)
    (hc : Shape.Concatenates [S2x128x32x64, S2x128x32x64] S2x128x32x128 3)
    (l : Fin 2) (b : Fin 128) (n : Fin 32) (j : Fin 128) :
    concatenate S2x128x32x128 3 [⟨S2x128x32x64, h⟩, ⟨S2x128x32x64, r⟩] hc (ix4 l b n j)
      = KA.xcat (fun k => h (ix4 l b n k)) (fun k => r (ix4 l b n k)) j := by
  unfold KA.xcat
  split
  · next hj =>
    exact concatenate_pair_apply_left 3 h r hc (ix4 l b n j) rfl (ix4 l b n ⟨j.val, hj⟩)
      (fun a => by match a with | ⟨0, _⟩ => rfl | ⟨1, _⟩ => rfl | ⟨2, _⟩ => rfl | ⟨3, _⟩ => rfl)
  · next hj =>
    exact concatenate_pair_apply_right 3 h r hc (ix4 l b n j) rfl rfl (ix4 l b n ⟨j.val - 64, by omega⟩)
      (fun a ha => by
        match a, ha with
        | ⟨0, _⟩, _ => rfl
        | ⟨1, _⟩, _ => rfl
        | ⟨2, _⟩, _ => rfl
        | ⟨3, _⟩, ha => exact absurd rfl ha)
      (by show (j.val - 64) + 64 = j.val; omega)

/-- The feature matrix [8192, 128] of the body: row (l·128 + b)·32 + n is the feature row of neighbour n of (l, b). -/
theorem x2_apply (h r : Vec Ideal S2x128x32x64 .bf16) (l : Fin 2) (b : Fin 128) (n : Fin 32) (j : Fin 128) :
    shapeCast S8192x128
        (concatenate S2x128x32x128 3
          [⟨S2x128x32x64, shapeCast S2x128x32x64 h shapeCasts_S2x128x32x64_S2x128x32x64⟩,
           ⟨S2x128x32x64, shapeCast S2x128x32x64 r shapeCasts_S2x128x32x64_S2x128x32x64⟩]
          concatenates_S2x128x32x64_S2x128x32x64_S2x128x32x128_d3)
        shapeCasts_S2x128x32x128_S8192x128 (ix2 (rowOf l b n) j)
      = KA.xcat (fun k => h (ix4 l b n k)) (fun k => r (ix4 l b n k)) j := by
  rw [shapeCast_self, shapeCast_self]
  refine (shapeCast_apply _ shapeCasts_S2x128x32x128_S8192x128 (ix2 (rowOf l b n) j) (ix4 l b n j) ?_).trans
    (concat_apply h r _ l b n j)
  rw [Shape.rowMajor_val_four, Shape.rowMajor_val_two]
  rfl

/-! ## Pointwise operations the index vocabulary does not list -/

/-- The exponential of an array, read at an index, is the exponential of the element. -/
theorem exp_apply {s : Shape} {φ : FTy} (a : FVec Ideal s φ) (i : s.Idx) :
    Idealize.ShloMosaic.exp a i = Ideal.exp (a i) := rfl

/-- The logistic of an array, read at an index, is the logistic of the element. -/
theorem logistic_apply {s : Shape} {φ : FTy} (a : FVec Ideal s φ) (i : s.Idx) :
    Idealize.ShloMosaic.logistic a i = Ideal.logistic (a i) := rfl

/-! ## The two fused layers, the gate and the score, read at a merged row -/

/-- The second fused layer's output for neighbour n of (l, b), read at column e of the merged matrix. -/
theorem pay3_apply (h r : Vec Ideal S2x128x32x64 .bf16) (w12 w2g2 : Vec Ideal S128x128 .bf16)
    (l : Fin 2) (b : Fin 128) (n : Fin 32) (e : Fin 128) :
    Gen.k0_pay3 (F := Ideal) h r w12 w2g2 (ix2 (rowOf l b n) e)
      = KA.kPre (fun k => h (ix4 l b n k)) (fun k => r (ix4 l b n k)) (fun j k => w12 (ix2 j k))
          (fun k e => w2g2 (ix2 k e)) e := by
  unfold Gen.k0_pay3 KA.kPre KA.kHid
  dsimp only
  refine (Cert.Lib.ContractPlain.matmulZero_apply _ rfl none _ _ (rowOf l b n) e).trans ?_
  refine Finset.sum_congr rfl fun k _ => ?_
  rw [truncf_apply, maximumf_apply, broadcast_apply,
    Cert.Lib.ContractPlain.matmulZero_apply dot_S8192x128_S128x128_S8192x128_1_0_0_1_n_n rfl,
    shapeCast_self w2g2, Ideal.ofBits_def, Ideal.ofBits_zero_f32]
  refine congrArg (fun z => max z 0 * w2g2 (ix2 k e)) (Finset.sum_congr rfl fun j _ => ?_)
  rw [x2_apply, shapeCast_self]

/-- The gate of neighbour n of (l, b): twice the logistic of the last 64 columns. -/
theorem pay4_apply (h r : Vec Ideal S2x128x32x64 .bf16) (w12 w2g2 : Vec Ideal S128x128 .bf16)
    (l : Fin 2) (b : Fin 128) (n : Fin 32) (d : Fin 64) :
    Gen.k0_pay4 (F := Ideal) h r w12 w2g2 (ix2 (rowOf l b n) d)
      = KA.kGate (fun k => h (ix4 l b n k)) (fun k => r (ix4 l b n k)) (fun j k => w12 (ix2 j k))
          (fun k e => w2g2 (ix2 k e)) d := by
  unfold Gen.k0_pay4 KA.kGate
  rw [mulf_apply, broadcast_apply, logistic_apply,
    slice2_axis1_apply 64 _ slices_S8192x128_o0_64_S8192x64 (rowOf l b n) d ⟨64 + d.val, by omega⟩ rfl,
    pay3_apply, Ideal.ofBits_def]

/-- The attention score of neighbour n of (l, b). -/
theorem pay5_apply (h r : Vec Ideal S2x128x32x64 .bf16) (w12 w2g2 : Vec Ideal S128x128 .bf16)
    (w3 : Vec Ideal S1x64 .f32) (l : Fin 2) (b : Fin 128) (n : Fin 32) :
    Gen.k0_pay5 (F := Ideal) h r w12 w2g2 w3 (ix3 l b n)
      = KA.kScore (fun k => h (ix4 l b n k)) (fun k => r (ix4 l b n k)) (fun j k => w12 (ix2 j k))
          (fun k e => w2g2 (ix2 k e)) (fun e => w3 (ix2 0 e)) := by
  unfold Gen.k0_pay5 KA.kScore
  refine (shapeCast_apply _ shapeCasts_S8192_S2x128x32 (ix3 l b n) (ix1 (rowOf l b n)) ?_).trans ?_
  · rw [Shape.rowMajor_val_one, Shape.rowMajor_val_three]; rfl
  rw [logistic_apply]
  refine congrArg Ideal.logistic ?_
  refine (Cert.BlockLayout.multiReduction_add_trailing2 _ _ _ _ _ (rowOf l b n)).trans ?_
  refine Finset.sum_congr rfl fun d _ => ?_
  rw [mulf_apply, maximumf_apply, broadcast_apply, shapeCast_self, broadcastTo_1b_ab_apply,
    slice2_axis1_apply 0 _ slices_S8192x128_o0_0_S8192x64 (rowOf l b n) d ⟨d.val, by omega⟩ (Nat.zero_add _).symm,
    pay3_apply, Ideal.ofBits_def, Ideal.ofBits_zero_f32]

/-! ## Rank-four layout operations and the two sums over the neighbour axis, read at coordinates -/

/-- A matrix [8192, 64] re-laid as [2, 128, 32, 64] reads, at (l, b, n, d), row (l·128 + b)·32 + n at column d. -/
theorem castRows_apply {α : Type} (x : S8192x64.Idx → α) (l : Fin 2) (b : Fin 128) (n : Fin 32) (d : Fin 64) :
    shapeCast S2x128x32x64 x shapeCasts_S8192x64_S2x128x32x64 (ix4 l b n d) = x (ix2 (rowOf l b n) d) :=
  shapeCast_apply x _ _ _ (by rw [Shape.rowMajor_val_four, Shape.rowMajor_val_two]; rfl)

/-- An [a, b, c] array re-laid as [a, b, c, 1] reads, at (p, q, k, u), the operand at (p, q, k). -/
theorem shapeCast_abc_abc1_apply {α : Type} {a b c : ℕ} (x : (⟨3, ![a, b, c]⟩ : Shape).Idx → α)
    (h : (⟨3, ![a, b, c]⟩ : Shape).ShapeCasts ⟨4, ![a, b, c, 1]⟩) (p : Fin a) (q : Fin b) (k : Fin c) (u : Fin 1) :
    shapeCast ⟨4, ![a, b, c, 1]⟩ x h (ix4 p q k u) = x (ix3 p q k) :=
  shapeCast_apply x h _ _ (by
    have hu : u.val = 0 := by omega
    rw [Shape.rowMajor_val_four, Shape.rowMajor_val_three]
    show (p.val * b + q.val) * c + k.val = ((p.val * b + q.val) * c + k.val) * 1 + u.val
    rw [hu, Nat.mul_one, Nat.add_zero])

/-- An [a, b, c, 1] array repeated along the trailing axis to [a, b, c, d] reads, at (p, q, k, e), the operand at
    (p, q, k, 0). -/
theorem broadcastTo_abc1_abcd_apply {α : Type} {a b c d : ℕ} (v : (⟨4, ![a, b, c, 1]⟩ : Shape).Idx → α)
    (h : (⟨4, ![a, b, c, 1]⟩ : Shape).Broadcasts ⟨4, ![a, b, c, d]⟩) (p : Fin a) (q : Fin b) (k : Fin c) (e : Fin d) :
    broadcastTo ⟨4, ![a, b, c, d]⟩ v h (ix4 p q k e) = v (ix4 p q k (0 : Fin 1)) := by
  refine broadcastTo_apply v h (ix4 p q k e) (ix4 p q k (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show k.val = if c = 1 then 0 else k.val
    split
    · have := k.isLt; omega
    · rfl
  | ⟨3, _⟩ => rfl

/-- Reducing [a, b, c, d] over axis 2: the source index over (p, q, e) with k inserted is (p, q, k, e). -/
theorem lift_axis2_of4 {a b c d : ℕ} (h : (⟨4, ![a, b, c, d]⟩ : Shape).Reduces [(2 : Fin 4)] ⟨3, ![a, b, d]⟩)
    (p : Fin a) (q : Fin b) (e : Fin d) (k : Fin c) : h.lift (ix3 p q e) k = ix4 p q k e := by
  funext ax
  apply Fin.ext
  match ax with
  | ⟨0, _⟩ => rfl
  | ⟨1, _⟩ => rfl
  | ⟨2, _⟩ => rfl
  | ⟨3, _⟩ => rfl

/-- The sum over the neighbour axis of a [2, 128, 32, 64] array, as the kernel takes it, read at (l, b, d). -/
theorem sumNeighbours4_apply (src : FVec Ideal S2x128x32x64 .f32) (l : Fin 2) (b : Fin 128) (d : Fin 64) :
    multiReduction .add [2] S2x128x64 src 0x00000000#32 reduces_S2x128x32x64_S2x128x64 (.inl rfl) rfl (ix3 l b d)
      = ∑ n : Fin 32, src (ix4 l b n d) := by
  refine (Ideal.multiReduction_add_single src 0x00000000#32 reduces_S2x128x32x64_S2x128x64 (.inl rfl) rfl (ix3 l b d)).trans ?_
  exact Finset.sum_congr rfl fun k _ => congrArg src (lift_axis2_of4 reduces_S2x128x32x64_S2x128x64 l b d k)

/-- The sum over the neighbour axis of a [2, 128, 32] array, as the kernel takes it, read at (l, b). -/
theorem sumNeighbours3_apply (src : FVec Ideal S2x128x32 .f32) (l : Fin 2) (b : Fin 128) :
    multiReduction .add [2] S2x128 src 0x00000000#32 reduces_S2x128x32_S2x128 (.inl rfl) rfl (ix2 l b)
      = ∑ n : Fin 32, src (ix3 l b n) :=
  Cert.Broadcast3.multiReduction_add_trailing src _ _ _ _ l b

/-- The maximum over the neighbour axis of a [2, 128, 32] array from −∞, as the kernel takes it, read at (l, b). -/
theorem maxNeighbours3_apply (src : FVec Ideal S2x128x32 .f32) (l : Fin 2) (b : Fin 128) :
    multiReduction .maximumf [2] S2x128 src 0xFF800000#32 reduces_S2x128x32_S2x128 (.inl rfl) rfl (ix2 l b)
      = (Finset.univ : Finset (Fin 32)).fold max KA.ninf (fun n => src (ix3 l b n)) :=
  Cert.BlockLayout.multiReduction_max_trailing3 src _ _ _ _ l b

/-- A [2, 128] array kept as a column [2, 128, 1] and repeated over the 32 neighbours reads, at (l, b, n), its
    entry (l, b). -/
theorem keepNeighbours_apply {α : Type} (m : S2x128.Idx → α) (l : Fin 2) (b : Fin 128) (n : Fin 32) :
    broadcastTo S2x128x32 (shapeCast S2x128x1 m shapeCasts_S2x128_S2x128x1) broadcasts_S2x128x1_S2x128x32 (ix3 l b n)
      = m (ix2 l b) := by
  rw [Cert.Broadcast3.broadcastTo_ab1_abc_apply, Cert.Broadcast3.shapeCast_ab_ab1_apply]

/-- A [2, 128, 32] array kept as [2, 128, 32, 1] and repeated over the 64 coordinates reads, at (l, b, n, d), its
    entry (l, b, n). -/
theorem keepCoords_apply {α : Type} (w : S2x128x32.Idx → α) (l : Fin 2) (b : Fin 128) (n : Fin 32) (d : Fin 64) :
    broadcastTo S2x128x32x64 (shapeCast S2x128x32x1 w shapeCasts_S2x128x32_S2x128x32x1)
        broadcasts_S2x128x32x1_S2x128x32x64 (ix4 l b n d)
      = w (ix3 l b n) := by
  rw [broadcastTo_abc1_abcd_apply, shapeCast_abc_abc1_apply]

/-- The kernel's last stage over any five operands: the softmax over the neighbours of the scores, shifted by the
    maximum of the two given row maxima, times the gate, times the tail, summed over the neighbours. -/
theorem pay1_apply (v5 : FVec Ideal S2x128x32x64 .bf16) (v23 : FVec Ideal S8192x64 .f32)
    (v30 : FVec Ideal S2x128x32 .f32) (v31 v32 : FVec Ideal S2x128 .f32) (l : Fin 2) (b : Fin 128) (d : Fin 64) :
    Gen.k0_pay1 (F := Ideal) v5 v23 v30 v31 v32 (ix3 l b d)
      = ∑ n : Fin 32,
          Ideal.div (Ideal.exp (v30 (ix3 l b n) - max (v32 (ix2 l b)) (v31 (ix2 l b))))
              (∑ n' : Fin 32, Ideal.exp (v30 (ix3 l b n') - max (v32 (ix2 l b)) (v31 (ix2 l b))))
            * v23 (ix2 (rowOf l b n) d) * v5 (ix4 l b n d) := by
  unfold Gen.k0_pay1
  rw [sumNeighbours4_apply]
  refine Finset.sum_congr rfl fun n _ => ?_
  rw [mulf_apply, mulf_apply, extf_apply, keepCoords_apply, castRows_apply, divf_apply, keepNeighbours_apply,
    sumNeighbours3_apply]
  simp only [exp_apply, subf_apply, keepNeighbours_apply, maximumf_apply]

/-! ## The row maxima, the −∞ splat, the tails -/

/-- The row maximum of the scores from −∞, read at (l, b). -/
theorem pay6_apply (h r : Vec Ideal S2x128x32x64 .bf16) (w12 w2g2 : Vec Ideal S128x128 .bf16)
    (w3 : Vec Ideal S1x64 .f32) (l : Fin 2) (b : Fin 128) :
    Gen.k0_pay6 (F := Ideal) h r w12 w2g2 w3 (ix2 l b)
      = (Finset.univ : Finset (Fin 32)).fold max KA.ninf
          (fun n => Gen.k0_pay5 (F := Ideal) h r w12 w2g2 w3 (ix3 l b n)) := by
  unfold Gen.k0_pay6
  exact maxNeighbours3_apply _ l b

/-- The −∞ splat reads −∞ everywhere. -/
theorem pay7_apply (l : Fin 2) (b : Fin 128) : Gen.k0_pay7 (F := Ideal) (ix2 l b) = KA.ninf := rfl

/-- The identity cast of the tails. -/
theorem pay2_apply (t : Vec Ideal S2x128x32x64 .bf16) (i : S2x128x32x64.Idx) : Gen.k0_pay2 (F := Ideal) t i = t i := by
  unfold Gen.k0_pay2
  rw [shapeCast_self]

/-! ## The body's output -/

/-- The value the body stores at (l, b, d) is the fused spelling of the layer on the 32 neighbour rows of (l, b). -/
theorem bodyOut_apply (h r t : Vec Ideal S2x128x32x64 .bf16) (w12 w2g2 : Vec Ideal S128x128 .bf16)
    (w3 : Vec Ideal S1x64 .f32) (l : Fin 2) (b : Fin 128) (d : Fin 64) :
    Gen.k0_pay1 (F := Ideal) (Gen.k0_pay2 t) (Gen.k0_pay4 h r w12 w2g2) (Gen.k0_pay5 h r w12 w2g2 w3)
        (Gen.k0_pay6 h r w12 w2g2 w3) Gen.k0_pay7 (ix3 l b d)
      = Cert.KA.kOut (fun n k => h (ix4 l b n k)) (fun n k => r (ix4 l b n k)) (fun n k => t (ix4 l b n k))
          (fun j k => w12 (ix2 j k)) (fun k e => w2g2 (ix2 k e)) (fun e => w3 (ix2 0 e)) d := by
  rw [pay1_apply]
  unfold KA.kOut KA.smax
  simp only [pay2_apply, pay4_apply, pay5_apply, pay6_apply, pay7_apply]

/-! ## The second kernel function: the same payloads -/

theorem k1_pay1_eq : Gen.k1_pay1 (F := Ideal) = Gen.k0_pay1 (F := Ideal) := rfl
theorem k1_pay2_eq : Gen.k1_pay2 (F := Ideal) = Gen.k0_pay2 (F := Ideal) := rfl
theorem k1_pay3_eq : Gen.k1_pay3 (F := Ideal) = Gen.k0_pay3 (F := Ideal) := rfl
theorem k1_pay4_eq : Gen.k1_pay4 (F := Ideal) = Gen.k0_pay4 (F := Ideal) := by
  unfold Gen.k1_pay4 Gen.k0_pay4
  rw [k1_pay3_eq]
theorem k1_pay5_eq : Gen.k1_pay5 (F := Ideal) = Gen.k0_pay5 (F := Ideal) := by
  unfold Gen.k1_pay5 Gen.k0_pay5
  rw [k1_pay3_eq]
theorem k1_pay6_eq : Gen.k1_pay6 (F := Ideal) = Gen.k0_pay6 (F := Ideal) := by
  unfold Gen.k1_pay6 Gen.k0_pay6
  rw [k1_pay5_eq]
theorem k1_pay7_eq : Gen.k1_pay7 (F := Ideal) = Gen.k0_pay7 (F := Ideal) := rfl

/-- The same statement for the second kernel function's payloads. -/
theorem bodyOut_apply1 (h r t : Vec Ideal S2x128x32x64 .bf16) (w12 w2g2 : Vec Ideal S128x128 .bf16)
    (w3 : Vec Ideal S1x64 .f32) (l : Fin 2) (b : Fin 128) (d : Fin 64) :
    Gen.k1_pay1 (F := Ideal) (Gen.k1_pay2 t) (Gen.k1_pay4 h r w12 w2g2) (Gen.k1_pay5 h r w12 w2g2 w3)
        (Gen.k1_pay6 h r w12 w2g2 w3) Gen.k1_pay7 (ix3 l b d)
      = Cert.KA.kOut (fun n k => h (ix4 l b n k)) (fun n k => r (ix4 l b n k)) (fun n k => t (ix4 l b n k))
          (fun j k => w12 (ix2 j k)) (fun k e => w2g2 (ix2 k e)) (fun e => w3 (ix2 0 e)) d := by
  rw [k1_pay1_eq, k1_pay2_eq, k1_pay4_eq, k1_pay5_eq, k1_pay6_eq, k1_pay7_eq]
  exact bodyOut_apply h r t w12 w2g2 w3 l b d

end Cert.KernelIdeal.BodyValue

end
-- ==== Proof.KCover.lean ====
/-
  From blocks to the array: after each of the two attention regions, the region's output array [2, 4096, 64] holds,
  at (l, B, d), the attention row output of batch row B of layer l computed from the arrays the region is entered
  with.

  The grid has 32 points.  Point t works on rows 128 t … 128 t + 127: its output block and its three neighbour-input
  blocks sit at block index (0, t, 0[, 0]); the three weight blocks are the whole arrays at every point.  So what
  point t writes back is block t of one function G of the entry arrays, the 32 blocks tile the output array (row B is
  in the block of point B / 128), and the array ends holding G.
-/
import proofs.«172278_j10548439679188_2_alg».proof.Proof.KRunIdeal
import proofs.«172278_j10548439679188_2_alg».proof.Proof.BodyValue
import proofs.«172278_j10548439679188_2_alg».proof.Proof.KASpec
import Idealize.ShloMosaic.Lib.Pipeline.Value
import Idealize.ShloMosaic.Lib.ValueIdx

set_option maxRecDepth 16384

noncomputable section

namespace Cert.KernelIdeal.Cover

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! # Region 0 -/

/-- The printed index maps over the grid: the output's and the three neighbour inputs' blocks move along axis 1 with
    the point, the three weights' blocks stay. -/
theorem idx_facts0 : ∀ t : Fin cfg0.N,
    win0_6.index t (0 : Fin 3) = 0 ∧ win0_6.index t (1 : Fin 3) = t.val ∧ win0_6.index t (2 : Fin 3) = 0
    ∧ win0_0.index t (0 : Fin 4) = 0 ∧ win0_0.index t (1 : Fin 4) = t.val ∧ win0_0.index t (2 : Fin 4) = 0 ∧ win0_0.index t (3 : Fin 4) = 0
    ∧ win0_1.index t (0 : Fin 4) = 0 ∧ win0_1.index t (1 : Fin 4) = t.val ∧ win0_1.index t (2 : Fin 4) = 0 ∧ win0_1.index t (3 : Fin 4) = 0
    ∧ win0_2.index t (0 : Fin 4) = 0 ∧ win0_2.index t (1 : Fin 4) = t.val ∧ win0_2.index t (2 : Fin 4) = 0 ∧ win0_2.index t (3 : Fin 4) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The array row that row `b` of point `t`'s block is. -/
def rowAt0 (t : Fin cfg0.N) (b : Fin 128) : Fin 4096 :=
  ⟨t.val * 128 + b.val, by have ht : t.val < 32 := lt_of_lt_of_eq t.isLt N_0; have := b.isLt; omega⟩

/-- One batch row's output from the arrays the region is entered with. -/
def rowOut0 (c : Dev nD) (l : Fin 2) (B : Fin 4096) (d : Fin 64) : EReal :=
  Cert.KA.kOut (fun n k => V c main_v17 (ix4 l B n k)) (fun n k => V c main_v24 (ix4 l B n k)) (fun n k => V c main_v31 (ix4 l B n k))
    (fun j k => V c main_v3 (ix2 j k)) (fun k e => V c main_v8 (ix2 k e)) (fun e => V c main_v10 (ix2 (0 : Fin 1) e)) d

/-- What the output array ends holding: every batch row's output. -/
def G0 (c : Dev nD) : S2x4096x64.Idx → EReal := fun i => rowOut0 V c (i 0) (i 1) (i 2)

/-- Each input block, read where the output's rectangle says. -/
theorem in0_0_apply (c : Dev nD) (t : Fin cfg0.N) (l : Fin 2) (b : Fin 128) (n : Fin 32) (k : Fin 64) :
    Hand.iblk0 V c 0 t (ix4 l b n k) = V c main_v17 (ix4 l (rowAt0 t b) n k) := by
  obtain ⟨-, -, -, e0, e1, e2, e3, -⟩ := idx_facts0 t
  show V c main_v17 (((cfg0.win 0).blk t).view.emb (ix4 l b n k)) = V c main_v17 (ix4 l (rowAt0 t b) n k)
  refine congrArg _ (funext fun a => Fin.ext ?_)
  match a with
  | ⟨0, _⟩ => show win0_0.index t (0 : Fin 4) * 2 + 1 * l.val = l.val; omega
  | ⟨1, _⟩ => show win0_0.index t (1 : Fin 4) * 128 + 1 * b.val = t.val * 128 + b.val; omega
  | ⟨2, _⟩ => show win0_0.index t (2 : Fin 4) * 32 + 1 * n.val = n.val; omega
  | ⟨3, _⟩ => show win0_0.index t (3 : Fin 4) * 64 + 1 * k.val = k.val; omega

theorem in0_1_apply (c : Dev nD) (t : Fin cfg0.N) (l : Fin 2) (b : Fin 128) (n : Fin 32) (k : Fin 64) :
    Hand.iblk0 V c 1 t (ix4 l b n k) = V c main_v24 (ix4 l (rowAt0 t b) n k) := by
  obtain ⟨-, -, -, -, -, -, -, e0, e1, e2, e3, -⟩ := idx_facts0 t
  show V c main_v24 (((cfg0.win 1).blk t).view.emb (ix4 l b n k)) = V c main_v24 (ix4 l (rowAt0 t b) n k)
  refine congrArg _ (funext fun a => Fin.ext ?_)
  match a with
  | ⟨0, _⟩ => show win0_1.index t (0 : Fin 4) * 2 + 1 * l.val = l.val; omega
  | ⟨1, _⟩ => show win0_1.index t (1 : Fin 4) * 128 + 1 * b.val = t.val * 128 + b.val; omega
  | ⟨2, _⟩ => show win0_1.index t (2 : Fin 4) * 32 + 1 * n.val = n.val; omega
  | ⟨3, _⟩ => show win0_1.index t (3 : Fin 4) * 64 + 1 * k.val = k.val; omega

theorem in0_2_apply (c : Dev nD) (t : Fin cfg0.N) (l : Fin 2) (b : Fin 128) (n : Fin 32) (k : Fin 64) :
    Hand.iblk0 V c 2 t (ix4 l b n k) = V c main_v31 (ix4 l (rowAt0 t b) n k) := by
  obtain ⟨-, -, -, -, -, -, -, -, -, -, -, e0, e1, e2, e3, -⟩ := idx_facts0 t
  show V c main_v31 (((cfg0.win 2).blk t).view.emb (ix4 l b n k)) = V c main_v31 (ix4 l (rowAt0 t b) n k)
  refine congrArg _ (funext fun a => Fin.ext ?_)
  match a with
  | ⟨0, _⟩ => show win0_2.index t (0 : Fin 4) * 2 + 1 * l.val = l.val; omega
  | ⟨1, _⟩ => show win0_2.index t (1 : Fin 4) * 128 + 1 * b.val = t.val * 128 + b.val; omega
  | ⟨2, _⟩ => show win0_2.index t (2 : Fin 4) * 32 + 1 * n.val = n.val; omega
  | ⟨3, _⟩ => show win0_2.index t (3 : Fin 4) * 64 + 1 * k.val = k.val; omega

theorem in0_3_apply (c : Dev nD) (t : Fin cfg0.N) (j k : Fin 128) :
    Hand.iblk0 V c 3 t (ix2 j k) = V c main_v3 (ix2 j k) := by
  obtain ⟨-, -, -, -, -, -, -, -, -, -, -, -, -, -, -, e0, e1, -⟩ := idx_facts0 t
  show V c main_v3 (((cfg0.win 3).blk t).view.emb (ix2 j k)) = V c main_v3 (ix2 j k)
  refine congrArg _ (funext fun a => Fin.ext ?_)
  match a with
  | ⟨0, _⟩ => show win0_3.index t (0 : Fin 2) * 128 + 1 * j.val = j.val; omega
  | ⟨1, _⟩ => show win0_3.index t (1 : Fin 2) * 128 + 1 * k.val = k.val; omega

theorem in0_4_apply (c : Dev nD) (t : Fin cfg0.N) (j k : Fin 128) :
    Hand.iblk0 V c 4 t (ix2 j k) = V c main_v8 (ix2 j k) := by
  obtain ⟨-, -, -, -, -, -, -, -, -, -, -, -, -, -, -, -, -, e0, e1, -⟩ := idx_facts0 t
  show V c main_v8 (((cfg0.win 4).blk t).view.emb (ix2 j k)) = V c main_v8 (ix2 j k)
  refine congrArg _ (funext fun a => Fin.ext ?_)
  match a with
  | ⟨0, _⟩ => show win0_4.index t (0 : Fin 2) * 128 + 1 * j.val = j.val; omega
  | ⟨1, _⟩ => show win0_4.index t (1 : Fin 2) * 128 + 1 * k.val = k.val; omega

theorem in0_5_apply (c : Dev nD) (t : Fin cfg0.N) (e : Fin 64) :
    Hand.iblk0 V c 5 t (ix2 (0 : Fin 1) e) = V c main_v10 (ix2 (0 : Fin 1) e) := by
  obtain ⟨-, -, -, -, -, -, -, -, -, -, -, -, -, -, -, -, -, -, -, e0, e1⟩ := idx_facts0 t
  show V c main_v10 (((cfg0.win 5).blk t).view.emb (ix2 (0 : Fin 1) e)) = V c main_v10 (ix2 (0 : Fin 1) e)
  refine congrArg _ (funext fun a => Fin.ext ?_)
  match a with
  | ⟨0, _⟩ => show win0_5.index t (0 : Fin 2) * 1 + 1 * 0 = 0; omega
  | ⟨1, _⟩ => show win0_5.index t (1 : Fin 2) * 64 + 1 * e.val = e.val; omega

/-- Where row `b` of point `t`'s output block sits in the array. -/
theorem out0_emb (t : Fin cfg0.N) (l : Fin 2) (b : Fin 128) (d : Fin 64) :
    ((cfg0.win 6).blk t).view.emb (ix3 l b d) = ix3 l (rowAt0 t b) d := by
  obtain ⟨e0, e1, e2, -⟩ := idx_facts0 t
  refine funext fun a => Fin.ext ?_
  match a with
  | ⟨0, _⟩ => show win0_6.index t (0 : Fin 3) * 2 + 1 * l.val = l.val; omega
  | ⟨1, _⟩ => show win0_6.index t (1 : Fin 3) * 128 + 1 * b.val = t.val * 128 + b.val; omega
  | ⟨2, _⟩ => show win0_6.index t (2 : Fin 3) * 64 + 1 * d.val = d.val; omega

/-- What point `t` writes back, at one index: the batch row's output. -/
theorem flushed0_pt (c : Dev nD) (t : Fin cfg0.N) (l : Fin 2) (b : Fin 128) (d : Fin 64) :
    k0_pay1 (F := Ideal) (k0_pay2 (Hand.iblk0 V c 2 t))
        (k0_pay4 (Hand.iblk0 V c 0 t) (Hand.iblk0 V c 1 t) (Hand.iblk0 V c 3 t) (Hand.iblk0 V c 4 t))
        (k0_pay5 (Hand.iblk0 V c 0 t) (Hand.iblk0 V c 1 t) (Hand.iblk0 V c 3 t) (Hand.iblk0 V c 4 t) (Hand.iblk0 V c 5 t))
        (k0_pay6 (Hand.iblk0 V c 0 t) (Hand.iblk0 V c 1 t) (Hand.iblk0 V c 3 t) (Hand.iblk0 V c 4 t) (Hand.iblk0 V c 5 t))
        k0_pay7 (ix3 l b d)
      = rowOut0 V c l (rowAt0 t b) d := by
  refine (BodyValue.bodyOut_apply (Hand.iblk0 V c 0 t) (Hand.iblk0 V c 1 t) (Hand.iblk0 V c 2 t) (Hand.iblk0 V c 3 t)
    (Hand.iblk0 V c 4 t) (Hand.iblk0 V c 5 t) l b d).trans ?_
  unfold rowOut0
  simp only [in0_0_apply, in0_1_apply, in0_2_apply, in0_3_apply, in0_4_apply, in0_5_apply]

/-- WHAT POINT `t` WRITES BACK is block `t` of `G0`. -/
theorem flushed0_eq (c : Dev nD) (t : Fin cfg0.N) :
    (Hand.dat0 V c).flushed 6 t = ((cfg0.win 6).blk t).view.read (Elt Ideal) (G0 V c) := by
  show (cfg0.win 6).cut (grid0.coords t) ((Hand.dat0 V c).after 6 t) = _
  rw [Hand.after0_6]
  unfold Hand.out0
  rw [View.canon_unit_zero hz3]
  simp only [View.ld_unit_zero (S := S2x128x32x64) hz4, View.ld_unit_zero (S := S128x128) hz2, View.ld_unit_zero (S := S1x64) hz2]
  funext y
  obtain ⟨l, b, d, rfl⟩ : ∃ (l : Fin 2) (b : Fin 128) (d : Fin 64), y = ix3 l b d :=
    ⟨y 0, y 1, y 2, eq_ix3 (n0 := 2) (n1 := 128) (n2 := 64) y⟩
  have hx : (cfg0.win 6).xinj (grid0.coords t) (ix3 l b d) = ix3 l b d :=
    funext fun a => match a with | ⟨0, _⟩ => rfl | ⟨1, _⟩ => rfl | ⟨2, _⟩ => rfl
  show _ = G0 V c (((cfg0.win 6).blk t).view.emb (ix3 l b d))
  rw [out0_emb]
  show _ = rowOut0 V c l (rowAt0 t b) d
  refine Eq.trans ?_ (flushed0_pt V c t l b d)
  exact congrArg _ hx

/-- An index of the array is in point `t`'s block iff each coordinate is in the block's range on its axis. -/
theorem mem_blk0 (t : Fin cfg0.N) (i : S2x4096x64.Idx) :
    i ∈ ((cfg0.win 6).blk t).view.set ↔ ∀ a : Fin 3, win0_6.index t a * S2x128x64.size a ≤ (i a).val ∧ (i a).val < win0_6.index t a * S2x128x64.size a + S2x128x64.size a := by
  show i ∈ ((View.whole main_v44).slice (win0_6.rect t)).set ↔ _
  rw [View.set_slice_whole, Rect.mem_set_unit]
  exact Iff.rfl

/-- Every index of the output array is in some point's block: row `B` is in the block of point `B / 128`. -/
theorem cover0 (i : S2x4096x64.Idx) :
    ∃ t : Fin cfg0.N, (cfg0.win 6).flush t = true ∧ i ∈ ((cfg0.win 6).blk t).view.set := by
  have h0 : (i 0).val < 2 := (i 0).isLt
  have h1 : (i 1).val < 4096 := (i 1).isLt
  have h2 : (i 2).val < 64 := (i 2).isLt
  have hN : (i 1).val / 128 < cfg0.N := lt_of_lt_of_eq (by omega : (i 1).val / 128 < 32) N_0.symm
  obtain ⟨e0, e1, e2, -⟩ := idx_facts0 ⟨(i 1).val / 128, hN⟩
  have e1' : win0_6.index ⟨(i 1).val / 128, hN⟩ (1 : Fin 3) = (i 1).val / 128 := e1
  refine ⟨⟨(i 1).val / 128, hN⟩, flush0_6 _, ?_⟩
  rw [mem_blk0]
  intro a
  match a with
  | ⟨0, _⟩ => show win0_6.index ⟨(i 1).val / 128, hN⟩ (0 : Fin 3) * 2 ≤ (i 0).val ∧ (i 0).val < win0_6.index ⟨(i 1).val / 128, hN⟩ (0 : Fin 3) * 2 + 2; omega
  | ⟨1, _⟩ => show win0_6.index ⟨(i 1).val / 128, hN⟩ (1 : Fin 3) * 128 ≤ (i 1).val ∧ (i 1).val < win0_6.index ⟨(i 1).val / 128, hN⟩ (1 : Fin 3) * 128 + 128; omega
  | ⟨2, _⟩ => show win0_6.index ⟨(i 1).val / 128, hN⟩ (2 : Fin 3) * 64 ≤ (i 2).val ∧ (i 2).val < win0_6.index ⟨(i 1).val / 128, hN⟩ (2 : Fin 3) * 64 + 64; omega

/-- THE OUTPUT ARRAY after the region: every batch row's output. -/
theorem arr0_eq (c : Dev nD) : (Hand.dat0 (F := Ideal) V c).arrAt 6 cfg0.N = G0 V c :=
  (Hand.dat0 V c).arrAt_eq_of_cover 6 (G0 V c) (fun t _ => flushed0_eq V c t) cover0

theorem arr0_apply (c : Dev nD) (l : Fin 2) (B : Fin 4096) (d : Fin 64) :
    (Hand.dat0 (F := Ideal) V c).arrAt 6 cfg0.N (ix3 l B d)
      = Cert.KA.kOut (fun n k => V c main_v17 (ix4 l B n k)) (fun n k => V c main_v24 (ix4 l B n k)) (fun n k => V c main_v31 (ix4 l B n k))
          (fun j k => V c main_v3 (ix2 j k)) (fun k e => V c main_v8 (ix2 k e)) (fun e => V c main_v10 (ix2 (0 : Fin 1) e)) d :=
  congrFun (arr0_eq V c) (ix3 l B d)

/-! # Region 1 -/

/-- The printed index maps over the grid: the output's and the three neighbour inputs' blocks move along axis 1 with
    the point, the three weights' blocks stay. -/
theorem idx_facts1 : ∀ t : Fin cfg1.N,
    win1_6.index t (0 : Fin 3) = 0 ∧ win1_6.index t (1 : Fin 3) = t.val ∧ win1_6.index t (2 : Fin 3) = 0
    ∧ win1_0.index t (0 : Fin 4) = 0 ∧ win1_0.index t (1 : Fin 4) = t.val ∧ win1_0.index t (2 : Fin 4) = 0 ∧ win1_0.index t (3 : Fin 4) = 0
    ∧ win1_1.index t (0 : Fin 4) = 0 ∧ win1_1.index t (1 : Fin 4) = t.val ∧ win1_1.index t (2 : Fin 4) = 0 ∧ win1_1.index t (3 : Fin 4) = 0
    ∧ win1_2.index t (0 : Fin 4) = 0 ∧ win1_2.index t (1 : Fin 4) = t.val ∧ win1_2.index t (2 : Fin 4) = 0 ∧ win1_2.index t (3 : Fin 4) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The array row that row `b` of point `t`'s block is. -/
def rowAt1 (t : Fin cfg1.N) (b : Fin 128) : Fin 4096 :=
  ⟨t.val * 128 + b.val, by have ht : t.val < 32 := lt_of_lt_of_eq t.isLt N_1; have := b.isLt; omega⟩

/-- One batch row's output from the arrays the region is entered with. -/
def rowOut1 (c : Dev nD) (l : Fin 2) (B : Fin 4096) (d : Fin 64) : EReal :=
  Cert.KA.kOut (fun n k => V c main_v56 (ix4 l B n k)) (fun n k => V c main_v63 (ix4 l B n k)) (fun n k => V c main_v70 (ix4 l B n k))
    (fun j k => V c main_v3 (ix2 j k)) (fun k e => V c main_v8 (ix2 k e)) (fun e => V c main_v10 (ix2 (0 : Fin 1) e)) d

/-- What the output array ends holding: every batch row's output. -/
def G1 (c : Dev nD) : S2x4096x64.Idx → EReal := fun i => rowOut1 V c (i 0) (i 1) (i 2)

/-- Each input block, read where the output's rectangle says. -/
theorem in1_0_apply (c : Dev nD) (t : Fin cfg1.N) (l : Fin 2) (b : Fin 128) (n : Fin 32) (k : Fin 64) :
    Hand.iblk1 V c 0 t (ix4 l b n k) = V c main_v56 (ix4 l (rowAt1 t b) n k) := by
  obtain ⟨-, -, -, e0, e1, e2, e3, -⟩ := idx_facts1 t
  show V c main_v56 (((cfg1.win 0).blk t).view.emb (ix4 l b n k)) = V c main_v56 (ix4 l (rowAt1 t b) n k)
  refine congrArg _ (funext fun a => Fin.ext ?_)
  match a with
  | ⟨0, _⟩ => show win1_0.index t (0 : Fin 4) * 2 + 1 * l.val = l.val; omega
  | ⟨1, _⟩ => show win1_0.index t (1 : Fin 4) * 128 + 1 * b.val = t.val * 128 + b.val; omega
  | ⟨2, _⟩ => show win1_0.index t (2 : Fin 4) * 32 + 1 * n.val = n.val; omega
  | ⟨3, _⟩ => show win1_0.index t (3 : Fin 4) * 64 + 1 * k.val = k.val; omega

theorem in1_1_apply (c : Dev nD) (t : Fin cfg1.N) (l : Fin 2) (b : Fin 128) (n : Fin 32) (k : Fin 64) :
    Hand.iblk1 V c 1 t (ix4 l b n k) = V c main_v63 (ix4 l (rowAt1 t b) n k) := by
  obtain ⟨-, -, -, -, -, -, -, e0, e1, e2, e3, -⟩ := idx_facts1 t
  show V c main_v63 (((cfg1.win 1).blk t).view.emb (ix4 l b n k)) = V c main_v63 (ix4 l (rowAt1 t b) n k)
  refine congrArg _ (funext fun a => Fin.ext ?_)
  match a with
  | ⟨0, _⟩ => show win1_1.index t (0 : Fin 4) * 2 + 1 * l.val = l.val; omega
  | ⟨1, _⟩ => show win1_1.index t (1 : Fin 4) * 128 + 1 * b.val = t.val * 128 + b.val; omega
  | ⟨2, _⟩ => show win1_1.index t (2 : Fin 4) * 32 + 1 * n.val = n.val; omega
  | ⟨3, _⟩ => show win1_1.index t (3 : Fin 4) * 64 + 1 * k.val = k.val; omega

theorem in1_2_apply (c : Dev nD) (t : Fin cfg1.N) (l : Fin 2) (b : Fin 128) (n : Fin 32) (k : Fin 64) :
    Hand.iblk1 V c 2 t (ix4 l b n k) = V c main_v70 (ix4 l (rowAt1 t b) n k) := by
  obtain ⟨-, -, -, -, -, -, -, -, -, -, -, e0, e1, e2, e3, -⟩ := idx_facts1 t
  show V c main_v70 (((cfg1.win 2).blk t).view.emb (ix4 l b n k)) = V c main_v70 (ix4 l (rowAt1 t b) n k)
  refine congrArg _ (funext fun a => Fin.ext ?_)
  match a with
  | ⟨0, _⟩ => show win1_2.index t (0 : Fin 4) * 2 + 1 * l.val = l.val; omega
  | ⟨1, _⟩ => show win1_2.index t (1 : Fin 4) * 128 + 1 * b.val = t.val * 128 + b.val; omega
  | ⟨2, _⟩ => show win1_2.index t (2 : Fin 4) * 32 + 1 * n.val = n.val; omega
  | ⟨3, _⟩ => show win1_2.index t (3 : Fin 4) * 64 + 1 * k.val = k.val; omega

theorem in1_3_apply (c : Dev nD) (t : Fin cfg1.N) (j k : Fin 128) :
    Hand.iblk1 V c 3 t (ix2 j k) = V c main_v3 (ix2 j k) := by
  obtain ⟨-, -, -, -, -, -, -, -, -, -, -, -, -, -, -, e0, e1, -⟩ := idx_facts1 t
  show V c main_v3 (((cfg1.win 3).blk t).view.emb (ix2 j k)) = V c main_v3 (ix2 j k)
  refine congrArg _ (funext fun a => Fin.ext ?_)
  match a with
  | ⟨0, _⟩ => show win1_3.index t (0 : Fin 2) * 128 + 1 * j.val = j.val; omega
  | ⟨1, _⟩ => show win1_3.index t (1 : Fin 2) * 128 + 1 * k.val = k.val; omega

theorem in1_4_apply (c : Dev nD) (t : Fin cfg1.N) (j k : Fin 128) :
    Hand.iblk1 V c 4 t (ix2 j k) = V c main_v8 (ix2 j k) := by
  obtain ⟨-, -, -, -, -, -, -, -, -, -, -, -, -, -, -, -, -, e0, e1, -⟩ := idx_facts1 t
  show V c main_v8 (((cfg1.win 4).blk t).view.emb (ix2 j k)) = V c main_v8 (ix2 j k)
  refine congrArg _ (funext fun a => Fin.ext ?_)
  match a with
  | ⟨0, _⟩ => show win1_4.index t (0 : Fin 2) * 128 + 1 * j.val = j.val; omega
  | ⟨1, _⟩ => show win1_4.index t (1 : Fin 2) * 128 + 1 * k.val = k.val; omega

theorem in1_5_apply (c : Dev nD) (t : Fin cfg1.N) (e : Fin 64) :
    Hand.iblk1 V c 5 t (ix2 (0 : Fin 1) e) = V c main_v10 (ix2 (0 : Fin 1) e) := by
  obtain ⟨-, -, -, -, -, -, -, -, -, -, -, -, -, -, -, -, -, -, -, e0, e1⟩ := idx_facts1 t
  show V c main_v10 (((cfg1.win 5).blk t).view.emb (ix2 (0 : Fin 1) e)) = V c main_v10 (ix2 (0 : Fin 1) e)
  refine congrArg _ (funext fun a => Fin.ext ?_)
  match a with
  | ⟨0, _⟩ => show win1_5.index t (0 : Fin 2) * 1 + 1 * 0 = 0; omega
  | ⟨1, _⟩ => show win1_5.index t (1 : Fin 2) * 64 + 1 * e.val = e.val; omega

/-- Where row `b` of point `t`'s output block sits in the array. -/
theorem out1_emb (t : Fin cfg1.N) (l : Fin 2) (b : Fin 128) (d : Fin 64) :
    ((cfg1.win 6).blk t).view.emb (ix3 l b d) = ix3 l (rowAt1 t b) d := by
  obtain ⟨e0, e1, e2, -⟩ := idx_facts1 t
  refine funext fun a => Fin.ext ?_
  match a with
  | ⟨0, _⟩ => show win1_6.index t (0 : Fin 3) * 2 + 1 * l.val = l.val; omega
  | ⟨1, _⟩ => show win1_6.index t (1 : Fin 3) * 128 + 1 * b.val = t.val * 128 + b.val; omega
  | ⟨2, _⟩ => show win1_6.index t (2 : Fin 3) * 64 + 1 * d.val = d.val; omega

/-- What point `t` writes back, at one index: the batch row's output. -/
theorem flushed1_pt (c : Dev nD) (t : Fin cfg1.N) (l : Fin 2) (b : Fin 128) (d : Fin 64) :
    k1_pay1 (F := Ideal) (k1_pay2 (Hand.iblk1 V c 2 t))
        (k1_pay4 (Hand.iblk1 V c 0 t) (Hand.iblk1 V c 1 t) (Hand.iblk1 V c 3 t) (Hand.iblk1 V c 4 t))
        (k1_pay5 (Hand.iblk1 V c 0 t) (Hand.iblk1 V c 1 t) (Hand.iblk1 V c 3 t) (Hand.iblk1 V c 4 t) (Hand.iblk1 V c 5 t))
        (k1_pay6 (Hand.iblk1 V c 0 t) (Hand.iblk1 V c 1 t) (Hand.iblk1 V c 3 t) (Hand.iblk1 V c 4 t) (Hand.iblk1 V c 5 t))
        k1_pay7 (ix3 l b d)
      = rowOut1 V c l (rowAt1 t b) d := by
  refine (BodyValue.bodyOut_apply1 (Hand.iblk1 V c 0 t) (Hand.iblk1 V c 1 t) (Hand.iblk1 V c 2 t) (Hand.iblk1 V c 3 t)
    (Hand.iblk1 V c 4 t) (Hand.iblk1 V c 5 t) l b d).trans ?_
  unfold rowOut1
  simp only [in1_0_apply, in1_1_apply, in1_2_apply, in1_3_apply, in1_4_apply, in1_5_apply]

/-- WHAT POINT `t` WRITES BACK is block `t` of `G1`. -/
theorem flushed1_eq (c : Dev nD) (t : Fin cfg1.N) :
    (Hand.dat1 V c).flushed 6 t = ((cfg1.win 6).blk t).view.read (Elt Ideal) (G1 V c) := by
  show (cfg1.win 6).cut (grid1.coords t) ((Hand.dat1 V c).after 6 t) = _
  rw [Hand.after1_6]
  unfold Hand.out1
  rw [View.canon_unit_zero hz3]
  simp only [View.ld_unit_zero (S := S2x128x32x64) hz4, View.ld_unit_zero (S := S128x128) hz2, View.ld_unit_zero (S := S1x64) hz2]
  funext y
  obtain ⟨l, b, d, rfl⟩ : ∃ (l : Fin 2) (b : Fin 128) (d : Fin 64), y = ix3 l b d :=
    ⟨y 0, y 1, y 2, eq_ix3 (n0 := 2) (n1 := 128) (n2 := 64) y⟩
  have hx : (cfg1.win 6).xinj (grid1.coords t) (ix3 l b d) = ix3 l b d :=
    funext fun a => match a with | ⟨0, _⟩ => rfl | ⟨1, _⟩ => rfl | ⟨2, _⟩ => rfl
  show _ = G1 V c (((cfg1.win 6).blk t).view.emb (ix3 l b d))
  rw [out1_emb]
  show _ = rowOut1 V c l (rowAt1 t b) d
  refine Eq.trans ?_ (flushed1_pt V c t l b d)
  exact congrArg _ hx

/-- An index of the array is in point `t`'s block iff each coordinate is in the block's range on its axis. -/
theorem mem_blk1 (t : Fin cfg1.N) (i : S2x4096x64.Idx) :
    i ∈ ((cfg1.win 6).blk t).view.set ↔ ∀ a : Fin 3, win1_6.index t a * S2x128x64.size a ≤ (i a).val ∧ (i a).val < win1_6.index t a * S2x128x64.size a + S2x128x64.size a := by
  show i ∈ ((View.whole main_v78).slice (win1_6.rect t)).set ↔ _
  rw [View.set_slice_whole, Rect.mem_set_unit]
  exact Iff.rfl

/-- Every index of the output array is in some point's block: row `B` is in the block of point `B / 128`. -/
theorem cover1 (i : S2x4096x64.Idx) :
    ∃ t : Fin cfg1.N, (cfg1.win 6).flush t = true ∧ i ∈ ((cfg1.win 6).blk t).view.set := by
  have h0 : (i 0).val < 2 := (i 0).isLt
  have h1 : (i 1).val < 4096 := (i 1).isLt
  have h2 : (i 2).val < 64 := (i 2).isLt
  have hN : (i 1).val / 128 < cfg1.N := lt_of_lt_of_eq (by omega : (i 1).val / 128 < 32) N_1.symm
  obtain ⟨e0, e1, e2, -⟩ := idx_facts1 ⟨(i 1).val / 128, hN⟩
  have e1' : win1_6.index ⟨(i 1).val / 128, hN⟩ (1 : Fin 3) = (i 1).val / 128 := e1
  refine ⟨⟨(i 1).val / 128, hN⟩, flush1_6 _, ?_⟩
  rw [mem_blk1]
  intro a
  match a with
  | ⟨0, _⟩ => show win1_6.index ⟨(i 1).val / 128, hN⟩ (0 : Fin 3) * 2 ≤ (i 0).val ∧ (i 0).val < win1_6.index ⟨(i 1).val / 128, hN⟩ (0 : Fin 3) * 2 + 2; omega
  | ⟨1, _⟩ => show win1_6.index ⟨(i 1).val / 128, hN⟩ (1 : Fin 3) * 128 ≤ (i 1).val ∧ (i 1).val < win1_6.index ⟨(i 1).val / 128, hN⟩ (1 : Fin 3) * 128 + 128; omega
  | ⟨2, _⟩ => show win1_6.index ⟨(i 1).val / 128, hN⟩ (2 : Fin 3) * 64 ≤ (i 2).val ∧ (i 2).val < win1_6.index ⟨(i 1).val / 128, hN⟩ (2 : Fin 3) * 64 + 64; omega

/-- THE OUTPUT ARRAY after the region: every batch row's output. -/
theorem arr1_eq (c : Dev nD) : (Hand.dat1 (F := Ideal) V c).arrAt 6 cfg1.N = G1 V c :=
  (Hand.dat1 V c).arrAt_eq_of_cover 6 (G1 V c) (fun t _ => flushed1_eq V c t) cover1

theorem arr1_apply (c : Dev nD) (l : Fin 2) (B : Fin 4096) (d : Fin 64) :
    (Hand.dat1 (F := Ideal) V c).arrAt 6 cfg1.N (ix3 l B d)
      = Cert.KA.kOut (fun n k => V c main_v56 (ix4 l B n k)) (fun n k => V c main_v63 (ix4 l B n k)) (fun n k => V c main_v70 (ix4 l B n k))
          (fun j k => V c main_v3 (ix2 j k)) (fun k e => V c main_v8 (ix2 k e)) (fun e => V c main_v10 (ix2 (0 : Fin 1) e)) d :=
  congrFun (arr1_eq V c) (ix3 l B d)

end Cert.KernelIdeal.Cover

end
-- ==== Proof.KAAlgebra.lean ====
/-
  The fused spelling of the knowledge-attention row agrees with the plain one when the fused first-layer weight
  is the two plain first-layer weights side by side and the fused second-layer weight carries the two plain
  second-layer weights on its diagonal blocks and zero elsewhere.

  The argument: a sum over 128 indices is a sum over the first 64 plus a sum over the last 64.  In the first
  fused layer, column k < 64 is the attention branch's column k, column 64 + k the gate branch's column k.  In the
  second fused layer, output e < 64 sees the attention half against the attention weight and the gate half
  against zeros; x * 0 = 0 and s + 0 = s hold for every extended real, so no finiteness is needed.
-/
import proofs.«172278_j10548439679188_2_alg».proof.Proof.KASpec

noncomputable section

namespace Cert.KA

open Idealize.ShloMosaic

/-- A sum over 128 indices: the first 64 plus the last 64. -/
theorem sum_split (f : Fin 128 → EReal) :
    ∑ k : Fin 128, f k
      = (∑ d : Fin 64, f ⟨d.val, by omega⟩) + ∑ d : Fin 64, f ⟨64 + d.val, by omega⟩ :=
  Fin.sum_univ_add (a := 64) (b := 64) f

variable (h r : Fin 64 → EReal) (aw1 gw1 : Fin 128 → Fin 64 → EReal) (aw2 gw2 : Fin 64 → Fin 64 → EReal)

/-- A low column of the side-by-side weight is the attention weight's column. -/
theorem w12of_lt (j : Fin 128) (d : Fin 64) (hd : d.val < 128) :
    w12of aw1 gw1 j ⟨d.val, hd⟩ = aw1 j d := by
  unfold w12of
  rw [dif_pos (show (⟨d.val, hd⟩ : Fin 128).val < 64 from d.isLt)]

/-- A high column of the side-by-side weight is the gate weight's column. -/
theorem w12of_ge (j : Fin 128) (d : Fin 64) (hd : 64 + d.val < 128) :
    w12of aw1 gw1 j ⟨64 + d.val, hd⟩ = gw1 j d := by
  unfold w12of
  rw [dif_neg (show ¬ (⟨64 + d.val, hd⟩ : Fin 128).val < 64 from by simp)]
  congr 1
  apply Fin.ext
  simp

theorem kHid_lt (d : Fin 64) (hd : d.val < 128) :
    kHid h r (w12of aw1 gw1) ⟨d.val, hd⟩ = rHid h r aw1 d := by
  unfold kHid rHid
  simp only [w12of_lt]

theorem kHid_ge (d : Fin 64) (hd : 64 + d.val < 128) :
    kHid h r (w12of aw1 gw1) ⟨64 + d.val, hd⟩ = rHid h r gw1 d := by
  unfold kHid rHid
  simp only [w12of_ge]

/-- The four blocks of the block-diagonal weight. -/
theorem w2g2of_lt_lt (k e : Fin 64) (hk : k.val < 128) (he : e.val < 128) :
    w2g2of aw2 gw2 ⟨k.val, hk⟩ ⟨e.val, he⟩ = aw2 k e := by
  unfold w2g2of
  rw [dif_pos (show (⟨k.val, hk⟩ : Fin 128).val < 64 from k.isLt),
    dif_pos (show (⟨e.val, he⟩ : Fin 128).val < 64 from e.isLt)]

theorem w2g2of_ge_lt (k e : Fin 64) (hk : 64 + k.val < 128) (he : e.val < 128) :
    w2g2of aw2 gw2 ⟨64 + k.val, hk⟩ ⟨e.val, he⟩ = 0 := by
  unfold w2g2of
  rw [dif_neg (show ¬ (⟨64 + k.val, hk⟩ : Fin 128).val < 64 from by simp),
    dif_pos (show (⟨e.val, he⟩ : Fin 128).val < 64 from e.isLt)]

theorem w2g2of_lt_ge (k e : Fin 64) (hk : k.val < 128) (he : 64 + e.val < 128) :
    w2g2of aw2 gw2 ⟨k.val, hk⟩ ⟨64 + e.val, he⟩ = 0 := by
  unfold w2g2of
  rw [dif_pos (show (⟨k.val, hk⟩ : Fin 128).val < 64 from k.isLt),
    dif_neg (show ¬ (⟨64 + e.val, he⟩ : Fin 128).val < 64 from by simp)]

theorem w2g2of_ge_ge (k e : Fin 64) (hk : 64 + k.val < 128) (he : 64 + e.val < 128) :
    w2g2of aw2 gw2 ⟨64 + k.val, hk⟩ ⟨64 + e.val, he⟩ = gw2 k e := by
  unfold w2g2of
  rw [dif_neg (show ¬ (⟨64 + k.val, hk⟩ : Fin 128).val < 64 from by simp),
    dif_neg (show ¬ (⟨64 + e.val, he⟩ : Fin 128).val < 64 from by simp)]
  congr 1 <;> (apply Fin.ext; simp)

/-- A low output of the second fused layer is the attention branch's second layer. -/
theorem kPre_lt (e : Fin 64) (he : e.val < 128) :
    kPre h r (w12of aw1 gw1) (w2g2of aw2 gw2) ⟨e.val, he⟩ = ∑ d : Fin 64, rHid h r aw1 d * aw2 d e := by
  unfold kPre
  rw [sum_split]
  simp only [kHid_lt, kHid_ge, w2g2of_lt_lt, w2g2of_ge_lt, mul_zero, Finset.sum_const_zero, add_zero]

/-- A high output of the second fused layer is the gate branch's second layer. -/
theorem kPre_ge (e : Fin 64) (he : 64 + e.val < 128) :
    kPre h r (w12of aw1 gw1) (w2g2of aw2 gw2) ⟨64 + e.val, he⟩ = ∑ d : Fin 64, rHid h r gw1 d * gw2 d e := by
  unfold kPre
  rw [sum_split]
  simp only [kHid_lt, kHid_ge, w2g2of_lt_ge, w2g2of_ge_ge, mul_zero, Finset.sum_const_zero, zero_add]

theorem kScore_eq (aw3 : Fin 64 → EReal) :
    kScore h r (w12of aw1 gw1) (w2g2of aw2 gw2) aw3 = rScore h r aw1 aw2 aw3 := by
  unfold kScore rScore
  simp only [kPre_lt]

theorem kGate_eq (d : Fin 64) :
    kGate h r (w12of aw1 gw1) (w2g2of aw2 gw2) d = rGate h r gw1 gw2 d := by
  unfold kGate rGate
  rw [kPre_ge]

/-- The fused row output is the plain row output. -/
theorem kOut_eq_rOut (H R T : Fin 32 → Fin 64 → EReal) (aw1 gw1 : Fin 128 → Fin 64 → EReal)
    (aw2 gw2 : Fin 64 → Fin 64 → EReal) (aw3 : Fin 64 → EReal) (d : Fin 64) :
    kOut H R T (w12of aw1 gw1) (w2g2of aw2 gw2) aw3 d = rOut H R T aw1 aw2 aw3 gw1 gw2 d := by
  unfold kOut rOut
  simp only [kScore_eq, kGate_eq]

end Cert.KA

end
-- ==== Proof.LibHostMaxTrailing.lean ====
/-
  The host's maximum over the trailing axis of a rank-3 array, read at an entry, at the exact values.

  A `stablehlo.reduce` with a `maximum` body over axis 2 of an array [a, b, c] gives, at `(p, q)`, the fold of `max`
  from the initial value's element over `k` of the source at `(p, q, k)`: `max` is commutative and associative, so the
  order in which the host combines the elements does not matter. (A row maximum as `jnp.max(x, axis=-1)` or the one
  inside `jax.nn.softmax` lowers to this.) The same for a rank-2 array [a, b] at `p`.
-/
import Idealize.ShloMosaic.PureOps.Reduce
import Idealize.ShloMosaic.PureOps.Ideal.Laws
import Idealize.ShloMosaic.Lib.ValueIdx

noncomputable section

namespace Cert.Lib.HostMaxTrailing

open Idealize.ShloMosaic Idealize.ShloMosaic.ValueIdx

/-- Reducing [a, b, c] over its trailing axis: the result index `(p, q)` with `k` put back on that axis is `(p, q, k)`. -/
theorem lift3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- The host's maximum of [a, b, c] over its trailing axis, at `(p, q)`: the fold of `max` from the initial value over
    the entries `(p, q, ·)`. -/
theorem hostMax_trailing3 {φ : FTy} {a b c : ℕ} {u : Shape} (y : FVec Ideal ⟨3, ![a, b, c]⟩ φ) (init : u.Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (p : Fin a) (q : Fin b) :
    Host.reduce FloatOps.maximumf y init h' hu (ix2 p q)
      = (Finset.univ : Finset (Fin c)).fold max (init (Shape.Idx.first hu)) (fun k => y (ix3 p q k)) := by
  refine (Host.reduce_eq_fold_single FloatOps.maximumf y init h' h hu (ix2 p q)).trans ?_
  exact congrArg (Finset.fold max _ · Finset.univ) (funext fun k => congrArg y (lift3 h p q k))

/-- Reducing [a, b] over its trailing axis: the result index `p` with `k` put back is `(p, k)`. -/
theorem lift2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- The host's maximum of [a, b] over its trailing axis, at `p`: the fold of `max` from the initial value over row `p`. -/
theorem hostMax_trailing2 {φ : FTy} {a b : ℕ} {u : Shape} (y : FVec Ideal ⟨2, ![a, b]⟩ φ) (init : u.Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (p : Fin a) :
    Host.reduce FloatOps.maximumf y init h' hu (ix1 p)
      = (Finset.univ : Finset (Fin b)).fold max (init (Shape.Idx.first hu)) (fun k => y (ix2 p k)) := by
  refine (Host.reduce_eq_fold_single FloatOps.maximumf y init h' h hu (ix1 p)).trans ?_
  exact congrArg (Finset.fold max _ · Finset.univ) (funext fun k => congrArg y (lift2 h p k))

end Cert.Lib.HostMaxTrailing

end
-- ==== Proof.RefValue.lean ====
import proofs.«172278_j10548439679188_2_alg».proof.Proof.RefReadP
import proofs.«172278_j10548439679188_2_alg».proof.Proof.KASpec
import proofs.«172278_j10548439679188_2_alg».proof.Proof.LibHostMaxTrailing
import Idealize.ShloMosaic.Lib.IdealHost

/-!
  The plain (host) spelling of the knowledge-attention layer, read entry by entry on the extended reals.

  For one (layer l, batch row B) the host joins each neighbour's head and relation rows into a 128-wide feature row,
  sends it through the attention branch (two relu layers, a 64-to-1 layer, the logistic function written as
  1 / (1 + exp(−x))), takes the softmax of the 32 scores along the neighbour axis (row maximum from −∞, exponentials,
  their sum, the quotient), through the gate branch (one relu layer, one linear layer, twice the logistic function),
  and sums attention · gate · tail over the neighbours.  Each stage is read at an index from the stages below it; the
  composed index maps are identified with literal coordinates, and the result is `Cert.KA.rOut` of the three gathered
  arrays' rows and the five weights.
-/

noncomputable section

namespace Cert.ReferenceIdeal.RefValue

open Cert.ReferenceIdeal Cert.ReferenceIdeal.Gen Idealize.ShloMosaic Idealize.ShloMosaic.ValueIdx Idealize.ShloMosaic.StableHlo
open Cert.KA

/-- Two functions of an axis that agree at every axis are equal as indices; the axes are decided one by one
    (ranks two, three and four). -/
local macro "idx_eq2" : tactic =>
  `(tactic| (
    funext a
    apply Fin.ext
    match a with
    | ⟨0, _⟩ => rfl
    | ⟨1, _⟩ => rfl))

local macro "idx_eq3" : tactic =>
  `(tactic| (
    funext a
    apply Fin.ext
    match a with
    | ⟨0, _⟩ => rfl
    | ⟨1, _⟩ => rfl
    | ⟨2, _⟩ => rfl))

local macro "idx_eq4" : tactic =>
  `(tactic| (
    funext a
    apply Fin.ext
    match a with
    | ⟨0, _⟩ => rfl
    | ⟨1, _⟩ => rfl
    | ⟨2, _⟩ => rfl
    | ⟨3, _⟩ => rfl))

/-- Joining two [2, 4096, 32, 64] arrays along the last axis: column `j` of the result is column `j` of the first
    array when `j < 64` and column `j − 64` of the second otherwise. -/
theorem concat_apply (a b : (⟨S2x4096x32x64, .f32⟩ : BufTy).Contents (Elt Ideal)) (l : Fin 2) (B : Fin 4096) (n : Fin 32)
    (j : Fin 128) :
    concatenate S2x4096x32x128 3 [⟨S2x4096x32x64, a⟩, ⟨S2x4096x32x64, b⟩]
        concatenates_S2x4096x32x64_S2x4096x32x64_S2x4096x32x128_d3 (ix4 l B n j)
      = xcat (fun k => a (ix4 l B n k)) (fun k => b (ix4 l B n k)) j := by
  unfold xcat
  by_cases hj : j.val < 64
  · rw [dif_pos hj]
    refine concatenate_pair_apply_left (3 : Fin S2x4096x32x128.rank) a b _ (ix4 l B n j) rfl (ix4 l B n ⟨j.val, hj⟩) ?_
    intro c
    match c with
    | ⟨0, _⟩ => rfl
    | ⟨1, _⟩ => rfl
    | ⟨2, _⟩ => rfl
    | ⟨3, _⟩ => rfl
  · rw [dif_neg hj]
    refine concatenate_pair_apply_right (3 : Fin S2x4096x32x128.rank) a b _ (ix4 l B n j) rfl rfl
      (ix4 l B n ⟨j.val - 64, by omega⟩) ?_ ?_
    · intro c hc
      match c, hc with
      | ⟨0, _⟩, _ => rfl
      | ⟨1, _⟩, _ => rfl
      | ⟨2, _⟩, _ => rfl
      | ⟨3, _⟩, hc => exact absurd rfl hc
    · show (j.val - 64) + 64 = j.val
      omega

/-! ## The user tower -/

section User

variable (x2 x3 x4 : (⟨S2x4096x32, .i32⟩ : BufTy).Contents (Elt Ideal)) (x8 : (⟨S100000x64, .f32⟩ : BufTy).Contents (Elt Ideal))
  (x9 : (⟨S32x64, .f32⟩ : BufTy).Contents (Elt Ideal)) (x10 : (⟨S128x64, .f32⟩ : BufTy).Contents (Elt Ideal))
  (x11 : (⟨S64x64, .f32⟩ : BufTy).Contents (Elt Ideal)) (x12 : (⟨S64x1, .f32⟩ : BufTy).Contents (Elt Ideal))
  (x13 : (⟨S128x64, .f32⟩ : BufTy).Contents (Elt Ideal)) (x14 : (⟨S64x64, .f32⟩ : BufTy).Contents (Elt Ideal))
  (l : Fin 2) (B : Fin 4096)

/-- Neighbour `n`'s feature row: its head row followed by its relation row. -/
theorem feat_user (n : Fin 32) (j : Fin 128) :
    Read.val_main_v26 (F := Ideal) x2 x3 x8 x9 (ix4 l B n j) = xcat (fun k => Read.val_main_v6 (F := Ideal) x2 x8 (ix4 l B n k)) (fun k => Read.val_main_v13 (F := Ideal) x3 x9 (ix4 l B n k)) j := by
  unfold Read.val_main_v26
  exact concat_apply _ _ l B n j

/-- The attention branch's first layer: relu of the feature row against the 128×64 weight. -/
theorem hidA_user (n : Fin 32) (d : Fin 64) :
    Read.val_main_v28 (F := Ideal) x2 x3 x8 x9 x10 (ix4 l B n d) = rHid (fun k => Read.val_main_v6 (F := Ideal) x2 x8 (ix4 l B n k)) (fun k => Read.val_main_v13 (F := Ideal) x3 x9 (ix4 l B n k)) (fun j e => x10 (ix2 j e)) d := by
  rw [Read.val_main_v28_apply, Read.val_main_v27_apply, Read.val_main_call0_v0_apply, Read.val_main_call0_cst_apply]
  unfold rHid
  refine congrArg₂ max (Finset.sum_congr rfl fun k _ => ?_) Ideal.ofBits_zero_f32
  rw [show Read.lidx_main_v27 (ix4 l B n d) k = ix4 l B n k from by idx_eq4,
    show Read.ridx_main_v27 (ix4 l B n d) k = ix2 k d from by idx_eq2, feat_user]

/-- The attention branch's second layer, relu'd. -/
theorem hid2_user (n : Fin 32) (e : Fin 64) :
    Read.val_main_v30 (F := Ideal) x2 x3 x8 x9 x10 x11 (ix4 l B n e)
      = max (∑ d : Fin 64, rHid (fun k => Read.val_main_v6 (F := Ideal) x2 x8 (ix4 l B n k)) (fun k => Read.val_main_v13 (F := Ideal) x3 x9 (ix4 l B n k)) (fun j e => x10 (ix2 j e)) d * x11 (ix2 d e)) 0 := by
  rw [Read.val_main_v30_apply, Read.val_main_v29_apply, Read.val_main_call1_v0_apply, Read.val_main_call1_cst_apply]
  refine congrArg₂ max (Finset.sum_congr rfl fun k _ => ?_) Ideal.ofBits_zero_f32
  rw [show Read.lidx_main_v29 (ix4 l B n e) k = ix4 l B n k from by idx_eq4,
    show Read.ridx_main_v29 (ix4 l B n e) k = ix2 k e from by idx_eq2, hidA_user]

/-- Neighbour `n`'s attention score: the logistic function, written 1 / (1 + exp(−x)), of the 64-to-1 layer; the
    [2, 4096, 32, 1] array reshaped to [2, 4096, 32] keeps its entries in place. -/
theorem score_user (n : Fin 32) :
    Read.val_main_v38 (F := Ideal) x2 x3 x8 x9 x10 x11 x12 (ix3 l B n) = rScore (fun k => Read.val_main_v6 (F := Ideal) x2 x8 (ix4 l B n k)) (fun k => Read.val_main_v13 (F := Ideal) x3 x9 (ix4 l B n k)) (fun j e => x10 (ix2 j e)) (fun e f => x11 (ix2 e f)) (fun e => x12 (ix2 e 0)) := by
  have hi : Read.idx_main_v38 (ix3 l B n) = ix4 l B n 0 := by
    have h0 := l.isLt
    have h1 := B.isLt
    have h2 := n.isLt
    funext a
    apply Fin.ext
    match a with
    | ⟨0, _⟩ => show ((l.val * 4096 + B.val) * 32 + n.val) / 131072 = l.val; omega
    | ⟨1, _⟩ => show ((l.val * 4096 + B.val) * 32 + n.val) / 32 % 4096 = B.val; omega
    | ⟨2, _⟩ => show ((l.val * 4096 + B.val) * 32 + n.val) / 1 % 32 = n.val; omega
    | ⟨3, _⟩ => rfl
  rw [Read.val_main_v38_apply, hi, Read.val_main_v37_apply, Read.val_main_v36_apply, Read.val_main_cst_7_apply,
    Read.val_main_v35_apply, Read.val_main_v34_apply, Read.val_main_cst_6_apply, Read.val_main_v33_apply,
    Read.val_main_v32_apply, Read.val_main_v31_apply]
  unfold rScore Ideal.logistic
  simp only [Ideal.hostDivf_def, Ideal.addf_def, Ideal.hostUnary_exp_def, Ideal.hostNegf_def, Ideal.negf_def,
    Ideal.ofBits_def, Ideal.ofBits_one_f32]
  refine congrArg (fun s => Ideal.div 1 (1 + Ideal.exp (-s))) (Finset.sum_congr rfl fun k _ => ?_)
  rw [show Read.lidx_main_v31 (ix4 l B n 0) k = ix4 l B n k from by idx_eq4,
    show Read.ridx_main_v31 (ix4 l B n 0) k = ix2 k 0 from by idx_eq2, hid2_user]

/-- The row maximum of the 32 scores, taken from −∞, and once more against −∞. -/
theorem rowmax_user :
    Read.val_main_v41 (F := Ideal) x2 x3 x8 x9 x10 x11 x12 (ix2 l B) = (max ninf ((Finset.univ : Finset (Fin 32)).fold max ninf (fun n' => rScore (fun k => Read.val_main_v6 (F := Ideal) x2 x8 (ix4 l B n' k)) (fun k => Read.val_main_v13 (F := Ideal) x3 x9 (ix4 l B n' k)) (fun j e => x10 (ix2 j e)) (fun e f => x11 (ix2 e f)) (fun e => x12 (ix2 e 0))))) := by
  rw [Read.val_main_v41_apply, Read.val_main_v40_apply, Read.val_main_cst_9_apply]
  refine congrArg₂ max rfl ?_
  unfold Read.val_main_v39
  refine (Cert.Lib.HostMaxTrailing.hostMax_trailing3 _ _ reducesTo_S2x4096x32_S2x4096_d2 (by decide) h_S_ l B).trans ?_
  exact congrArg (Finset.fold max _ · Finset.univ) (funext fun k => score_user x2 x3 x8 x9 x10 x11 x12 l B k)

/-- The exponential of a score less the row maximum. -/
theorem expo_user (n : Fin 32) :
    Read.val_main_v45 (F := Ideal) x2 x3 x8 x9 x10 x11 x12 (ix3 l B n)
      = Ideal.exp (rScore (fun k => Read.val_main_v6 (F := Ideal) x2 x8 (ix4 l B n k)) (fun k => Read.val_main_v13 (F := Ideal) x3 x9 (ix4 l B n k)) (fun j e => x10 (ix2 j e)) (fun e f => x11 (ix2 e f)) (fun e => x12 (ix2 e 0)) - (max ninf ((Finset.univ : Finset (Fin 32)).fold max ninf (fun n' => rScore (fun k => Read.val_main_v6 (F := Ideal) x2 x8 (ix4 l B n' k)) (fun k => Read.val_main_v13 (F := Ideal) x3 x9 (ix4 l B n' k)) (fun j e => x10 (ix2 j e)) (fun e f => x11 (ix2 e f)) (fun e => x12 (ix2 e 0)))))) := by
  rw [Read.val_main_v45_apply, Read.val_main_v44_apply, Read.val_main_v43_apply, Read.val_main_v42_apply,
    show Read.idx_main_v42 (Read.idx_main_v43 (ix3 l B n)) = ix2 l B from by idx_eq2, score_user, rowmax_user]
  all_goals rfl

/-- The sum of the 32 exponentials, broadcast back along the neighbour axis. -/
theorem den_user (n : Fin 32) :
    Read.val_main_v48 (F := Ideal) x2 x3 x8 x9 x10 x11 x12 (ix3 l B n)
      = ∑ n' : Fin 32, Ideal.exp (rScore (fun k => Read.val_main_v6 (F := Ideal) x2 x8 (ix4 l B n' k)) (fun k => Read.val_main_v13 (F := Ideal) x3 x9 (ix4 l B n' k)) (fun j e => x10 (ix2 j e)) (fun e f => x11 (ix2 e f)) (fun e => x12 (ix2 e 0)) - (max ninf ((Finset.univ : Finset (Fin 32)).fold max ninf (fun n' => rScore (fun k => Read.val_main_v6 (F := Ideal) x2 x8 (ix4 l B n' k)) (fun k => Read.val_main_v13 (F := Ideal) x3 x9 (ix4 l B n' k)) (fun j e => x10 (ix2 j e)) (fun e f => x11 (ix2 e f)) (fun e => x12 (ix2 e 0)))))) := by
  rw [Read.val_main_v48_apply, Read.val_main_v47_apply,
    show Read.idx_main_v47 (Read.idx_main_v48 (ix3 l B n)) = ix2 l B from by idx_eq2, Read.val_main_v46_apply,
    Read.val_main_cst_10_apply, Ideal.ofBits_def, Ideal.ofBits_zero_f32, zero_add]
  refine Finset.sum_congr rfl fun k _ => ?_
  rw [show Read.idx_main_v46 (ix2 l B) k = ix3 l B k from by idx_eq3, expo_user]

/-- The softmax weight of neighbour `n`. -/
theorem att_user (n : Fin 32) :
    Read.val_main_v49 (F := Ideal) x2 x3 x8 x9 x10 x11 x12 (ix3 l B n) = smax (fun n' => rScore (fun k => Read.val_main_v6 (F := Ideal) x2 x8 (ix4 l B n' k)) (fun k => Read.val_main_v13 (F := Ideal) x3 x9 (ix4 l B n' k)) (fun j e => x10 (ix2 j e)) (fun e f => x11 (ix2 e f)) (fun e => x12 (ix2 e 0))) n := by
  rw [Read.val_main_v49_apply, expo_user, den_user]
  all_goals rfl

/-- The gate branch's first layer. -/
theorem hidG_user (n : Fin 32) (d : Fin 64) :
    Read.val_main_v51 (F := Ideal) x2 x3 x8 x9 x13 (ix4 l B n d) = rHid (fun k => Read.val_main_v6 (F := Ideal) x2 x8 (ix4 l B n k)) (fun k => Read.val_main_v13 (F := Ideal) x3 x9 (ix4 l B n k)) (fun j e => x13 (ix2 j e)) d := by
  rw [Read.val_main_v51_apply, Read.val_main_v50_apply, Read.val_main_call2_v0_apply, Read.val_main_call2_cst_apply]
  unfold rHid
  refine congrArg₂ max (Finset.sum_congr rfl fun k _ => ?_) Ideal.ofBits_zero_f32
  rw [show Read.lidx_main_v50 (ix4 l B n d) k = ix4 l B n k from by idx_eq4,
    show Read.ridx_main_v50 (ix4 l B n d) k = ix2 k d from by idx_eq2, feat_user]

/-- The gate: twice the logistic function of the gate branch's second layer. -/
theorem gate_user (n : Fin 32) (e : Fin 64) :
    Read.val_main_v60 (F := Ideal) x2 x3 x8 x9 x13 x14 (ix4 l B n e) = rGate (fun k => Read.val_main_v6 (F := Ideal) x2 x8 (ix4 l B n k)) (fun k => Read.val_main_v13 (F := Ideal) x3 x9 (ix4 l B n k)) (fun j e => x13 (ix2 j e)) (fun e f => x14 (ix2 e f)) e := by
  rw [Read.val_main_v60_apply, Read.val_main_v59_apply, Read.val_main_cst_13_apply, Read.val_main_v58_apply,
    Read.val_main_v57_apply, Read.val_main_cst_12_apply, Read.val_main_v56_apply, Read.val_main_v55_apply,
    Read.val_main_cst_11_apply, Read.val_main_v54_apply, Read.val_main_v53_apply, Read.val_main_v52_apply]
  unfold rGate Ideal.logistic
  simp only [Ideal.mulf_def, Ideal.hostDivf_def, Ideal.addf_def, Ideal.hostUnary_exp_def, Ideal.hostNegf_def,
    Ideal.negf_def, Ideal.ofBits_def, Ideal.ofBits_one_f32]
  refine congrArg (fun s => two * Ideal.div 1 (1 + Ideal.exp (-s))) (Finset.sum_congr rfl fun k _ => ?_)
  rw [show Read.lidx_main_v52 (ix4 l B n e) k = ix4 l B n k from by idx_eq4,
    show Read.ridx_main_v52 (ix4 l B n e) k = ix2 k e from by idx_eq2, hidG_user]

end User

/-- The user tower's output at `(l, B, d)`: the attention-weighted, gated sum of the 32 neighbours' tail rows, as the
    plain spelling `rOut` of the gathered head, relation and tail rows of batch row `B` in layer `l`. -/
theorem refKA_user_apply (x2 x3 x4 : (⟨S2x4096x32, .i32⟩ : BufTy).Contents (Elt Ideal))
    (x8 : (⟨S100000x64, .f32⟩ : BufTy).Contents (Elt Ideal)) (x9 : (⟨S32x64, .f32⟩ : BufTy).Contents (Elt Ideal))
    (x10 : (⟨S128x64, .f32⟩ : BufTy).Contents (Elt Ideal)) (x11 : (⟨S64x64, .f32⟩ : BufTy).Contents (Elt Ideal))
    (x12 : (⟨S64x1, .f32⟩ : BufTy).Contents (Elt Ideal)) (x13 : (⟨S128x64, .f32⟩ : BufTy).Contents (Elt Ideal))
    (x14 : (⟨S64x64, .f32⟩ : BufTy).Contents (Elt Ideal)) (l : Fin 2) (B : Fin 4096) (d : Fin 64) :
    Read.val_main_v65 (F := Ideal) x2 x3 x4 x8 x9 x10 x11 x12 x13 x14 (ix3 l B d)
      = Cert.KA.rOut (fun n k => Read.val_main_v6 (F := Ideal) x2 x8 (ix4 l B n k))
          (fun n k => Read.val_main_v13 (F := Ideal) x3 x9 (ix4 l B n k))
          (fun n k => Read.val_main_v20 (F := Ideal) x4 x8 (ix4 l B n k))
          (fun j e => x10 (ix2 j e)) (fun e f => x11 (ix2 e f)) (fun e => x12 (ix2 e 0))
          (fun j e => x13 (ix2 j e)) (fun e f => x14 (ix2 e f)) d := by
  rw [Read.val_main_v65_apply, Read.val_main_cst_14_apply, Ideal.ofBits_def, Ideal.ofBits_zero_f32, zero_add]
  unfold rOut
  refine Finset.sum_congr rfl fun n _ => ?_
  rw [show Read.idx_main_v65 (ix3 l B d) n = ix4 l B n d from by idx_eq4, Read.val_main_v64_apply,
    Read.val_main_v63_apply, Read.val_main_v62_apply, Read.val_main_v61_apply,
    show Read.idx_main_v61 (Read.idx_main_v62 (ix4 l B n d)) = ix3 l B n from by idx_eq3,
    att_user, gate_user]
  all_goals rfl

/-! ## The item tower -/

section Item

variable (x5 x6 x7 : (⟨S2x4096x32, .i32⟩ : BufTy).Contents (Elt Ideal)) (x8 : (⟨S100000x64, .f32⟩ : BufTy).Contents (Elt Ideal))
  (x9 : (⟨S32x64, .f32⟩ : BufTy).Contents (Elt Ideal)) (x10 : (⟨S128x64, .f32⟩ : BufTy).Contents (Elt Ideal))
  (x11 : (⟨S64x64, .f32⟩ : BufTy).Contents (Elt Ideal)) (x12 : (⟨S64x1, .f32⟩ : BufTy).Contents (Elt Ideal))
  (x13 : (⟨S128x64, .f32⟩ : BufTy).Contents (Elt Ideal)) (x14 : (⟨S64x64, .f32⟩ : BufTy).Contents (Elt Ideal))
  (l : Fin 2) (B : Fin 4096)

/-- Neighbour `n`'s feature row: its head row followed by its relation row. -/
theorem feat_item (n : Fin 32) (j : Fin 128) :
    Read.val_main_v99 (F := Ideal) x5 x6 x8 x9 (ix4 l B n j) = xcat (fun k => Read.val_main_v77 (F := Ideal) x5 x8 (ix4 l B n k)) (fun k => Read.val_main_v84 (F := Ideal) x6 x9 (ix4 l B n k)) j := by
  unfold Read.val_main_v99
  exact concat_apply _ _ l B n j

/-- The attention branch's first layer: relu of the feature row against the 128×64 weight. -/
theorem hidA_item (n : Fin 32) (d : Fin 64) :
    Read.val_main_v101 (F := Ideal) x5 x6 x8 x9 x10 (ix4 l B n d) = rHid (fun k => Read.val_main_v77 (F := Ideal) x5 x8 (ix4 l B n k)) (fun k => Read.val_main_v84 (F := Ideal) x6 x9 (ix4 l B n k)) (fun j e => x10 (ix2 j e)) d := by
  rw [Read.val_main_v101_apply, Read.val_main_v100_apply, Read.val_main_call3_v0_apply, Read.val_main_call3_cst_apply]
  unfold rHid
  refine congrArg₂ max (Finset.sum_congr rfl fun k _ => ?_) Ideal.ofBits_zero_f32
  rw [show Read.lidx_main_v100 (ix4 l B n d) k = ix4 l B n k from by idx_eq4,
    show Read.ridx_main_v100 (ix4 l B n d) k = ix2 k d from by idx_eq2, feat_item]

/-- The attention branch's second layer, relu'd. -/
theorem hid2_item (n : Fin 32) (e : Fin 64) :
    Read.val_main_v103 (F := Ideal) x5 x6 x8 x9 x10 x11 (ix4 l B n e)
      = max (∑ d : Fin 64, rHid (fun k => Read.val_main_v77 (F := Ideal) x5 x8 (ix4 l B n k)) (fun k => Read.val_main_v84 (F := Ideal) x6 x9 (ix4 l B n k)) (fun j e => x10 (ix2 j e)) d * x11 (ix2 d e)) 0 := by
  rw [Read.val_main_v103_apply, Read.val_main_v102_apply, Read.val_main_call4_v0_apply, Read.val_main_call4_cst_apply]
  refine congrArg₂ max (Finset.sum_congr rfl fun k _ => ?_) Ideal.ofBits_zero_f32
  rw [show Read.lidx_main_v102 (ix4 l B n e) k = ix4 l B n k from by idx_eq4,
    show Read.ridx_main_v102 (ix4 l B n e) k = ix2 k e from by idx_eq2, hidA_item]

/-- Neighbour `n`'s attention score: the logistic function, written 1 / (1 + exp(−x)), of the 64-to-1 layer; the
    [2, 4096, 32, 1] array reshaped to [2, 4096, 32] keeps its entries in place. -/
theorem score_item (n : Fin 32) :
    Read.val_main_v111 (F := Ideal) x5 x6 x8 x9 x10 x11 x12 (ix3 l B n) = rScore (fun k => Read.val_main_v77 (F := Ideal) x5 x8 (ix4 l B n k)) (fun k => Read.val_main_v84 (F := Ideal) x6 x9 (ix4 l B n k)) (fun j e => x10 (ix2 j e)) (fun e f => x11 (ix2 e f)) (fun e => x12 (ix2 e 0)) := by
  have hi : Read.idx_main_v111 (ix3 l B n) = ix4 l B n 0 := by
    have h0 := l.isLt
    have h1 := B.isLt
    have h2 := n.isLt
    funext a
    apply Fin.ext
    match a with
    | ⟨0, _⟩ => show ((l.val * 4096 + B.val) * 32 + n.val) / 131072 = l.val; omega
    | ⟨1, _⟩ => show ((l.val * 4096 + B.val) * 32 + n.val) / 32 % 4096 = B.val; omega
    | ⟨2, _⟩ => show ((l.val * 4096 + B.val) * 32 + n.val) / 1 % 32 = n.val; omega
    | ⟨3, _⟩ => rfl
  rw [Read.val_main_v111_apply, hi, Read.val_main_v110_apply, Read.val_main_v109_apply, Read.val_main_cst_24_apply,
    Read.val_main_v108_apply, Read.val_main_v107_apply, Read.val_main_cst_23_apply, Read.val_main_v106_apply,
    Read.val_main_v105_apply, Read.val_main_v104_apply]
  unfold rScore Ideal.logistic
  simp only [Ideal.hostDivf_def, Ideal.addf_def, Ideal.hostUnary_exp_def, Ideal.hostNegf_def, Ideal.negf_def,
    Ideal.ofBits_def, Ideal.ofBits_one_f32]
  refine congrArg (fun s => Ideal.div 1 (1 + Ideal.exp (-s))) (Finset.sum_congr rfl fun k _ => ?_)
  rw [show Read.lidx_main_v104 (ix4 l B n 0) k = ix4 l B n k from by idx_eq4,
    show Read.ridx_main_v104 (ix4 l B n 0) k = ix2 k 0 from by idx_eq2, hid2_item]

/-- The row maximum of the 32 scores, taken from −∞, and once more against −∞. -/
theorem rowmax_item :
    Read.val_main_v114 (F := Ideal) x5 x6 x8 x9 x10 x11 x12 (ix2 l B) = (max ninf ((Finset.univ : Finset (Fin 32)).fold max ninf (fun n' => rScore (fun k => Read.val_main_v77 (F := Ideal) x5 x8 (ix4 l B n' k)) (fun k => Read.val_main_v84 (F := Ideal) x6 x9 (ix4 l B n' k)) (fun j e => x10 (ix2 j e)) (fun e f => x11 (ix2 e f)) (fun e => x12 (ix2 e 0))))) := by
  rw [Read.val_main_v114_apply, Read.val_main_v113_apply, Read.val_main_cst_26_apply]
  refine congrArg₂ max rfl ?_
  unfold Read.val_main_v112
  refine (Cert.Lib.HostMaxTrailing.hostMax_trailing3 _ _ reducesTo_S2x4096x32_S2x4096_d2 (by decide) h_S_ l B).trans ?_
  exact congrArg (Finset.fold max _ · Finset.univ) (funext fun k => score_item x5 x6 x8 x9 x10 x11 x12 l B k)

/-- The exponential of a score less the row maximum. -/
theorem expo_item (n : Fin 32) :
    Read.val_main_v118 (F := Ideal) x5 x6 x8 x9 x10 x11 x12 (ix3 l B n)
      = Ideal.exp (rScore (fun k => Read.val_main_v77 (F := Ideal) x5 x8 (ix4 l B n k)) (fun k => Read.val_main_v84 (F := Ideal) x6 x9 (ix4 l B n k)) (fun j e => x10 (ix2 j e)) (fun e f => x11 (ix2 e f)) (fun e => x12 (ix2 e 0)) - (max ninf ((Finset.univ : Finset (Fin 32)).fold max ninf (fun n' => rScore (fun k => Read.val_main_v77 (F := Ideal) x5 x8 (ix4 l B n' k)) (fun k => Read.val_main_v84 (F := Ideal) x6 x9 (ix4 l B n' k)) (fun j e => x10 (ix2 j e)) (fun e f => x11 (ix2 e f)) (fun e => x12 (ix2 e 0)))))) := by
  rw [Read.val_main_v118_apply, Read.val_main_v117_apply, Read.val_main_v116_apply, Read.val_main_v115_apply,
    show Read.idx_main_v115 (Read.idx_main_v116 (ix3 l B n)) = ix2 l B from by idx_eq2, score_item, rowmax_item]
  all_goals rfl

/-- The sum of the 32 exponentials, broadcast back along the neighbour axis. -/
theorem den_item (n : Fin 32) :
    Read.val_main_v121 (F := Ideal) x5 x6 x8 x9 x10 x11 x12 (ix3 l B n)
      = ∑ n' : Fin 32, Ideal.exp (rScore (fun k => Read.val_main_v77 (F := Ideal) x5 x8 (ix4 l B n' k)) (fun k => Read.val_main_v84 (F := Ideal) x6 x9 (ix4 l B n' k)) (fun j e => x10 (ix2 j e)) (fun e f => x11 (ix2 e f)) (fun e => x12 (ix2 e 0)) - (max ninf ((Finset.univ : Finset (Fin 32)).fold max ninf (fun n' => rScore (fun k => Read.val_main_v77 (F := Ideal) x5 x8 (ix4 l B n' k)) (fun k => Read.val_main_v84 (F := Ideal) x6 x9 (ix4 l B n' k)) (fun j e => x10 (ix2 j e)) (fun e f => x11 (ix2 e f)) (fun e => x12 (ix2 e 0)))))) := by
  rw [Read.val_main_v121_apply, Read.val_main_v120_apply,
    show Read.idx_main_v120 (Read.idx_main_v121 (ix3 l B n)) = ix2 l B from by idx_eq2, Read.val_main_v119_apply,
    Read.val_main_cst_27_apply, Ideal.ofBits_def, Ideal.ofBits_zero_f32, zero_add]
  refine Finset.sum_congr rfl fun k _ => ?_
  rw [show Read.idx_main_v119 (ix2 l B) k = ix3 l B k from by idx_eq3, expo_item]

/-- The softmax weight of neighbour `n`. -/
theorem att_item (n : Fin 32) :
    Read.val_main_v122 (F := Ideal) x5 x6 x8 x9 x10 x11 x12 (ix3 l B n) = smax (fun n' => rScore (fun k => Read.val_main_v77 (F := Ideal) x5 x8 (ix4 l B n' k)) (fun k => Read.val_main_v84 (F := Ideal) x6 x9 (ix4 l B n' k)) (fun j e => x10 (ix2 j e)) (fun e f => x11 (ix2 e f)) (fun e => x12 (ix2 e 0))) n := by
  rw [Read.val_main_v122_apply, expo_item, den_item]
  all_goals rfl

/-- The gate branch's first layer. -/
theorem hidG_item (n : Fin 32) (d : Fin 64) :
    Read.val_main_v124 (F := Ideal) x5 x6 x8 x9 x13 (ix4 l B n d) = rHid (fun k => Read.val_main_v77 (F := Ideal) x5 x8 (ix4 l B n k)) (fun k => Read.val_main_v84 (F := Ideal) x6 x9 (ix4 l B n k)) (fun j e => x13 (ix2 j e)) d := by
  rw [Read.val_main_v124_apply, Read.val_main_v123_apply, Read.val_main_call5_v0_apply, Read.val_main_call5_cst_apply]
  unfold rHid
  refine congrArg₂ max (Finset.sum_congr rfl fun k _ => ?_) Ideal.ofBits_zero_f32
  rw [show Read.lidx_main_v123 (ix4 l B n d) k = ix4 l B n k from by idx_eq4,
    show Read.ridx_main_v123 (ix4 l B n d) k = ix2 k d from by idx_eq2, feat_item]

/-- The gate: twice the logistic function of the gate branch's second layer. -/
theorem gate_item (n : Fin 32) (e : Fin 64) :
    Read.val_main_v133 (F := Ideal) x5 x6 x8 x9 x13 x14 (ix4 l B n e) = rGate (fun k => Read.val_main_v77 (F := Ideal) x5 x8 (ix4 l B n k)) (fun k => Read.val_main_v84 (F := Ideal) x6 x9 (ix4 l B n k)) (fun j e => x13 (ix2 j e)) (fun e f => x14 (ix2 e f)) e := by
  rw [Read.val_main_v133_apply, Read.val_main_v132_apply, Read.val_main_cst_30_apply, Read.val_main_v131_apply,
    Read.val_main_v130_apply, Read.val_main_cst_29_apply, Read.val_main_v129_apply, Read.val_main_v128_apply,
    Read.val_main_cst_28_apply, Read.val_main_v127_apply, Read.val_main_v126_apply, Read.val_main_v125_apply]
  unfold rGate Ideal.logistic
  simp only [Ideal.mulf_def, Ideal.hostDivf_def, Ideal.addf_def, Ideal.hostUnary_exp_def, Ideal.hostNegf_def,
    Ideal.negf_def, Ideal.ofBits_def, Ideal.ofBits_one_f32]
  refine congrArg (fun s => two * Ideal.div 1 (1 + Ideal.exp (-s))) (Finset.sum_congr rfl fun k _ => ?_)
  rw [show Read.lidx_main_v125 (ix4 l B n e) k = ix4 l B n k from by idx_eq4,
    show Read.ridx_main_v125 (ix4 l B n e) k = ix2 k e from by idx_eq2, hidG_item]

end Item

/-- The item tower's output at `(l, B, d)`: the attention-weighted, gated sum of the 32 neighbours' tail rows, as the
    plain spelling `rOut` of the gathered head, relation and tail rows of batch row `B` in layer `l`. -/
theorem refKA_item_apply (x5 x6 x7 : (⟨S2x4096x32, .i32⟩ : BufTy).Contents (Elt Ideal))
    (x8 : (⟨S100000x64, .f32⟩ : BufTy).Contents (Elt Ideal)) (x9 : (⟨S32x64, .f32⟩ : BufTy).Contents (Elt Ideal))
    (x10 : (⟨S128x64, .f32⟩ : BufTy).Contents (Elt Ideal)) (x11 : (⟨S64x64, .f32⟩ : BufTy).Contents (Elt Ideal))
    (x12 : (⟨S64x1, .f32⟩ : BufTy).Contents (Elt Ideal)) (x13 : (⟨S128x64, .f32⟩ : BufTy).Contents (Elt Ideal))
    (x14 : (⟨S64x64, .f32⟩ : BufTy).Contents (Elt Ideal)) (l : Fin 2) (B : Fin 4096) (d : Fin 64) :
    Read.val_main_v138 (F := Ideal) x5 x6 x7 x8 x9 x10 x11 x12 x13 x14 (ix3 l B d)
      = Cert.KA.rOut (fun n k => Read.val_main_v77 (F := Ideal) x5 x8 (ix4 l B n k))
          (fun n k => Read.val_main_v84 (F := Ideal) x6 x9 (ix4 l B n k))
          (fun n k => Read.val_main_v91 (F := Ideal) x7 x8 (ix4 l B n k))
          (fun j e => x10 (ix2 j e)) (fun e f => x11 (ix2 e f)) (fun e => x12 (ix2 e 0))
          (fun j e => x13 (ix2 j e)) (fun e f => x14 (ix2 e f)) d := by
  rw [Read.val_main_v138_apply, Read.val_main_cst_31_apply, Ideal.ofBits_def, Ideal.ofBits_zero_f32, zero_add]
  unfold rOut
  refine Finset.sum_congr rfl fun n _ => ?_
  rw [show Read.idx_main_v138 (ix3 l B d) n = ix4 l B n d from by idx_eq4, Read.val_main_v137_apply,
    Read.val_main_v136_apply, Read.val_main_v135_apply, Read.val_main_v134_apply,
    show Read.idx_main_v134 (Read.idx_main_v135 (ix4 l B n d)) = ix3 l B n from by idx_eq3,
    att_item, gate_item]
  all_goals rfl

/-! ## The scoring tail -/

/-- What the host does with the two towers' outputs: each tower's own embedding followed by its layer-0 and layer-1
    outputs makes a 192-wide row; the two rows are multiplied entry by entry, summed, and sent through the logistic
    function written as 1 / (1 + exp(−x)).  One function of the four arrays, never opened. -/
def refTail (uo : FVec Ideal S4096x64 .f32) (ku : FVec Ideal S2x4096x64 .f32) (io : FVec Ideal S4096x64 .f32)
    (ki : FVec Ideal S2x4096x64 .f32) : FVec Ideal S4096 .f32 :=
  Host.divf (F := Ideal) (broadcastInDim S4096 ![] bcast_S_S4096 (constant (F := Ideal) S_ .f32 0x3F800000#32))
    (addf (broadcastInDim S4096 ![] bcast_S_S4096 (constant (F := Ideal) S_ .f32 0x3F800000#32))
      (Host.exp (F := Ideal) (Host.negf (F := Ideal) (Host.reduceAdd (F := Ideal)
        (mulf
          (concatenate S4096x192 1
            [⟨S4096x64, uo⟩,
             ⟨S4096x64, shapeCast _ (extractStridedSlice S1x4096x64 ![0, 0, 0] ku slices_S2x4096x64_S1x4096x64_0_0_0)
                shapeCasts_S1x4096x64_S4096x64⟩,
             ⟨S4096x64, shapeCast _ (extractStridedSlice S1x4096x64 ![1, 0, 0] ku slices_S2x4096x64_S1x4096x64_1_0_0)
                shapeCasts_S1x4096x64_S4096x64⟩]
            concatenates_S4096x64_S4096x64_S4096x64_S4096x192_d1)
          (concatenate S4096x192 1
            [⟨S4096x64, io⟩,
             ⟨S4096x64, shapeCast _ (extractStridedSlice S1x4096x64 ![0, 0, 0] ki slices_S2x4096x64_S1x4096x64_0_0_0)
                shapeCasts_S1x4096x64_S4096x64⟩,
             ⟨S4096x64, shapeCast _ (extractStridedSlice S1x4096x64 ![1, 0, 0] ki slices_S2x4096x64_S1x4096x64_1_0_0)
                shapeCasts_S1x4096x64_S4096x64⟩]
            concatenates_S4096x64_S4096x64_S4096x64_S4096x192_d1))
        (constant (F := Ideal) S_ .f32 0x00000000#32) reducesTo_S4096x192_S4096_d1 h_S_))))

/-- The program's result is the scoring tail of the two towers' own embeddings and outputs. -/
theorem result_eq (x1 : (⟨S4096, .i32⟩ : BufTy).Contents (Elt Ideal))
    (x2 x3 x4 x5 x6 x7 : (⟨S2x4096x32, .i32⟩ : BufTy).Contents (Elt Ideal))
    (x8 : (⟨S100000x64, .f32⟩ : BufTy).Contents (Elt Ideal)) (x9 : (⟨S32x64, .f32⟩ : BufTy).Contents (Elt Ideal))
    (x10 : (⟨S128x64, .f32⟩ : BufTy).Contents (Elt Ideal)) (x11 : (⟨S64x64, .f32⟩ : BufTy).Contents (Elt Ideal))
    (x12 : (⟨S64x1, .f32⟩ : BufTy).Contents (Elt Ideal)) (x13 : (⟨S128x64, .f32⟩ : BufTy).Contents (Elt Ideal))
    (x14 : (⟨S64x64, .f32⟩ : BufTy).Contents (Elt Ideal)) :
    Read.val_main_v151 (F := Ideal) x1 x2 x3 x4 x5 x6 x7 x8 x9 x10 x11 x12 x13 x14
      = refTail (Read.val_main_v25 (F := Ideal) x2 x8)
          (Read.val_main_v65 (F := Ideal) x2 x3 x4 x8 x9 x10 x11 x12 x13 x14)
          (Read.val_main_v98 (F := Ideal) x1 x8)
          (Read.val_main_v138 (F := Ideal) x5 x6 x7 x8 x9 x10 x11 x12 x13 x14) := by
  unfold Read.val_main_v151 Read.val_main_v150 Read.val_main_v149 Read.val_main_v148 Read.val_main_v147
    Read.val_main_v146 Read.val_main_v145 Read.val_main_v144 Read.val_main_v143 Read.val_main_v142 Read.val_main_v141
    Read.val_main_v140 Read.val_main_v139 Read.val_main_v70 Read.val_main_v69 Read.val_main_v68 Read.val_main_v67
    Read.val_main_v66 Read.val_main_cst_32 Read.val_main_cst_33 Read.val_main_cst_34 refTail
  rfl

end Cert.ReferenceIdeal.RefValue

end
-- ==== Proof.KTailEq.lean ====
/-
  The scoring tail is one function in the two programs: the same host operations on the two towers' own embeddings and
  outputs, spelt once over each program's names for the shapes and their side conditions.
-/
import proofs.«172278_j10548439679188_2_alg».proof.Proof.KFold
import proofs.«172278_j10548439679188_2_alg».proof.Proof.RefValue

set_option maxRecDepth 16384

noncomputable section

namespace Cert.KernelIdeal.TailEq

open Idealize.ShloMosaic

/-- The two spellings differ only in the names of the shapes and of the proofs of their side conditions. -/
theorem kTail_eq_refTail (uo : (⟨Cert.KernelIdeal.S4096x64, .f32⟩ : BufTy).Contents (Elt Ideal))
    (ku : (⟨Cert.KernelIdeal.S2x4096x64, .f32⟩ : BufTy).Contents (Elt Ideal))
    (io : (⟨Cert.KernelIdeal.S4096x64, .f32⟩ : BufTy).Contents (Elt Ideal))
    (ki : (⟨Cert.KernelIdeal.S2x4096x64, .f32⟩ : BufTy).Contents (Elt Ideal)) :
    Cert.KernelIdeal.Fold.kTail uo ku io ki = Cert.ReferenceIdeal.RefValue.refTail uo ku io ki := rfl

end Cert.KernelIdeal.TailEq

end
-- ==== Proof.KBridge.lean ====
/-
  The kernel program's result is the reference's, at the exact values.  Each kernel's output array is the reference's
  attention stage of the same arguments: index by index the fused layer of the gathered rows (the blocks the grid points
  wrote, put together) equals the plain layer (the fused weights are the plain ones side by side / on the diagonal).
  The two origins are the reference's, and both programs finish with the same scoring tail.
-/
import proofs.«172278_j10548439679188_2_alg».proof.Proof.KFoldGather
import proofs.«172278_j10548439679188_2_alg».proof.Proof.KCover
import proofs.«172278_j10548439679188_2_alg».proof.Proof.KAAlgebra
import proofs.«172278_j10548439679188_2_alg».proof.Proof.RefValue
import proofs.«172278_j10548439679188_2_alg».proof.Proof.KTailEq

set_option maxRecDepth 16384

noncomputable section

namespace Cert.KernelIdeal.Bridge

open Cert.KernelIdeal Cert.KernelIdeal.Gen Cert.KernelIdeal.Hand Cert.KernelIdeal.Fold Cert.KernelIdeal.HostGlue
open Idealize.ShloMosaic Idealize.ShloMosaic.TcCoe Idealize.SL.Sem Idealize.ShloMosaic.ValueIdx

variable (m : (ℓ : Loc nD τ sig) → Buf (Elt Ideal) ℓ) (ρ : Dev nD → PrngReg)

/-- Region 0's output array at an index, over NAMES for what its six operand arrays hold. -/
theorem arr0_named (V : (c : Dev nD) → (b : Ref sig .tc) → Buf (Elt Ideal) ((c : Thread nD τ).loc b)) (c : Dev nD)
    (H R T : (⟨S2x4096x32x64, .bf16⟩ : BufTy).Contents (Elt Ideal)) (w12 w2g2 : (⟨S128x128, .bf16⟩ : BufTy).Contents (Elt Ideal)) (w3 : (⟨S1x64, .f32⟩ : BufTy).Contents (Elt Ideal))
    (hH : V c main_v17 = H) (hR : V c main_v24 = R) (hT : V c main_v31 = T) (h12 : V c main_v3 = w12) (h2g2 : V c main_v8 = w2g2) (h3 : V c main_v10 = w3)
    (l : Fin 2) (B : Fin 4096) (d : Fin 64) :
    (dat0 (F := Ideal) V c).arrAt 6 cfg0.N (ix3 l B d)
      = Cert.KA.kOut (fun n k => H (ix4 l B n k)) (fun n k => R (ix4 l B n k)) (fun n k => T (ix4 l B n k))
          (fun j k => w12 (ix2 j k)) (fun k e => w2g2 (ix2 k e)) (fun e => w3 (ix2 (0 : Fin 1) e)) d := by
  subst hH; subst hR; subst hT; subst h12; subst h2g2; subst h3
  exact Cover.arr0_apply V c l B d
/-- Region 1's likewise. -/
theorem arr1_named (V : (c : Dev nD) → (b : Ref sig .tc) → Buf (Elt Ideal) ((c : Thread nD τ).loc b)) (c : Dev nD)
    (H R T : (⟨S2x4096x32x64, .bf16⟩ : BufTy).Contents (Elt Ideal)) (w12 w2g2 : (⟨S128x128, .bf16⟩ : BufTy).Contents (Elt Ideal)) (w3 : (⟨S1x64, .f32⟩ : BufTy).Contents (Elt Ideal))
    (hH : V c main_v56 = H) (hR : V c main_v63 = R) (hT : V c main_v70 = T) (h12 : V c main_v3 = w12) (h2g2 : V c main_v8 = w2g2) (h3 : V c main_v10 = w3)
    (l : Fin 2) (B : Fin 4096) (d : Fin 64) :
    (dat1 (F := Ideal) V c).arrAt 6 cfg1.N (ix3 l B d)
      = Cert.KA.kOut (fun n k => H (ix4 l B n k)) (fun n k => R (ix4 l B n k)) (fun n k => T (ix4 l B n k))
          (fun j k => w12 (ix2 j k)) (fun k e => w2g2 (ix2 k e)) (fun e => w3 (ix2 (0 : Fin 1) e)) d := by
  subst hH; subst hR; subst hT; subst h12; subst h2g2; subst h3
  exact Cover.arr1_apply V c l B d

/-- The fused layer over the fused weights built from the plain ones is the plain layer, at every index. -/
theorem fused_eq_plain (H R T : (⟨S2x4096x32x64, .bf16⟩ : BufTy).Contents (Elt Ideal)) (a10 a13 : (⟨S128x64, .f32⟩ : BufTy).Contents (Elt Ideal)) (a11 a14 : (⟨S64x64, .f32⟩ : BufTy).Contents (Elt Ideal))
    (a12 : (⟨S64x1, .f32⟩ : BufTy).Contents (Elt Ideal)) (l : Fin 2) (B : Fin 4096) (d : Fin 64) :
    Cert.KA.kOut (fun n k => H (ix4 l B n k)) (fun n k => R (ix4 l B n k)) (fun n k => T (ix4 l B n k))
        (fun j k => Weights.w12T a10 a13 (ix2 j k)) (fun k e => Weights.w2g2T a11 a14 (ix2 k e)) (fun e => Weights.w3T a12 (ix2 (0 : Fin 1) e)) d
      = Cert.KA.rOut (fun n k => H (ix4 l B n k)) (fun n k => R (ix4 l B n k)) (fun n k => T (ix4 l B n k))
          (fun j e => a10 (ix2 j e)) (fun e f => a11 (ix2 e f)) (fun e => a12 (ix2 e (0 : Fin 1))) (fun j e => a13 (ix2 j e)) (fun e f => a14 (ix2 e f)) d := by
  simp only [Weights.w12T_apply, Weights.w2g2T_apply, Weights.w3T_apply]
  exact Cert.KA.kOut_eq_rOut _ _ _ _ _ _ _ _ d

/-- The user tower: region 0's output array is the reference's attention stage of the arguments. -/
theorem out0_eq (c : Dev nD) : (dat0 (F := Ideal) (V1 m ρ) c).arrAt 6 cfg0.N
    = Cert.ReferenceIdeal.Read.val_main_v65 (F := Ideal) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  funext i
  obtain ⟨l, B, d, rfl⟩ : ∃ (l : Fin 2) (B : Fin 4096) (d : Fin 64), i = ix3 l B d := ⟨i 0, i 1, i 2, eq_ix3 i⟩
  refine (arr0_named (V1 m ρ) c _ _ _ _ _ _ ((V1_uh m ρ c).trans (kUH_eq _ _)) ((V1_ur m ρ c).trans (kUR_eq _ _)) ((V1_ut m ρ c).trans (kUT_eq _ _))
    (V1_w12 m ρ c) (V1_w2g2 m ρ c) (V1_w3 m ρ c) l B d).trans ?_
  refine (fused_eq_plain _ _ _ _ _ _ _ _ l B d).trans ?_
  exact (Cert.ReferenceIdeal.RefValue.refKA_user_apply _ _ _ _ _ _ _ _ _ _ l B d).symm

/-- The item tower: region 1's output array likewise. -/
theorem out1_eq (c : Dev nD) : (dat1 (F := Ideal) (V3 m ρ) c).arrAt 6 cfg1.N
    = Cert.ReferenceIdeal.Read.val_main_v138 (F := Ideal) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  funext i
  obtain ⟨l, B, d, rfl⟩ : ∃ (l : Fin 2) (B : Fin 4096) (d : Fin 64), i = ix3 l B d := ⟨i 0, i 1, i 2, eq_ix3 i⟩
  refine (arr1_named (V3 m ρ) c _ _ _ _ _ _ ((V3_ih m ρ c).trans (kIH_eq _ _)) ((V3_ir m ρ c).trans (kIR_eq _ _)) ((V3_it m ρ c).trans (kIT_eq _ _))
    (V3_w12 m ρ c) (V3_w2g2 m ρ c) (V3_w3 m ρ c) l B d).trans ?_
  refine (fused_eq_plain _ _ _ _ _ _ _ _ l B d).trans ?_
  exact (Cert.ReferenceIdeal.RefValue.refKA_item_apply _ _ _ _ _ _ _ _ _ _ l B d).symm

/-- THE RESULT: what the run leaves in the result buffer is the reference's last stage of the arguments. -/
theorem result_eq (c : Dev nD) : W5 m ρ c (Proc.devRef .tc main_v91)
    = Cert.ReferenceIdeal.Read.val_main_v151 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [W5_result, V1_uo, V3_io, out0_eq, out1_eq, kUO_eq, kIO_eq, Cert.KernelIdeal.TailEq.kTail_eq_refTail]
  exact (Cert.ReferenceIdeal.RefValue.result_eq _ _ _ _ _ _ _ _ _ _ _ _ _ _).symm

end Cert.KernelIdeal.Bridge

end
-- ==== Proof.RefRunH0.lean ====
/-
  Reading the reference's fold of host operations: the rewriting pass that computes what a buffer holds after a list of
  operations (a three-operand operation read with each operand at its own reference), and the list cut at a position.
-/
import proofs.«172278_j10548439679188_2_alg».proof.Proof.RefReadP
import proofs.«172278_j10548439679188_2_alg».proof.Proof.LibFoldConcat
import Idealize.ShloMosaic.Lib.StableHlo.Run

set_option maxRecDepth 65536

noncomputable section

namespace Cert.ReferenceIdeal.RunH

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- The contents a buffer holds after a list of host operations, computed in one rewriting pass. -/
macro "ref_fold" : tactic =>
  `(tactic| (simp (disch := decide) only [after_cons, after_nil,
      nullary_result', unary_result', binary_result', ternary_result', quaternary_result', reshape_result', nary4_result',
      Cert.Lib.FoldConcat.nary3_result', unaryIndexed_result', binaryIndexed_result',
      nullary_result_ne', unary_result_ne', binary_result_ne', ternary_result_ne', quaternary_result_ne', reshape_result_ne',
      nary_result_ne', unaryIndexed_result_ne', binaryIndexed_result_ne']))

/-- The operations before the user tower's features are laid side by side (the first three-operand concatenate). -/
def opsA : List (HloOp τ sig (Elt Ideal)) := (ops (F := Ideal)).take 93
/-- The operations before the item tower's features are laid side by side (the second three-operand concatenate). -/
def opsB : List (HloOp τ sig (Elt Ideal)) := (ops (F := Ideal)).take 189

end Cert.ReferenceIdeal.RunH

end
-- ==== Proof.RefRunH1.lean ====
/-
  The user tower's three feature pieces as the reference's fold leaves them before its first three-operand concatenate:
  each is its stage of the arguments.
-/
import proofs.«172278_j10548439679188_2_alg».proof.Proof.RefReadP
import proofs.«172278_j10548439679188_2_alg».proof.Proof.LibFoldConcat
import proofs.«172278_j10548439679188_2_alg».proof.Proof.RefRunH0
import Idealize.ShloMosaic.Lib.StableHlo.Run

set_option maxRecDepth 65536

noncomputable section

namespace Cert.ReferenceIdeal.RunH

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

set_option maxHeartbeats 8000000 in
theorem a25 (V : Valuation τ sig (Elt Ideal)) : after opsA V (Proc.devRef .tc main_v25) = val_main_v25 (F := Ideal) (V (Proc.devRef .tc main_arg2)) (V (Proc.devRef .tc main_arg8)) := by
  simp only [opsA, ops, List.take_succ_cons, List.take_zero]
  ref_fold
  rfl
set_option maxHeartbeats 8000000 in
theorem a67 (V : Valuation τ sig (Elt Ideal)) : after opsA V (Proc.devRef .tc main_v67) = val_main_v67 (F := Ideal) (V (Proc.devRef .tc main_arg2)) (V (Proc.devRef .tc main_arg3)) (V (Proc.devRef .tc main_arg4)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [opsA, ops, List.take_succ_cons, List.take_zero]
  ref_fold
  rfl
set_option maxHeartbeats 8000000 in
theorem a69 (V : Valuation τ sig (Elt Ideal)) : after opsA V (Proc.devRef .tc main_v69) = val_main_v69 (F := Ideal) (V (Proc.devRef .tc main_arg2)) (V (Proc.devRef .tc main_arg3)) (V (Proc.devRef .tc main_arg4)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [opsA, ops, List.take_succ_cons, List.take_zero]
  ref_fold
  rfl

end Cert.ReferenceIdeal.RunH

end
-- ==== Proof.RefRunH2.lean ====
/-
  The item tower's three feature pieces as the reference's fold leaves them before its second three-operand concatenate:
  each is its stage of the arguments.
-/
import proofs.«172278_j10548439679188_2_alg».proof.Proof.RefReadP
import proofs.«172278_j10548439679188_2_alg».proof.Proof.LibFoldConcat
import proofs.«172278_j10548439679188_2_alg».proof.Proof.RefRunH0
import Idealize.ShloMosaic.Lib.StableHlo.Run

set_option maxRecDepth 65536

noncomputable section

namespace Cert.ReferenceIdeal.RunH

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

set_option maxHeartbeats 8000000 in
theorem b98 (V : Valuation τ sig (Elt Ideal)) : after opsB V (Proc.devRef .tc main_v98) = val_main_v98 (F := Ideal) (V (Proc.devRef .tc main_arg1)) (V (Proc.devRef .tc main_arg8)) := by
  simp only [opsB, ops, List.take_succ_cons, List.take_zero]
  ref_fold
  rfl
set_option maxHeartbeats 8000000 in
theorem b140 (V : Valuation τ sig (Elt Ideal)) : after opsB V (Proc.devRef .tc main_v140) = val_main_v140 (F := Ideal) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [opsB, ops, List.take_succ_cons, List.take_zero]
  ref_fold
  rfl
set_option maxHeartbeats 8000000 in
theorem b142 (V : Valuation τ sig (Elt Ideal)) : after opsB V (Proc.devRef .tc main_v142) = val_main_v142 (F := Ideal) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [opsB, ops, List.take_succ_cons, List.take_zero]
  ref_fold
  rfl

end Cert.ReferenceIdeal.RunH

end
-- ==== Proof.RefRunH3.lean ====
/-
  No host operation of the reference writes an argument: the fold leaves each argument buffer at its launch contents.
-/
import proofs.«172278_j10548439679188_2_alg».proof.Proof.RefReadP
import proofs.«172278_j10548439679188_2_alg».proof.Proof.LibFoldConcat
import proofs.«172278_j10548439679188_2_alg».proof.Proof.RefRunH0
import Idealize.ShloMosaic.Lib.StableHlo.Run

set_option maxRecDepth 65536

noncomputable section

namespace Cert.ReferenceIdeal.RunH

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

set_option maxHeartbeats 8000000 in
theorem kept0 (V : Valuation τ sig (Elt Ideal)) : after (ops (F := Ideal)) V (Proc.devRef .tc main_arg0) = V (Proc.devRef .tc main_arg0) := by
  simp only [ops]
  ref_fold
set_option maxHeartbeats 8000000 in
theorem kept1 (V : Valuation τ sig (Elt Ideal)) : after (ops (F := Ideal)) V (Proc.devRef .tc main_arg1) = V (Proc.devRef .tc main_arg1) := by
  simp only [ops]
  ref_fold
set_option maxHeartbeats 8000000 in
theorem kept2 (V : Valuation τ sig (Elt Ideal)) : after (ops (F := Ideal)) V (Proc.devRef .tc main_arg2) = V (Proc.devRef .tc main_arg2) := by
  simp only [ops]
  ref_fold
set_option maxHeartbeats 8000000 in
theorem kept3 (V : Valuation τ sig (Elt Ideal)) : after (ops (F := Ideal)) V (Proc.devRef .tc main_arg3) = V (Proc.devRef .tc main_arg3) := by
  simp only [ops]
  ref_fold
set_option maxHeartbeats 8000000 in
theorem kept4 (V : Valuation τ sig (Elt Ideal)) : after (ops (F := Ideal)) V (Proc.devRef .tc main_arg4) = V (Proc.devRef .tc main_arg4) := by
  simp only [ops]
  ref_fold
set_option maxHeartbeats 8000000 in
theorem kept5 (V : Valuation τ sig (Elt Ideal)) : after (ops (F := Ideal)) V (Proc.devRef .tc main_arg5) = V (Proc.devRef .tc main_arg5) := by
  simp only [ops]
  ref_fold
set_option maxHeartbeats 8000000 in
theorem kept6 (V : Valuation τ sig (Elt Ideal)) : after (ops (F := Ideal)) V (Proc.devRef .tc main_arg6) = V (Proc.devRef .tc main_arg6) := by
  simp only [ops]
  ref_fold
set_option maxHeartbeats 8000000 in
theorem kept7 (V : Valuation τ sig (Elt Ideal)) : after (ops (F := Ideal)) V (Proc.devRef .tc main_arg7) = V (Proc.devRef .tc main_arg7) := by
  simp only [ops]
  ref_fold
set_option maxHeartbeats 8000000 in
theorem kept8 (V : Valuation τ sig (Elt Ideal)) : after (ops (F := Ideal)) V (Proc.devRef .tc main_arg8) = V (Proc.devRef .tc main_arg8) := by
  simp only [ops]
  ref_fold
set_option maxHeartbeats 8000000 in
theorem kept9 (V : Valuation τ sig (Elt Ideal)) : after (ops (F := Ideal)) V (Proc.devRef .tc main_arg9) = V (Proc.devRef .tc main_arg9) := by
  simp only [ops]
  ref_fold
set_option maxHeartbeats 8000000 in
theorem kept10 (V : Valuation τ sig (Elt Ideal)) : after (ops (F := Ideal)) V (Proc.devRef .tc main_arg10) = V (Proc.devRef .tc main_arg10) := by
  simp only [ops]
  ref_fold
set_option maxHeartbeats 8000000 in
theorem kept11 (V : Valuation τ sig (Elt Ideal)) : after (ops (F := Ideal)) V (Proc.devRef .tc main_arg11) = V (Proc.devRef .tc main_arg11) := by
  simp only [ops]
  ref_fold
set_option maxHeartbeats 8000000 in
theorem kept12 (V : Valuation τ sig (Elt Ideal)) : after (ops (F := Ideal)) V (Proc.devRef .tc main_arg12) = V (Proc.devRef .tc main_arg12) := by
  simp only [ops]
  ref_fold
set_option maxHeartbeats 8000000 in
theorem kept13 (V : Valuation τ sig (Elt Ideal)) : after (ops (F := Ideal)) V (Proc.devRef .tc main_arg13) = V (Proc.devRef .tc main_arg13) := by
  simp only [ops]
  ref_fold
set_option maxHeartbeats 8000000 in
theorem kept14 (V : Valuation τ sig (Elt Ideal)) : after (ops (F := Ideal)) V (Proc.devRef .tc main_arg14) = V (Proc.devRef .tc main_arg14) := by
  simp only [ops]
  ref_fold

end Cert.ReferenceIdeal.RunH

end
-- ==== Proof.RefRunH.lean ====
/-
  The reference's run with its result named: every weakly fair execution terminates with the result buffer at the last
  stage of the arguments and the arguments unchanged.  The result is read off the fold of the 201 host operations: the
  two towers' features are three pieces each, laid side by side, and the score is the logistic (spelt 1 / (1 + e^(-x)))
  of the row sums of their product.
-/
import proofs.«172278_j10548439679188_2_alg».proof.Proof.RefReadP
import proofs.«172278_j10548439679188_2_alg».proof.Proof.LibFoldConcat
import proofs.«172278_j10548439679188_2_alg».proof.Proof.RefRunH1
import proofs.«172278_j10548439679188_2_alg».proof.Proof.RefRunH2
import proofs.«172278_j10548439679188_2_alg».proof.Proof.RefRunH3
import Idealize.ShloMosaic.Lib.StableHlo.Run

set_option maxRecDepth 65536

noncomputable section

namespace Cert.ReferenceIdeal.RunH

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

set_option maxHeartbeats 16000000 in
/-- The result buffer after the whole fold is the last stage of the arguments. -/
theorem result_after (V : Valuation τ sig (Elt Ideal)) : after (ops (F := Ideal)) V (Proc.devRef .tc main_v151)
    = val_main_v151 (F := Ideal) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [ops]
  ref_fold
  show Host.divf (F := Ideal) (broadcastInDim S4096 ![] bcast_S_S4096 (constant (F := Ideal) S_ .f32 0x3F800000#32))
    (addf (broadcastInDim S4096 ![] bcast_S_S4096 (constant (F := Ideal) S_ .f32 0x3F800000#32))
      (Host.exp (F := Ideal) (Host.negf (F := Ideal) (Host.reduceAdd (F := Ideal)
        (mulf
          (concatenate S4096x192 1 [⟨S4096x64, after opsA V (Proc.devRef .tc main_v25)⟩, ⟨S4096x64, after opsA V (Proc.devRef .tc main_v67)⟩,
            ⟨S4096x64, after opsA V (Proc.devRef .tc main_v69)⟩] concatenates_S4096x64_S4096x64_S4096x64_S4096x192_d1)
          (concatenate S4096x192 1 [⟨S4096x64, after opsB V (Proc.devRef .tc main_v98)⟩, ⟨S4096x64, after opsB V (Proc.devRef .tc main_v140)⟩,
            ⟨S4096x64, after opsB V (Proc.devRef .tc main_v142)⟩] concatenates_S4096x64_S4096x64_S4096x64_S4096x192_d1))
        (constant (F := Ideal) S_ .f32 0x00000000#32) reducesTo_S4096x192_S4096_d1 h_S_)))) = _
  rw [a25, a67, a69, b98, b140, b142]
  rfl

/-- THE REFERENCE'S RUN. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v151) = val_main_v151 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v151).trans (result_after (launchContents m c)),
      (h c main_arg0).trans (kept0 (launchContents m c)),
      (h c main_arg1).trans (kept1 (launchContents m c)),
      (h c main_arg2).trans (kept2 (launchContents m c)),
      (h c main_arg3).trans (kept3 (launchContents m c)),
      (h c main_arg4).trans (kept4 (launchContents m c)),
      (h c main_arg5).trans (kept5 (launchContents m c)),
      (h c main_arg6).trans (kept6 (launchContents m c)),
      (h c main_arg7).trans (kept7 (launchContents m c)),
      (h c main_arg8).trans (kept8 (launchContents m c)),
      (h c main_arg9).trans (kept9 (launchContents m c)),
      (h c main_arg10).trans (kept10 (launchContents m c)),
      (h c main_arg11).trans (kept11 (launchContents m c)),
      (h c main_arg12).trans (kept12 (launchContents m c)),
      (h c main_arg13).trans (kept13 (launchContents m c)),
      (h c main_arg14).trans (kept14 (launchContents m c))⟩)
    (run_after (F := Ideal) m ρ)

end Cert.ReferenceIdeal.RunH

end
-- ==== Proof.lean ====
/-
  Two programs for one scoring function of a knowledge graph: per batch row and layer, thirty-two neighbours' head and
  relation embeddings go through a two-layer attention branch (a score per neighbour, softmax over the neighbours) and a
  two-layer gate branch, and the gated, attention-weighted tail embeddings are summed; the user and the item tower's
  features are multiplied, summed and sent through the logistic function.  The kernel program runs the layer in two
  kernels over blocks of 128 batch rows, with both branches' first layers fused into one 128-wide product and the second
  layers into one block-diagonal product; the reference runs five separate products on the host.
  On the extended reals the two are the same function: a sum over 128 splits into its two halves, a product with zero
  is zero, and nothing else distinguishes the spellings — no finiteness of the inputs is used.
  Each frame is the program's run with the results dropped.
-/
import proofs.«172278_j10548439679188_2_alg».proof.Defs
import proofs.«172278_j10548439679188_2_alg».proof.Proof.Gen.Kernel
import proofs.«172278_j10548439679188_2_alg».proof.Proof.Gen.KernelIdeal
import proofs.«172278_j10548439679188_2_alg».proof.Proof.Gen.ReferenceIdeal
import proofs.«172278_j10548439679188_2_alg».proof.Proof.Gen.Pre_finite_inputs
import proofs.«172278_j10548439679188_2_alg».proof.Proof.KRunBits
import proofs.«172278_j10548439679188_2_alg».proof.Proof.KRunIdeal
import proofs.«172278_j10548439679188_2_alg».proof.Proof.KBridge
import proofs.«172278_j10548439679188_2_alg».proof.Proof.RefRunH
import Idealize.ShloMosaic.Adequacy
import Idealize.ShloMosaic.Init

noncomputable section

namespace Cert.Proof

open Idealize.ShloMosaic Idealize.ShloMosaic.TcCoe Idealize.SL.Sem

/-- The kernel program at the word level runs to the end and leaves its arguments alone. -/
theorem frame_k : Cert.frame_Kernel := fun m ρ _ => Cert.Kernel.Hand.frame m ρ
/-- So does it at the exact values. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RunH.run m ρ)

/-- Both programs end with the reference's last stage of the (shared) arguments in the result buffer. -/
theorem algebraic : Cert.algebraic_KernelIdeal_ReferenceIdeal := by
  intro m ρ m' ρ' _ hagree
  refine ⟨fun c => Cert.ReferenceIdeal.Read.val_main_v151 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run Cert.KernelIdeal.defs _ _).mono (fun r h c => ⟨?_, (h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c),
      (h c _ (Cert.KernelIdeal.Hand.mem_uc Cert.KernelIdeal.main_arg6 (by decide))).trans (Cert.KernelIdeal.Hand.W5_main_arg6 m ρ c),
      (h c _ (Cert.KernelIdeal.Hand.mem_uc Cert.KernelIdeal.main_arg7 (by decide))).trans (Cert.KernelIdeal.Hand.W5_main_arg7 m ρ c),
      (h c _ (Cert.KernelIdeal.Hand.mem_uc Cert.KernelIdeal.main_arg8 (by decide))).trans (Cert.KernelIdeal.Hand.W5_main_arg8 m ρ c),
      (h c _ (Cert.KernelIdeal.Hand.mem_uc Cert.KernelIdeal.main_arg9 (by decide))).trans (Cert.KernelIdeal.Hand.W5_main_arg9 m ρ c),
      (h c _ (Cert.KernelIdeal.Hand.mem_uc Cert.KernelIdeal.main_arg10 (by decide))).trans (Cert.KernelIdeal.Hand.W5_main_arg10 m ρ c),
      (h c _ (Cert.KernelIdeal.Hand.mem_uc Cert.KernelIdeal.main_arg11 (by decide))).trans (Cert.KernelIdeal.Hand.W5_main_arg11 m ρ c),
      (h c _ (Cert.KernelIdeal.Hand.mem_uc Cert.KernelIdeal.main_arg12 (by decide))).trans (Cert.KernelIdeal.Hand.W5_main_arg12 m ρ c),
      (h c _ (Cert.KernelIdeal.Hand.mem_uc Cert.KernelIdeal.main_arg13 (by decide))).trans (Cert.KernelIdeal.Hand.W5_main_arg13 m ρ c),
      (h c _ (Cert.KernelIdeal.Hand.mem_uc Cert.KernelIdeal.main_arg14 (by decide))).trans (Cert.KernelIdeal.Hand.W5_main_arg14 m ρ c)⟩)
      (Cert.KernelIdeal.Hand.run_all m ρ)
    exact (h c _ (Cert.KernelIdeal.Hand.mem_uc Cert.KernelIdeal.main_v91 (by decide))).trans (Cert.KernelIdeal.Bridge.result_eq m ρ c)
  · refine (θ_run Cert.ReferenceIdeal.defs _ _).mono (fun _ h c => ⟨(h c).1.trans ?_, (h c).2⟩)
      (Cert.ReferenceIdeal.RunH.run m' ρ')
    obtain ⟨h0, h1, h2, h3, h4, h5, h6, h7, h8, h9, h10, h11, h12, h13, h14⟩ := hagree c
    rw [h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
